-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S6144x784 : S_.BroadcastsInDim S6144x784 (![] : Fin 0 → Fin S6144x784.rank)
  reducesTo_S6144x784_S_d0_1 : S6144x784.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S10x6144 : S_.BroadcastsInDim S10x6144 (![] : Fin 0 → Fin S10x6144.rank)
  reducesTo_S10x6144_S_d0_1 : S10x6144.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S6144 1) (main_c_39 : IVec S_ 1) : IVec S_ 1 :=
  let main_v102 : IVec S_ 1 := (fun x v => Host.reduce IntOp.andi x v reducesTo_S6144_S_d0 h_S_) main_v101 main_c_39
  let main_v103 : IVec S_ 1 := andi main_v98 main_v102
  main_v103

def fn_part5 {F : FTy → Type} [FloatOps F] (main_arg18 : FVec F S6144 .f32) (main_arg19 : FVec F S6144 .f32) (main_arg20 : FVec F S6144 .f32) (main_v83 : IVec S_ 1) (main_v84 : FVec F S6144 .f32) (main_cst_32 : FVec F S_ .f32) : IVec S_ 1 :=
  let main_v85 : FVec F S6144 .f32 := broadcastInDim S6144 ![] bcast_S_S6144 main_cst_32
  let main_v86 : IVec S6144 1 := cmpf .olt main_v84 main_v85
  let main_c_33 : IVec S_ 1 := constantI S_ 1 1#1
  let main_v87 : IVec S_ 1 := (fun x v => Host.reduce IntOp.andi x v reducesTo_S6144_S_d0 h_S_) main_v86 main_c_33
  let main_v88 : IVec S_ 1 := andi main_v83 main_v87
  let main_v89 : FVec F S6144 .f32 := Host.absf main_arg18
  let main_cst_34 : FVec F S_ .f32 := constant S_ .f32 0x7F800000#32
  let main_v90 : FVec F S6144 .f32 := broadcastInDim S6144 ![] bcast_S_S6144 main_cst_34
  let main_v91 : IVec S6144 1 := cmpf .olt main_v89 main_v90
  let main_c_35 : IVec S_ 1 := constantI S_ 1 1#1
  let main_v92 : IVec S_ 1 := (fun x v => Host.reduce IntOp.andi x v reducesTo_S6144_S_d0 h_S_) main_v91 main_c_35
  let main_v93 : IVec S_ 1 := andi main_v88 main_v92
  let main_v94 : FVec F S6144 .f32 := Host.absf main_arg19
  let main_cst_36 : FVec F S_ .f32 := constant S_ .f32 0x7F800000#32
  let main_v95 : FVec F S6144 .f32 := broadcastInDim S6144 ![] bcast_S_S6144 main_cst_36
  let main_v96 : IVec S6144 1 := cmpf .olt main_v94 main_v95
  let main_c_37 : IVec S_ 1 := constantI S_ 1 1#1
  let main_v97 : IVec S_ 1 := (fun x v => Host.reduce IntOp.andi x v reducesTo_S6144_S_d0 h_S_) main_v96 main_c_37
  let main_v98 : IVec S_ 1 := andi main_v93 main_v97
  let main_v99 : FVec F S6144 .f32 := Host.absf main_arg20
  let main_cst_38 : FVec F S_ .f32 := constant S_ .f32 0x7F800000#32
  let main_v100 : FVec F S6144 .f32 := broadcastInDim S6144 ![] bcast_S_S6144 main_cst_38
  let main_v101 : IVec S6144 1 := cmpf .olt main_v99 main_v100
  let main_c_39 : IVec S_ 1 := constantI S_ 1 1#1
  fn_part6 (F := F) main_v98 main_v101 main_c_39

def fn_part4 {F : FTy → Type} [FloatOps F] (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v63 : IVec S_ 1) (main_v67 : IVec S_ 1) : IVec S_ 1 :=
  let main_v68 : IVec S_ 1 := andi main_v63 main_v67
  let main_v69 : FVec F S6144 .f32 := Host.absf main_arg14
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S6144 .f32 := Host.absf main_arg15
  let main_cst_28 : FVec F S_ .f32 := constant S_ .f32 0x7F800000#32
  let main_v75 : FVec F S6144 .f32 := broadcastInDim S6144 ![] bcast_S_S6144 main_cst_28
  let main_v76 : IVec S6144 1 := cmpf .olt main_v74 main_v75
  let main_c_29 : IVec S_ 1 := constantI S_ 1 1#1
  let main_v77 : IVec S_ 1 := (fun x v => Host.reduce IntOp.andi x v reducesTo_S6144_S_d0 h_S_) main_v76 main_c_29
  let main_v78 : IVec S_ 1 := andi main_v73 main_v77
  let main_v79 : FVec F S6144 .f32 := Host.absf main_arg16
  let main_cst_30 : FVec F S_ .f32 := constant S_ .f32 0x7F800000#32
  let main_v80 : FVec F S6144 .f32 := broadcastInDim S6144 ![] bcast_S_S6144 main_cst_30
  let main_v81 : IVec S6144 1 := cmpf .olt main_v79 main_v80
  let main_c_31 : IVec S_ 1 := constantI S_ 1 1#1
  let main_v82 : IVec S_ 1 := (fun x v => Host.reduce IntOp.andi x v reducesTo_S6144_S_d0 h_S_) main_v81 main_c_31
  let main_v83 : IVec S_ 1 := andi main_v78 main_v82
  let main_v84 : FVec F S6144 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S6144 .f32 := Host.absf main_arg12
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144 .f32 := Host.absf main_arg13
  let main_cst_24 : FVec F S_ .f32 := constant S_ .f32 0x7F800000#32
  let main_v65 : FVec F S6144 .f32 := broadcastInDim S6144 ![] bcast_S_S6144 main_cst_24
  let main_v66 : IVec S6144 1 := cmpf .olt main_v64 main_v65
  let main_c_25 : IVec S_ 1 := constantI S_ 1 1#1
  let main_v67 : IVec S_ 1 := (fun x v => Host.reduce IntOp.andi x v reducesTo_S6144_S_d0 h_S_) main_v66 main_c_25
  fn_part4 (F := F) main_arg14 main_arg15 main_arg16 main_arg17 main_arg18 main_arg19 main_arg20 main_v63 main_v67

def fn_part2 {F : FTy → Type} [FloatOps F] (main_arg7 : FVec F S10x6144 .f32) (main_arg8 : FVec F S10 .f32) (main_arg9 : FVec F S6144 .f32) (main_arg10 : FVec F S6144 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v33 : IVec S_ 1) : IVec S_ 1 :=
  let main_v34 : FVec F S10x6144 .f32 := Host.absf main_arg7
  let main_cst_12 : FVec F S_ .f32 := constant S_ .f32 0x7F800000#32
  let main_v35 : FVec F S10x6144 .f32 := broadcastInDim S10x6144 ![] bcast_S_S10x6144 main_cst_12
  let main_v36 : IVec S10x6144 1 := cmpf .olt main_v34 main_v35
  let main_c_13 : IVec S_ 1 := constantI S_ 1 1#1
  let main_v37 : IVec S_ 1 := (fun x v => Host.reduce IntOp.andi x v reducesTo_S10x6144_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S6144 .f32) (main_arg5 : FVec F S6144x6144 .f32) (main_arg6 : FVec F S6144 .f32) (main_arg7 : FVec F S10x6144 .f32) (main_arg8 : FVec F S10 .f32) (main_arg9 : FVec F S6144 .f32) (main_arg10 : FVec F S6144 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v13 : IVec S_ 1) (main_v16 : IVec S6144x6144 1) : IVec S_ 1 :=
  let main_c_5 : IVec S_ 1 := constantI S_ 1 1#1
  let main_v17 : IVec S_ 1 := (fun x v => Host.reduce IntOp.andi x v reducesTo_S6144x6144_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144x6144 .f32 := Host.absf main_arg5
  let main_cst_8 : FVec F S_ .f32 := constant S_ .f32 0x7F800000#32
  let main_v25 : FVec F S6144x6144 .f32 := broadcastInDim S6144x6144 ![] bcast_S_S6144x6144 main_cst_8
  let main_v26 : IVec S6144x6144 1 := cmpf .olt main_v24 main_v25
  let main_c_9 : IVec S_ 1 := constantI S_ 1 1#1
  let main_v27 : IVec S_ 1 := (fun x v => Host.reduce IntOp.andi x v reducesTo_S6144x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x784 .f32) (main_arg1 : FVec F S6144x784 .f32) (main_arg2 : FVec F S6144 .f32) (main_arg3 : FVec F S6144x6144 .f32) (main_arg4 : FVec F S6144 .f32) (main_arg5 : FVec F S6144x6144 .f32) (main_arg6 : FVec F S6144 .f32) (main_arg7 : FVec F S10x6144 .f32) (main_arg8 : FVec F S10 .f32) (main_arg9 : FVec F S6144 .f32) (main_arg10 : FVec F S6144 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S6144x784 .f32 := Host.absf main_arg1
  let main_cst_0 : FVec F S_ .f32 := constant S_ .f32 0x7F800000#32
  let main_v5 : FVec F S6144x784 .f32 := broadcastInDim S6144x784 ![] bcast_S_S6144x784 main_cst_0
  let main_v6 : IVec S6144x784 1 := cmpf .olt main_v4 main_v5
  let main_c_1 : IVec S_ 1 := constantI S_ 1 1#1
  let main_v7 : IVec S_ 1 := (fun x v => Host.reduce IntOp.andi x v reducesTo_S6144x784_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S6144x6144 .f32 := Host.absf main_arg3
  let main_cst_4 : FVec F S_ .f32 := constant S_ .f32 0x7F800000#32
  let main_v15 : FVec F S6144x6144 .f32 := broadcastInDim S6144x6144 ![] bcast_S_S6144x6144 main_cst_4
  let main_v16 : IVec S6144x6144 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x784 : Shape := ⟨2, ![8192, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩
abbrev S1x6144 : Shape := ⟨2, ![1, 6144]⟩
abbrev S8192x6144 : Shape := ⟨2, ![8192, 6144]⟩
abbrev S1024x784 : Shape := ⟨2, ![1024, 784]⟩
abbrev S512x784 : Shape := ⟨2, ![512, 784]⟩
abbrev S1x512 : Shape := ⟨2, ![1, 512]⟩
abbrev S1024x512 : Shape := ⟨2, ![1024, 512]⟩
abbrev S1x1024 : Shape := ⟨2, ![1, 1024]⟩
abbrev S1024x1024 : Shape := ⟨2, ![1024, 1024]⟩
abbrev S1x10 : Shape := ⟨2, ![1, 10]⟩
abbrev S8192x10 : Shape := ⟨2, ![8192, 10]⟩
abbrev S10x1024 : Shape := ⟨2, ![10, 1024]⟩
abbrev S1024x10 : Shape := ⟨2, ![1024, 10]⟩
abbrev S1024 : Shape := ⟨1, ![1024]⟩
abbrev S1024x1 : Shape := ⟨2, ![1024, 1]⟩

abbrev nBuf : Space → Nat
  | .hbm => 71
  | .vmem => 58
  | .smem => 0
  | _ => 0

abbrev bufTy : (tb : Table) → Fin (tcTables nBuf tb) → BufTy
  | .hbm, ⟨0, _⟩ => ⟨S8192x784, .f32⟩
  | .hbm, ⟨1, _⟩ => ⟨S6144x784, .f32⟩
  | .hbm, ⟨2, _⟩ => ⟨S6144, .f32⟩
  | .hbm, ⟨3, _⟩ => ⟨S6144x6144, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S10x6144, .f32⟩
  | .hbm, ⟨8, _⟩ => ⟨S10, .f32⟩
  | .hbm, ⟨9, _⟩ => ⟨S6144, .f32⟩
  | .hbm, ⟨10, _⟩ => ⟨S6144, .f32⟩
  | .hbm, ⟨11, _⟩ => ⟨S6144, .f32⟩
  | .hbm, ⟨12, _⟩ => ⟨S6144, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S6144, .f32⟩
  | .hbm, ⟨18, _⟩ => ⟨S6144, .f32⟩
  | .hbm, ⟨19, _⟩ => ⟨S6144, .f32⟩
  | .hbm, ⟨20, _⟩ => ⟨S6144, .f32⟩
  | .hbm, ⟨21, _⟩ => ⟨S_, .f32⟩
  | .hbm, ⟨22, _⟩ => ⟨S6144x784, .f32⟩
  | .hbm, ⟨23, _⟩ => ⟨S6144x784, .i1⟩
  | .hbm, ⟨24, _⟩ => ⟨S_, .f32⟩
  | .hbm, ⟨25, _⟩ => ⟨S_, .f32⟩
  | .hbm, ⟨26, _⟩ => ⟨S6144x784, .f32⟩
  | .hbm, ⟨27, _⟩ => ⟨S6144x784, .f32⟩
  | .hbm, ⟨28, _⟩ => ⟨S6144x784, .f32⟩
  | .hbm, ⟨29, _⟩ => ⟨S6144x784, .f32⟩
  | .hbm, ⟨30, _⟩ => ⟨S_, .f32⟩
  | .hbm, ⟨31, _⟩ => ⟨S6144x6144, .f32⟩
  | .hbm, ⟨32, _⟩ => ⟨S6144x6144, .i1⟩
  | .hbm, ⟨33, _⟩ => ⟨S_, .f32⟩
  | .hbm, ⟨34, _⟩ => ⟨S_, .f32⟩
  | .hbm, ⟨35, _⟩ => ⟨S6144x6144, .f32⟩
  | .hbm, ⟨36, _⟩ => ⟨S6144x6144, .f32⟩
  | .hbm, ⟨37, _⟩ => ⟨S6144x6144, .f32⟩
  | .hbm, ⟨38, _⟩ => ⟨S6144x6144, .f32⟩
  | .hbm, ⟨39, _⟩ => ⟨S6144x6144, .bf16⟩
  | .hbm, ⟨40, _⟩ => ⟨S_, .f32⟩
  | .hbm, ⟨41, _⟩ => ⟨S6144x6144, .f32⟩
  | .hbm, ⟨42, _⟩ => ⟨S6144x6144, .i1⟩
  | .hbm, ⟨43, _⟩ => ⟨S_, .f32⟩
  | .hbm, ⟨44, _⟩ => ⟨S_, .f32⟩
  | .hbm, ⟨45, _⟩ => ⟨S6144x6144, .f32⟩
  | .hbm, ⟨46, _⟩ => ⟨S6144x6144, .f32⟩
  | .hbm, ⟨47, _⟩ => ⟨S6144x6144, .f32⟩
  | .hbm, ⟨48, _⟩ => ⟨S6144x6144, .f32⟩
  | .hbm, ⟨49, _⟩ => ⟨S6144x6144, .bf16⟩
  | .hbm, ⟨50, _⟩ => ⟨S10x6144, .bf16⟩
  | .hbm, ⟨51, _⟩ => ⟨S1x6144, .f32⟩
  | .hbm, ⟨52, _⟩ => ⟨S1x6144, .f32⟩
  | .hbm, ⟨53, _⟩ => ⟨S1x6144, .f32⟩
  | .hbm, ⟨54, _⟩ => ⟨S1x6144, .f32⟩
  | .hbm, ⟨55, _⟩ => ⟨S1x6144, .f32⟩
  | .hbm, ⟨56, _⟩ => ⟨S8192x6144, .bf16⟩
  | .hbm, ⟨57, _⟩ => ⟨S1x6144, .f32⟩
  | .hbm, ⟨58, _⟩ => ⟨S1x6144, .f32⟩
  | .hbm, ⟨59, _⟩ => ⟨S1x6144, .f32⟩
  | .hbm, ⟨60, _⟩ => ⟨S1x6144, .f32⟩
  | .hbm, ⟨61, _⟩ => ⟨S1x6144, .f32⟩
  | .hbm, ⟨62, _⟩ => ⟨S8192x6144, .bf16⟩
  | .hbm, ⟨63, _⟩ => ⟨S1x6144, .f32⟩
  | .hbm, ⟨64, _⟩ => ⟨S1x6144, .f32⟩
  | .hbm, ⟨65, _⟩ => ⟨S1x6144, .f32⟩
  | .hbm, ⟨66, _⟩ => ⟨S1x6144, .f32⟩
  | .hbm, ⟨67, _⟩ => ⟨S1x6144, .f32⟩
  | .hbm, ⟨68, _⟩ => ⟨S8192x6144, .bf16⟩
  | .hbm, ⟨69, _⟩ => ⟨S1x10, .f32⟩
  | .hbm, ⟨70, _⟩ => ⟨S8192x10, .f32⟩
  | .local _ .vmem, ⟨0, _⟩ => ⟨S1024x784, .f32⟩
  | .local _ .vmem, ⟨1, _⟩ => ⟨S1024x784, .f32⟩
  | .local _ .vmem, ⟨2, _⟩ => ⟨S512x784, .f32⟩
  | .local _ .vmem, ⟨3, _⟩ => ⟨S512x784, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | .local _ .vmem, ⟨33, _⟩ => ⟨S1024x512, .bf16⟩
  | .local _ .vmem, ⟨34, _⟩ => ⟨S1024x512, .bf16⟩
  | .local _ .vmem, ⟨35, _⟩ => ⟨S1024x512, .bf16⟩
  | .local _ .vmem, ⟨36, _⟩ => ⟨S1024x512, .bf16⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1024x1024, .bf16⟩
  | .local _ .vmem, ⟨48, _⟩ => ⟨S1024x1024, .bf16⟩
  | .local _ .vmem, ⟨49, _⟩ => ⟨S1024x1024, .f32⟩
  | .local _ .vmem, ⟨50, _⟩ => ⟨S1024x1024, .bf16⟩
  | .local _ .vmem, ⟨51, _⟩ => ⟨S1024x1024, .bf16⟩
  | .local _ .vmem, ⟨52, _⟩ => ⟨S10x1024, .bf16⟩
  | .local _ .vmem, ⟨53, _⟩ => ⟨S10x1024, .bf16⟩
  | .local _ .vmem, ⟨54, _⟩ => ⟨S1x10, .f32⟩
  | .local _ .vmem, ⟨55, _⟩ => ⟨S1024x10, .f32⟩
  | .local _ .vmem, ⟨56, _⟩ => ⟨S1024x10, .f32⟩
  | .local _ .vmem, ⟨57, _⟩ => ⟨S1024x10, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_cst_2 : Ref sig .tc := ⟨.hbm, 30, rfl⟩
abbrev main_v4 : Ref sig .tc := ⟨.hbm, 31, rfl⟩
abbrev main_v5 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_5 : Ref sig .tc := ⟨.hbm, 40, rfl⟩
abbrev main_v9 : Ref sig .tc := ⟨.hbm, 41, rfl⟩
abbrev main_v10 : Ref sig .tc := ⟨.hbm, 42, rfl⟩
abbrev main_cst_6 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_scratch0 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg5_1 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg7_1 : Ref sig .tc := ⟨.vmem, 48, rfl⟩
abbrev cc2_scratch0 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg3_1 : Ref sig .tc := ⟨.vmem, 56, rfl⟩
abbrev cc3_scratch0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem3_0 : DmaSem sig := 53
abbrev cc3_sem3_1 : DmaSem sig := 54

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![8, 6, 12], ![false, false, false]⟩

def k1_cond2 (i : grid1.Coords) : BitVec 1 :=
  let arg2 : BitVec 32 := BitVec.ofNat 32 (i 2).val
  let c11_i32 : BitVec 32 := 11#32
  let v13 : BitVec 1 := Scalar.cmpi .eq arg2 c11_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 6, 12], ![false, false, false]⟩

def k2_cond2 (i : grid2.Coords) : BitVec 1 :=
  let arg2 : BitVec 32 := BitVec.ofNat 32 (i 2).val
  let c11_i32 : BitVec 32 := 11#32
  let v13 : BitVec 1 := Scalar.cmpi .eq arg2 c11_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev grid3 : Pipeline.Grid := ⟨2, ![8, 6], ![false, false]⟩

def k3_cond2 (i : grid3.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S10x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bcast_S_S6144x784 : S_.BroadcastsInDim S6144x784 (![] : Fin 0 → Fin S6144x784.rank)
  bcast_S_S6144x6144 : S_.BroadcastsInDim S6144x6144 (![] : Fin 0 → Fin S6144x6144.rank)
  bitsLt_bf16_f32 : FTy.bits .bf16 < FTy.bits .f32
  shapeCasts_S6144_S1x6144 : S6144.ShapeCasts S1x6144
  inb_S1024x784_S1024x784_0_0 : ∀ a, (![0, 0] : Fin 2 → Nat) a + S1024x784.size a ≤ S1024x784.size a
  h_S1024x784 : 0 < S1024x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S10_S1x10 : S10.ShapeCasts S1x10
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  dot_S1024x784_S512x784_S1024x512_1_1_0_0_n_n_wf : DotDims.WF S1024x784 S512x784 S1024x512 [1] [1] [0] [0] [] []
  dot_S1024x512_S1024x512_S1024x1024_1_1_0_0_n_n_wf : DotDims.WF S1024x512 S1024x512 S1024x1024 [1] [1] [0] [0] [] []
  dot_S1024x1024_S10x1024_S1024x10_1_1_0_0_n_n_wf : DotDims.WF S1024x1024 S10x1024 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S8192x784.size a
  hwx0_0 : ∀ i : grid0.Coords, EltTy.bits .f32 = 32 ∨ (Rect.block (s := S8192x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S6144x784.size a
  hwx0_1 : ∀ i : grid0.Coords, EltTy.bits .f32 = 32 ∨ (Rect.block (s := S6144x784) S512x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x6144.size a
  hwx0_3 : ∀ i : grid0.Coords, EltTy.bits .f32 = 32 ∨ (Rect.block (s := S1x6144) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x6144.size a
  hwx0_4 : ∀ i : grid0.Coords, EltTy.bits .f32 = 32 ∨ (Rect.block (s := S1x6144) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x6144.size a
  hwx0_5 : ∀ i : grid0.Coords, EltTy.bits .f32 = 32 ∨ (Rect.block (s := S1x6144) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x6144.size a
  hwx0_6 : ∀ i : grid0.Coords, EltTy.bits .f32 = 32 ∨ (Rect.block (s := S1x6144) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x6144.size a
  hwx0_7 : ∀ i : grid0.Coords, EltTy.bits .bf16 = 32 ∨ (Rect.block (s := S8192x6144) S1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x6144.size a
  hwx1_0 : ∀ i : grid1.Coords, EltTy.bits .bf16 = 32 ∨ (Rect.block (s := S8192x6144) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S6144x6144.size a
  hwx1_1 : ∀ i : grid1.Coords, EltTy.bits .bf16 = 32 ∨ (Rect.block (s := S6144x6144) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x6144.size a
  hwx1_2 : ∀ i : grid1.Coords, EltTy.bits .f32 = 32 ∨ (Rect.block (s := S1x6144) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x6144.size a
  hwx1_3 : ∀ i : grid1.Coords, EltTy.bits .f32 = 32 ∨ (Rect.block (s := S1x6144) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x6144.size a
  hwx1_4 : ∀ i : grid1.Coords, EltTy.bits .f32 = 32 ∨ (Rect.block (s := S1x6144) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x6144.size a
  hwx1_5 : ∀ i : grid1.Coords, EltTy.bits .f32 = 32 ∨ (Rect.block (s := S1x6144) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x6144.size a
  hwx1_6 : ∀ i : grid1.Coords, EltTy.bits .f32 = 32 ∨ (Rect.block (s := S1x6144) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x6144.size a
  hwx1_7 : ∀ i : grid1.Coords, EltTy.bits .bf16 = 32 ∨ (Rect.block (s := S8192x6144) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x6144.size a
  hwx2_0 : ∀ i : grid2.Coords, EltTy.bits .bf16 = 32 ∨ (Rect.block (s := S8192x6144) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S6144x6144.size a
  hwx2_1 : ∀ i : grid2.Coords, EltTy.bits .bf16 = 32 ∨ (Rect.block (s := S6144x6144) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x6144.size a
  hwx2_2 : ∀ i : grid2.Coords, EltTy.bits .f32 = 32 ∨ (Rect.block (s := S1x6144) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x6144.size a
  hwx2_3 : ∀ i : grid2.Coords, EltTy.bits .f32 = 32 ∨ (Rect.block (s := S1x6144) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x6144.size a
  hwx2_4 : ∀ i : grid2.Coords, EltTy.bits .f32 = 32 ∨ (Rect.block (s := S1x6144) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x6144.size a
  hwx2_5 : ∀ i : grid2.Coords, EltTy.bits .f32 = 32 ∨ (Rect.block (s := S1x6144) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x6144.size a
  hwx2_6 : ∀ i : grid2.Coords, EltTy.bits .f32 = 32 ∨ (Rect.block (s := S1x6144) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S8192x6144.size a
  hwx2_7 : ∀ i : grid2.Coords, EltTy.bits .bf16 = 32 ∨ (Rect.block (s := S8192x6144) S1024x1024.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x6144.size a
  hwx3_0 : ∀ i : grid3.Coords, EltTy.bits .bf16 = 32 ∨ (Rect.block (s := S8192x6144) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10x1024.size a ≤ S10x6144.size a
  hwx3_1 : ∀ i : grid3.Coords, EltTy.bits .bf16 = 32 ∨ (Rect.block (s := S10x6144) S10x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x10.size a ≤ S8192x10.size a
  hwx3_3 : ∀ i : grid3.Coords, EltTy.bits .f32 = 32 ∨ (Rect.block (s := S8192x10) S1024x10.size (cc3_transform_3 i) (hinb3_3 i)).WholeWords (EltTy.packing .f32)

variable [Facts₀]

def dot_S1024x784_S512x784_S1024x512_1_1_0_0_n_n : DotDims S1024x784 S512x784 S1024x512 where
  lhsContracting := [1]
  rhsContracting := [1]
  lhsNonContracting := [0]
  rhsNonContracting := [0]
  lhsBatch := []
  rhsBatch := []
  wf := dot_S1024x784_S512x784_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S10x1024_S1024x10_1_1_0_0_n_n : DotDims S1024x1024 S10x1024 S1024x10 where
  lhsContracting := [1]
  rhsContracting := [1]
  lhsNonContracting := [0]
  rhsNonContracting := [0]
  lhsBatch := []
  rhsBatch := []
  wf := dot_S1024x1024_S10x1024_S1024x10_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v26) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v31) S1x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v32) S1024x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v32) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1024x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x784 : Shape := ⟨2, ![8192, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩
abbrev S784x6144 : Shape := ⟨2, ![784, 6144]⟩
abbrev S8192x6144 : Shape := ⟨2, ![8192, 6144]⟩
abbrev S1x6144 : Shape := ⟨2, ![1, 6144]⟩
abbrev S6144x10 : Shape := ⟨2, ![6144, 10]⟩
abbrev S8192x10 : Shape := ⟨2, ![8192, 10]⟩
abbrev S1x10 : Shape := ⟨2, ![1, 10]⟩
abbrev S8192 : Shape := ⟨1, ![8192]⟩
abbrev S8192x1 : Shape := ⟨2, ![8192, 1]⟩

abbrev nBuf : Space → Nat
  | .hbm => 176
  | .vmem => 0
  | .smem => 0
  | _ => 0

abbrev hbmTy0_0 (i : Nat) : BufTy := match i % 128 with
  | 0 => ⟨S8192x784, .f32⟩
  | 1 => ⟨S6144x784, .f32⟩
  | 2 => ⟨S6144, .f32⟩
  | 3 => ⟨S6144x6144, .f32⟩
  | 4 => ⟨S6144, .f32⟩
  | 5 => ⟨S6144x6144, .f32⟩
  | 6 => ⟨S6144, .f32⟩
  | 7 => ⟨S10x6144, .f32⟩
  | 8 => ⟨S10, .f32⟩
  | 9 => ⟨S6144, .f32⟩
  | 10 => ⟨S6144, .f32⟩
  | 11 => ⟨S6144, .f32⟩
  | 12 => ⟨S6144, .f32⟩
  | 13 => ⟨S6144, .f32⟩
  | 14 => ⟨S6144, .f32⟩
  | 15 => ⟨S6144, .f32⟩
  | 16 => ⟨S6144, .f32⟩
  | 17 => ⟨S6144, .f32⟩
  | 18 => ⟨S6144, .f32⟩
  | 19 => ⟨S6144, .f32⟩
  | 20 => ⟨S6144, .f32⟩
  | 21 => ⟨S_, .f32⟩
  | 22 => ⟨S6144x784, .f32⟩
  | 23 => ⟨S6144x784, .i1⟩
  | 24 => ⟨S_, .f32⟩
  | 25 => ⟨S_, .f32⟩
  | 26 => ⟨S6144x784, .f32⟩
  | 27 => ⟨S6144x784, .f32⟩
  | 28 => ⟨S6144x784, .f32⟩
  | 29 => ⟨S6144x784, .f32⟩
  | 30 => ⟨S784x6144, .f32⟩
  | 31 => ⟨S8192x6144, .f32⟩
  | 32 => ⟨S1x6144, .f32⟩
  | 33 => ⟨S8192x6144, .f32⟩
  | 34 => ⟨S8192x6144, .f32⟩
  | 35 => ⟨S1x6144, .f32⟩
  | 36 => ⟨S8192x6144, .f32⟩
  | 37 => ⟨S8192x6144, .f32⟩
  | 38 => ⟨S_, .f32⟩
  | 39 => ⟨S6144, .f32⟩
  | 40 => ⟨S6144, .f32⟩
  | 41 => ⟨S6144, .f32⟩
  | 42 => ⟨S6144, .f32⟩
  | 43 => ⟨S1x6144, .f32⟩
  | 44 => ⟨S8192x6144, .f32⟩
  | 45 => ⟨S8192x6144, .f32⟩
  | 46 => ⟨S1x6144, .f32⟩
  | 47 => ⟨S8192x6144, .f32⟩
  | 48 => ⟨S8192x6144, .f32⟩
  | 49 => ⟨S_, .f32⟩
  | 50 => ⟨S_, .f32⟩
  | 51 => ⟨S_, .f32⟩
  | 52 => ⟨S8192x6144, .f32⟩
  | 53 => ⟨S8192x6144, .f32⟩
  | 54 => ⟨S_, .f32⟩
  | 55 => ⟨S8192x6144, .f32⟩
  | 56 => ⟨S8192x6144, .f32⟩
  | 57 => ⟨S_, .f32⟩
  | 58 => ⟨S8192x6144, .f32⟩
  | 59 => ⟨S8192x6144, .i1⟩
  | 60 => ⟨S_, .f32⟩
  | 61 => ⟨S_, .f32⟩
  | 62 => ⟨S8192x6144, .f32⟩
  | 63 => ⟨S8192x6144, .f32⟩
  | 64 => ⟨S8192x6144, .f32⟩
  | 65 => ⟨S8192x6144, .f32⟩
  | 66 => ⟨S_, .f32⟩
  | 67 => ⟨S6144x6144, .f32⟩
  | 68 => ⟨S6144x6144, .i1⟩
  | 69 => ⟨S_, .f32⟩
  | 70 => ⟨S_, .f32⟩
  | 71 => ⟨S6144x6144, .f32⟩
  | 72 => ⟨S6144x6144, .f32⟩
  | 73 => ⟨S6144x6144, .f32⟩
  | 74 => ⟨S6144x6144, .f32⟩
  | 75 => ⟨S6144x6144, .f32⟩
  | 76 => ⟨S8192x6144, .f32⟩
  | 77 => ⟨S1x6144, .f32⟩
  | 78 => ⟨S8192x6144, .f32⟩
  | 79 => ⟨S8192x6144, .f32⟩
  | 80 => ⟨S1x6144, .f32⟩
  | 81 => ⟨S8192x6144, .f32⟩
  | 82 => ⟨S8192x6144, .f32⟩
  | 83 => ⟨S_, .f32⟩
  | 84 => ⟨S6144, .f32⟩
  | 85 => ⟨S6144, .f32⟩
  | 86 => ⟨S6144, .f32⟩
  | 87 => ⟨S6144, .f32⟩
  | 88 => ⟨S1x6144, .f32⟩
  | 89 => ⟨S8192x6144, .f32⟩
  | 90 => ⟨S8192x6144, .f32⟩
  | 91 => ⟨S1x6144, .f32⟩
  | 92 => ⟨S8192x6144, .f32⟩
  | 93 => ⟨S8192x6144, .f32⟩
  | 94 => ⟨S_, .f32⟩
  | 95 => ⟨S_, .f32⟩
  | 96 => ⟨S_, .f32⟩
  | 97 => ⟨S8192x6144, .f32⟩
  | 98 => ⟨S8192x6144, .f32⟩
  | 99 => ⟨S_, .f32⟩
  | 100 => ⟨S8192x6144, .f32⟩
  | 101 => ⟨S8192x6144, .f32⟩
  | 102 => ⟨S_, .f32⟩
  | 103 => ⟨S8192x6144, .f32⟩
  | 104 => ⟨S8192x6144, .i1⟩
  | 105 => ⟨S_, .f32⟩
  | 106 => ⟨S_, .f32⟩
  | 107 => ⟨S8192x6144, .f32⟩
  | 108 => ⟨S8192x6144, .f32⟩
  | 109 => ⟨S8192x6144, .f32⟩
  | 110 => ⟨S8192x6144, .f32⟩
  | 111 => ⟨S_, .f32⟩
  | 112 => ⟨S6144x6144, .f32⟩
  | 113 => ⟨S6144x6144, .i1⟩
  | 114 => ⟨S_, .f32⟩
  | 115 => ⟨S_, .f32⟩
  | 116 => ⟨S6144x6144, .f32⟩
  | 117 => ⟨S6144x6144, .f32⟩
  | 118 => ⟨S6144x6144, .f32⟩
  | 119 => ⟨S6144x6144, .f32⟩
  | 120 => ⟨S6144x6144, .f32⟩
  | 121 => ⟨S8192x6144, .f32⟩
  | 122 => ⟨S1x6144, .f32⟩
  | 123 => ⟨S8192x6144, .f32⟩
  | 124 => ⟨S8192x6144, .f32⟩
  | 125 => ⟨S1x6144, .f32⟩
  | 126 => ⟨S8192x6144, .f32⟩
  | 127 => ⟨S8192x6144, .f32⟩
  | _ => ⟨S8192x784, .f32⟩

abbrev hbmTy0_1 (i : Nat) : BufTy := match i % 128 with
  | 0 => ⟨S_, .f32⟩
  | 1 => ⟨S6144, .f32⟩
  | 2 => ⟨S6144, .f32⟩
  | 3 => ⟨S6144, .f32⟩
  | 4 => ⟨S6144, .f32⟩
  | 5 => ⟨S1x6144, .f32⟩
  | 6 => ⟨S8192x6144, .f32⟩
  | 7 => ⟨S8192x6144, .f32⟩
  | 8 => ⟨S1x6144, .f32⟩
  | 9 => ⟨S8192x6144, .f32⟩
  | 10 => ⟨S8192x6144, .f32⟩
  | 11 => ⟨S_, .f32⟩
  | 12 => ⟨S_, .f32⟩
  | 13 => ⟨S_, .f32⟩
  | 14 => ⟨S8192x6144, .f32⟩
  | 15 => ⟨S8192x6144, .f32⟩
  | 16 => ⟨S_, .f32⟩
  | 17 => ⟨S8192x6144, .f32⟩
  | 18 => ⟨S8192x6144, .f32⟩
  | 19 => ⟨S_, .f32⟩
  | 20 => ⟨S8192x6144, .f32⟩
  | 21 => ⟨S8192x6144, .i1⟩
  | 22 => ⟨S_, .f32⟩
  | 23 => ⟨S_, .f32⟩
  | 24 => ⟨S8192x6144, .f32⟩
  | 25 => ⟨S8192x6144, .f32⟩
  | 26 => ⟨S8192x6144, .f32⟩
  | 27 => ⟨S8192x6144, .f32⟩
  | 28 => ⟨S6144x10, .f32⟩
  | 29 => ⟨S8192x10, .f32⟩
  | 30 => ⟨S1x10, .f32⟩
  | 31 => ⟨S8192x10, .f32⟩
  | 32 => ⟨S8192x10, .f32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x10, .f32⟩
  | 40 => ⟨S8192x10, .f32⟩
  | 41 => ⟨S8192x10, .f32⟩
  | 42 => ⟨S_, .f32⟩
  | 43 => ⟨S8192, .f32⟩
  | 44 => ⟨S8192x1, .f32⟩
  | 45 => ⟨S8192x1, .f32⟩
  | 46 => ⟨S8192x10, .f32⟩
  | 47 => ⟨S8192x10, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_v25 : Ref sig .tc := ⟨.hbm, 64, rfl⟩
abbrev main_v26 : Ref sig .tc := ⟨.hbm, 65, rfl⟩
abbrev main_cst_8 : Ref sig .tc := ⟨.hbm, 66, rfl⟩
abbrev main_v27 : Ref sig .tc := ⟨.hbm, 67, rfl⟩
abbrev main_v28 : Ref sig .tc := ⟨.hbm, 68, rfl⟩
abbrev main_cst_9 : Ref sig .tc := ⟨.hbm, 69, rfl⟩
abbrev main_cst_10 : Ref sig .tc := ⟨.hbm, 70, rfl⟩
abbrev main_call3_v0 : Ref sig .tc := ⟨.hbm, 71, rfl⟩
abbrev main_call3_v1 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_11 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_12 : Ref sig .tc := ⟨.hbm, 94, rfl⟩
abbrev main_cst_13 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v49 : Ref sig .tc := ⟨.hbm, 101, rfl⟩
abbrev main_cst_14 : Ref sig .tc := ⟨.hbm, 102, rfl⟩
abbrev main_v50 : Ref sig .tc := ⟨.hbm, 103, rfl⟩
abbrev main_v51 : Ref sig .tc := ⟨.hbm, 104, rfl⟩
abbrev main_cst_15 : Ref sig .tc := ⟨.hbm, 105, rfl⟩
abbrev main_cst_16 : Ref sig .tc := ⟨.hbm, 106, rfl⟩
abbrev main_call5_v0 : Ref sig .tc := ⟨.hbm, 107, rfl⟩
abbrev main_call5_v1 : Ref sig .tc := ⟨.hbm, 108, rfl⟩
abbrev main_v52 : Ref sig .tc := ⟨.hbm, 109, rfl⟩
abbrev main_v53 : Ref sig .tc := ⟨.hbm, 110, rfl⟩
abbrev main_cst_17 : Ref sig .tc := ⟨.hbm, 111, rfl⟩
abbrev main_v54 : Ref sig .tc := ⟨.hbm, 112, rfl⟩
abbrev main_v55 : Ref sig .tc := ⟨.hbm, 113, rfl⟩
abbrev main_cst_18 : Ref sig .tc := ⟨.hbm, 114, rfl⟩
abbrev main_cst_19 : Ref sig .tc := ⟨.hbm, 115, rfl⟩
abbrev main_call6_v0 : Ref sig .tc := ⟨.hbm, 116, rfl⟩
abbrev main_call6_v1 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_20 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_21 : Ref sig .tc := ⟨.hbm, 139, rfl⟩
abbrev main_cst_22 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_v76 : Ref sig .tc := ⟨.hbm, 146, rfl⟩
abbrev main_cst_23 : Ref sig .tc := ⟨.hbm, 147, rfl⟩
abbrev main_v77 : Ref sig .tc := ⟨.hbm, 148, rfl⟩
abbrev main_v78 : Ref sig .tc := ⟨.hbm, 149, rfl⟩
abbrev main_cst_24 : Ref sig .tc := ⟨.hbm, 150, rfl⟩
abbrev main_cst_25 : Ref sig .tc := ⟨.hbm, 151, rfl⟩
abbrev main_call8_v0 : Ref sig .tc := ⟨.hbm, 152, rfl⟩
abbrev main_call8_v1 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_call9_cst : Ref sig .tc := ⟨.hbm, 161, rfl⟩
abbrev main_call9_v0 : Ref sig .tc := ⟨.hbm, 162, rfl⟩
abbrev main_call9_cst_0 : Ref sig .tc := ⟨.hbm, 163, rfl⟩
abbrev main_call9_v1 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_call9_v5 : Ref sig .tc := ⟨.hbm, 168, rfl⟩
abbrev main_call9_v6 : Ref sig .tc := ⟨.hbm, 169, rfl⟩
abbrev main_call9_cst_1 : Ref sig .tc := ⟨.hbm, 170, rfl⟩
abbrev main_call9_v7 : Ref sig .tc := ⟨.hbm, 171, rfl⟩
abbrev main_call9_v8 : Ref sig .tc := ⟨.hbm, 172, rfl⟩
abbrev main_call9_v9 : Ref sig .tc := ⟨.hbm, 173, rfl⟩
abbrev main_call9_v10 : Ref sig .tc := ⟨.hbm, 174, rfl⟩
abbrev main_v86 : Ref sig .tc := ⟨.hbm, 175, rfl⟩

abbrev nD : Nat := 1
abbrev τ : Topo := Topo.v7x

variable {F : FTy → Type} [FloatOps F]

class Facts₀ : Prop where
  bcast_S_S6144x784 : S_.BroadcastsInDim S6144x784 (![] : Fin 0 → Fin S6144x784.rank)
  transposes_S6144x784_S784x6144_1_0 : S6144x784.Transposes [1, 0] S784x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  bcast_S_S6144 : S_.BroadcastsInDim S6144 (![] : Fin 0 → Fin S6144.rank)
  bcast_S_S8192x6144 : S_.BroadcastsInDim S8192x6144 (![] : Fin 0 → Fin S8192x6144.rank)
  bcast_S_S6144x6144 : S_.BroadcastsInDim S6144x6144 (![] : Fin 0 → Fin S6144x6144.rank)
  transposes_S6144x6144_S6144x6144_1_0 : S6144x6144.Transposes [1, 0] S6144x6144
  transposes_S10x6144_S6144x10_1_0 : S10x6144.Transposes [1, 0] S6144x10
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  dot_S8192x784_S784x6144_S8192x6144_1_0_0_1_n_n_wf : DotDims.WF S8192x784 S784x6144 S8192x6144 [1] [0] [0] [1] [] []
  dot_S8192x6144_S6144x6144_S8192x6144_1_0_0_1_n_n_wf : DotDims.WF S8192x6144 S6144x6144 S8192x6144 [1] [0] [0] [1] [] []
  dot_S8192x6144_S6144x10_S8192x10_1_0_0_1_n_n_wf : DotDims.WF S8192x6144 S6144x10 S8192x10 [1] [0] [0] [1] [] []

variable [Facts₀]

def dot_S8192x784_S784x6144_S8192x6144_1_0_0_1_n_n : DotDims S8192x784 S784x6144 S8192x6144 where
  lhsContracting := [1]
  rhsContracting := [0]
  lhsNonContracting := [0]
  rhsNonContracting := [1]
  lhsBatch := []
  rhsBatch := []
  wf := dot_S8192x784_S784x6144_S8192x6144_1_0_0_1_n_n_wf
def dot_S8192x6144_S6144x6144_S8192x6144_1_0_0_1_n_n : DotDims S8192x6144 S6144x6144 S8192x6144 where
  lhsContracting := [1]
  rhsContracting := [0]
  lhsNonContracting := [0]
  rhsNonContracting := [1]
  lhsBatch := []
  rhsBatch := []
  wf := dot_S8192x6144_S6144x6144_S8192x6144_1_0_0_1_n_n_wf
def dot_S8192x6144_S6144x10_S8192x10_1_0_0_1_n_n : DotDims S8192x6144 S6144x10 S8192x10 where
  lhsContracting := [1]
  rhsContracting := [0]
  lhsNonContracting := [0]
  rhsNonContracting := [1]
  lhsBatch := []
  rhsBatch := []
  wf := dot_S8192x6144_S6144x10_S8192x10_1_0_0_1_n_n_wf

class Facts : Prop extends Facts₀ where

variable [Facts]
-- ==== Proof.KernelFrame.Reg0.lean ====
/- The frame half of REGION 0 (custom_call 0, `cc0__layer1_kernel`, pipeline 0), stated at a PARAMETER `V`: the
   TensorCore's buffer contents when the region is entered. Each window's block at a point (`iblk0`); what the body
   leaves in the output window's staging buffer as a closed function of the seven input blocks (`out0_7`); the body's
   triple on whole staging memrefs (`sound_kernel0`); the proof data (`dat0`) and the body obligation at every grid
   point (`body_obligation0`). The body loads whole input blocks, computes one payload and stores it over the whole
   output block; it keeps nothing from point to point. -/
import proofs.«103984_j66743791780425_2_alg».proof.Proof.Gen.Kernel.Launch
import proofs.«103984_j66743791780425_2_alg».proof.Proof.Gen.Kernel.Skeleton
import proofs.«103984_j66743791780425_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0: custom_call 0, `cc0__layer1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x784 := Rect.unit (s := S1024x784) ![0, 0] S1024x784.size inb_S1024x784_S1024x784_0_0
abbrev r0_1 : Rect S512x784 := Rect.unit (s := S512x784) ![0, 0] S512x784.size inb_S512x784_S512x784_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output window's buffer -/

/-- Window 7's staging buffer after the body, from the seven input windows' blocks: its one store as a piece. The
    payload takes the loaded values in the order the body loads them: windows 0, 1, 2, 3, then 6, 5, 4. -/
def out0_7 (x0 : Vec F S1024x784 .f32) (x1 : Vec F S512x784 .f32) (x2 : Vec F S1x512 .f32) (x3 : Vec F S1x512 .f32)
    (x4 : Vec F S1x512 .f32) (x5 : Vec F S1x512 .f32) (x6 : Vec F S1x512 .f32) : Vec F S1024x512 .bf16 :=
  View.canon [⟨r0_3, k0_pay1 (View.ld x0 r0_0) (View.ld x1 r0_1) (View.ld x2 r0_2) (View.ld x3 r0_2) (View.ld x6 r0_2) (View.ld x5 r0_2) (View.ld x4 r0_2)⟩]

/-- The one store is over the whole block, so it covers the buffer. -/
theorem cover0_7 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

/-! ## The body's triple -/

set_option maxHeartbeats 4000000 in
/-- The kernel body on whole staging memrefs, the inputs' at read contents `xW` and the output's at anything, runs to
    the continuation holding the inputs' as they were and the output's at `out0_7` of the inputs': the printed function
    is its skeleton, whose loads and one store are run one by one. The load of the output buffer before the store
    reads whatever the buffer holds; its value is not used. -/
theorem sound_kernel0 (c : Dev nD) (E : Set ℕ) (i : grid0.Coords) (arg2 : Memref sig .tc .vmem S1024x784 .f32) (harg2 : arg2.IsWhole) (arg3 : Memref sig .tc .vmem S512x784 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .bf16) (harg9 : arg9.IsWhole)
    (x0 : Vec F S1024x784 .f32) (x1 : Vec F S512x784 .f32) (x2 : Vec F S1x512 .f32) (x3 : Vec F S1x512 .f32) (x4 : Vec F S1x512 .f32) (x5 : Vec F S1x512 .f32) (x6 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at the region's entry is the class's, -/
theorem hin0 (c : Dev nD) : (Pipeline.ΦA spec0 c : sProp 𝕄) ⊢ (dat0 V c).Φ 0 := Entails.refl _
/-- and so it is at the region's exit. -/
theorem hout0 (c : Dev nD) : (dat0 V c).Φ (Fin.last cfg0.N) ⊢ (Pipeline.ΦA spec0 c : sProp 𝕄) := Entails.refl _

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame
-- ==== Proof.KernelFrame.Reg1.lean ====
import proofs.«103984_j66743791780425_2_alg».proof.Proof.Gen.Kernel.Launch
import proofs.«103984_j66743791780425_2_alg».proof.Proof.Gen.Kernel.Skeleton
import proofs.«103984_j66743791780425_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

theorem hz1 : (![0, 0] : Fin 2 → Nat) = fun _ => 0 := funext fun a => by fin_cases a <;> rfl

/-- The condition of the body's first `scf.if` (the reset), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 12): the first step of the innermost axis. -/
theorem hcond1_0 : ∀ t : Fin cfg1.N, cond1_0 (grid1.coords t) ↔ t.val % 12 = 0 :=
  (by decide +kernel : ∀ t : Fin grid1.N, cond1_0 (grid1.coords t) ↔ t.val % 12 = 0)

/-- The condition of the body's second `scf.if` (the epilogue). -/
abbrev cond1_1 (i : grid1.Coords) : Prop := k1_cond2 i = 1#1
/-- It holds at the points ≡ 11 (mod 12): the last step of the innermost axis. -/
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Off the last step of the innermost axis the output window is idle (the body stores nothing into it), -/
theorem idleAt1_7 (t : Fin cfg1.N) (h1 : ¬t.val % 12 = 11) : cfg1.idle 7 (grid1.coords t) = true := by
  have h : ¬cond1_1 (grid1.coords t) := fun h => h1 ((hcond1_1 t).mp h)
  show (!(k1_cond2 (grid1.coords t) == 1#1)) = true
  rw [Bool.not_eq_true', beq_eq_false_iff_ne]; exact h
/-- and is not written back there; -/
theorem noFlush1_7 (t : Fin cfg1.N) (h1 : ¬t.val % 12 = 11) : (cfg1.win 7).flush t = false :=
  Bool.eq_false_iff.mpr fun h => h1 ((flush1_7 t).mp h)
/-- at the last step it is live. -/
theorem liveAt1_7 (t : Fin cfg1.N) (h1 : t.val % 12 = 11) : cfg1.idle 7 (grid1.coords t) = false := by
  have h : cond1_1 (grid1.coords t) := (hcond1_1 t).mpr h1
  show (!(k1_cond2 (grid1.coords t) == 1#1)) = false
  rw [Bool.not_eq_false', beq_iff_eq]; exact h

/-! ## The staging and scratch memrefs -/

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
/-- The scratch operand: a whole scoped buffer of the kernel's own, passed beside the windows and carried between points. -/
abbrev scM1_0 : Memref sig .tc .vmem S1024x1024 .f32 := Memref.whole cc1_scratch0

/-- The region's invariant with the scratch operand as a memref owned at some contents; the other scoped buffers unopened. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; rfl

/-! ## The kernel body on any whole staging memrefs, case by case -/

/-- A covering store through the whole-shape rectangle, made last, leaves its payload, whatever was stored before. -/
theorem read_writes_unit1 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- CASE A (first step of the innermost axis): the body resets the accumulator to zeros, reads it back, and leaves
    `0 + x₀·x₁ᵀ` in it; the inputs are handed back as they were; nothing else is touched. -/
theorem kernelRun1_A (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond1_0 i) (hc1 : ¬cond1_1 i)
    (x0 : Vec F S1024x512 .bf16) (x1 : Vec F S1024x512 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1
            ∗ owns (c : Thread nD τ) arg11 fullShare (k1_pay2 (k1_pay1 (F := F)) x0 x1)) -∗ K ⟨⟩))
      ⊢ wp frame (wpE (defs₀ (F := F)) Variants.none c none) E (cc1__stage_kernel i arg3 harg3 arg4 harg4 arg5 harg5 arg6 harg6 arg7 harg7 arg8 harg8 arg9 harg9 arg10 harg10 arg11 harg11) K := by
  simp only [cc1__stage_kernel_eq_skeleton]; unfold cc1__stage_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit1 _ _ hz1, View.readCov_unit_zero (S := S1024x1024) _ hz1]
  simp only [View.readAt_eq_ld, harg3.read_unread, harg4.read_unread, View.ld_unit_zero (S := S1024x512) hz1]

set_option maxHeartbeats 1000000 in
/-- CASE B (an inner step): the body adds `x₀·x₁ᵀ` to the accumulator. -/
theorem kernelRun1_B (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond1_0 i) (hc1 : ¬cond1_1 i)
    (x0 : Vec F S1024x512 .bf16) (x1 : Vec F S1024x512 .bf16) (xs0 : Vec F S1024x1024 .f32) (E : Set ℕ) (K : PUnit → sProp 𝕄) :
    iprop(owns (c : Thread nD τ) arg3 fullShare x0 ∗ owns (c : Thread nD τ) arg4 fullShare x1 ∗ owns (c : Thread nD τ) arg11 fullShare xs0
        ∗ (iprop(owns (c : Thread nD τ) arg3 fullShare x0 ∗ owns (c : Thread nD τ) arg4 fullShare x1
            ∗ owns (c : Thread nD τ) arg11 fullShare (k1_pay2 xs0 x0 x1)) -∗ K ⟨⟩))
      ⊢ wp frame (wpE (defs₀ (F := F)) Variants.none c none) E (cc1__stage_kernel i arg3 harg3 arg4 harg4 arg5 harg5 arg6 harg6 arg7 harg7 arg8 harg8 arg9 harg9 arg10 harg10 arg11 harg11) K := by
  simp only [cc1__stage_kernel_eq_skeleton]; unfold cc1__stage_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit1 _ _ hz1]
  simp only [View.readAt_eq_ld, harg3.read_unread, harg4.read_unread, harg11.read_unread, View.ld_unit_zero (S := S1024x512) hz1, View.ld_unit_zero (S := S1024x1024) hz1]

set_option maxHeartbeats 1000000 in
/-- CASE C (last step of the innermost axis): the body adds `x₀·x₁ᵀ` to the accumulator, then stores the epilogue of the
    sum and the five rows (bias, batch norm, sign) over the whole output block. -/
theorem kernelRun1_C (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond1_0 i) (hc1 : cond1_1 i)
    (x0 : Vec F S1024x512 .bf16) (x1 : Vec F S1024x512 .bf16) (x2 x3 x4 x5 x6 : Vec F S1x1024 .f32) (xs0 : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare x4
        ∗ owns (c : Thread nD τ) arg8 fullShare x5 ∗ owns (c : Thread nD τ) arg9 fullShare x6
        ∗ (∃ d, owns (c : Thread nD τ) arg10 fullShare d) ∗ owns (c : Thread nD τ) arg11 fullShare xs0
        ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare x5 ∗ owns (c : Thread nD τ) arg9 fullShare x6
            ∗ owns (c : Thread nD τ) arg10 fullShare (k1_pay3 (k1_pay2 xs0 x0 x1) x2 x3 x6 x5 x4)
            ∗ owns (c : Thread nD τ) arg11 fullShare (k1_pay2 xs0 x0 x1)) -∗ K ⟨⟩))
      ⊢ wp frame (wpE (defs₀ (F := F)) Variants.none c none) E (cc1__stage_kernel i arg3 harg3 arg4 harg4 arg5 harg5 arg6 harg6 arg7 harg7 arg8 harg8 arg9 harg9 arg10 harg10 arg11 harg11) K := by
  simp only [cc1__stage_kernel_eq_skeleton]; unfold cc1__stage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    sl_unfold_words
    rw [read_writes_unit1 _ _ hz1]

    simp only [View.readCov_unit_zero (S := S1024x1024) _ hz1, View.readAt_eq_ld, harg3.read_unread, harg4.read_unread, harg5.read_unread, harg6.read_unread, harg7.read_unread, harg8.read_unread, harg9.read_unread, harg11.read_unread, View.ld_unit_zero (S := S1024x512) hz1, View.ld_unit_zero (S := S1x1024) hz1, View.ld_unit_zero (S := S1024x1024) hz1]
  iexists _; isplitr
  swap; · iexact HS0
  ipureintro
  sl_unfold_words
  rw [read_writes_unit1 _ _ hz1]
  simp only [View.readAt_eq_ld, harg3.read_unread, harg4.read_unread, harg11.read_unread, View.ld_unit_zero (S := S1024x512) hz1, View.ld_unit_zero (S := S1024x1024) hz1]

/-! ## What the accumulator and the output hold after each point -/

/-- THE ACCUMULATION. What the scratch accumulator holds after the body at position `n`: at the first step of the innermost
    axis the product of the point's two blocks added to zeros, at a later step added to what the step before left. -/
def acc1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 12 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At a first step: the reset sum. -/
theorem acc1_reset (c : Dev nD) (t : Fin cfg1.N) (h0 : t.val % 12 = 0) :
    acc1 V c t.val t.isLt = k1_pay2 (k1_pay1 (F := F)) (iblk1 V c 0 t) (iblk1 V c 1 t) := by
  obtain ⟨n, hn⟩ := t
  cases n with
  | zero => rfl
  | succ n => exact if_pos h0

/-- At a later step: the step before's sum plus this point's product. -/
theorem acc1_step (c : Dev nD) (t : Fin cfg1.N) (h0 : ¬t.val % 12 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-- What the output window's staging buffer holds after the body at a last step of the innermost axis: the epilogue
    (bias, batch norm, sign) of the accumulated sum and the point's five row blocks. (At the other points the
    window is idle: this value is not consulted there.) -/
def out1 (c : Dev nD) (t : Fin cfg1.N) : Vec F S1024x1024 .bf16 :=
  k1_pay3 (acc1 V c t.val t.isLt) (iblk1 V c 2 t) (iblk1 V c 3 t) (iblk1 V c 6 t) (iblk1 V c 5 t) (iblk1 V c 4 t)

/-- The region invariant before position `n`: before the first point the class's (every scratch at anything); afterwards the
    accumulator at what the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hn0 : n = 0) : PhiS1 V c n h = Pipeline.ΦA spec1 c := by
  subst hn0; rfl

theorem PhiS1_succ (c : Dev nD) (n : ℕ) (hn : n < cfg1.N) :
    PhiS1 V c (n + 1) hn = iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hn0 : n ≠ 0) :
    PhiS1 V c n h = iprop(iprop(owns (c : Thread nD τ) scM1_0 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hn0
  | succ n => rfl

/-- At any position the invariant gives the accumulator at SOME contents (what the reset needs; what the region hands on). -/
theorem PhiS1_any (c : Dev nD) (n : ℕ) (h : n ≤ cfg1.N) :
    PhiS1 V c n h ⊢ iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  cases n with
  | zero => rw [PhiS1_zero V c 0 h rfl, PhiA1_eq]
  | succ n =>
    rw [PhiS1_succ]
    iintro ⟨⟨HS0, Hr⟩, Hg⟩
    isplitl [HS0 Hr]
    · isplitl [HS0]
      · iexists _; iexact HS0
      iexact Hr
    iexact Hg

/-! ## The pipeline's proof data -/

/-- The proof data of the pipeline on core `c`: the arrays as the region finds them (`V`); after the body at point `t` each
    input's buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in; the
    invariant hands the body the accumulator at what the point before left (at anything where it is reset) and takes it
    back at this point's sum; the output window is handed back untouched where it is idle and at the epilogue's value at the
    last step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h1 : t.val % 12 = 11
  · have h0 : ¬t.val % 12 = 0 := by omega
    have hz' : t.val ≠ 0 := fun h => h0 (by rw [h])
    rw [show (dat1 V c).leavesExact 7 t = owns (c : Thread nD τ) (ms1_7 t) fullShare ((dat1 V c).after 7 t) from by
      unfold Dat.leavesExact; rw [liveAt1_7 t h1], after1_7]
    unfold out1
    rw [acc1_step V c t h0, PhiS1_pos V c _ _ hz']
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1)
      (iblk1 V c 0 t) (iblk1 V c 1 t) (iblk1 V c 2 t) (iblk1 V c 3 t) (iblk1 V c 4 t) (iblk1 V c 5 t) (iblk1 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat1 V c) 7 t (idleAt1_7 t h1) (noFlush1_7 t h1)]
    by_cases h0 : t.val % 12 = 0
    · rw [acc1_reset V c t h0]
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨⟨HS0, Hr⟩, Hg⟩ := (PhiS1_any V c _ _) $$ HP
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h))
        (iblk1 V c 0 t) (iblk1 V c 1 t) Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz' : t.val ≠ 0 := fun h => h0 (by rw [h])
      rw [acc1_step V c t h0, PhiS1_pos V c _ _ hz']
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h))
        (iblk1 V c 0 t) (iblk1 V c 1 t) _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point the invariant gives `ΦA` back: the accumulator's named contents are forgotten. -/
theorem Phi_out1 (c : Dev nD) (t : Fin (cfg1.N + 1)) : (dat1 V c).Φ t ⊢ (Pipeline.ΦA spec1 c : sProp 𝕄) := by
  rw [show (dat1 V c).Φ t = PhiS1 V c t.val (Nat.le_of_lt_succ t.isLt) from rfl, PhiA1_eq]
  exact PhiS1_any V c _ _

/-- The same after the last point. -/
theorem hout1 (c : Dev nD) : (dat1 V c).Φ (Fin.last cfg1.N) ⊢ (Pipeline.ΦA spec1 c : sProp 𝕄) :=
  Phi_out1 V c _

end Cert.Kernel.Frame

end
-- ==== Proof.KernelFrame.Reg2.lean ====
import proofs.«103984_j66743791780425_2_alg».proof.Proof.Gen.Kernel.Launch
import proofs.«103984_j66743791780425_2_alg».proof.Proof.Gen.Kernel.Skeleton
import proofs.«103984_j66743791780425_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

theorem hz2 : (![0, 0] : Fin 2 → Nat) = fun _ => 0 := funext fun a => by fin_cases a <;> rfl

/-- The condition of the body's first `scf.if` (the reset), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 12): the first step of the innermost axis. -/
theorem hcond2_0 : ∀ t : Fin cfg2.N, cond2_0 (grid2.coords t) ↔ t.val % 12 = 0 :=
  (by decide +kernel : ∀ t : Fin grid2.N, cond2_0 (grid2.coords t) ↔ t.val % 12 = 0)

/-- The condition of the body's second `scf.if` (the epilogue). -/
abbrev cond2_1 (i : grid2.Coords) : Prop := k2_cond2 i = 1#1
/-- It holds at the points ≡ 11 (mod 12): the last step of the innermost axis. -/
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last step of the innermost axis the output window is idle (the body stores nothing into it), -/
theorem idleAt2_7 (t : Fin cfg2.N) (h1 : ¬t.val % 12 = 11) : cfg2.idle 7 (grid2.coords t) = true := by
  have h : ¬cond2_1 (grid2.coords t) := fun h => h1 ((hcond2_1 t).mp h)
  show (!(k2_cond2 (grid2.coords t) == 1#1)) = true
  rw [Bool.not_eq_true', beq_eq_false_iff_ne]; exact h
/-- and is not written back there; -/
theorem noFlush2_7 (t : Fin cfg2.N) (h1 : ¬t.val % 12 = 11) : (cfg2.win 7).flush t = false :=
  Bool.eq_false_iff.mpr fun h => h1 ((flush2_7 t).mp h)
/-- at the last step it is live. -/
theorem liveAt2_7 (t : Fin cfg2.N) (h1 : t.val % 12 = 11) : cfg2.idle 7 (grid2.coords t) = false := by
  have h : cond2_1 (grid2.coords t) := (hcond2_1 t).mpr h1
  show (!(k2_cond2 (grid2.coords t) == 1#1)) = false
  rw [Bool.not_eq_false', beq_iff_eq]; exact h

/-! ## The staging and scratch memrefs -/

abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .bf16 := win2_7.stage (cfg2.slots t 7)
abbrev hs2_7 (t : Fin cfg2.N) : (ms2_7 t).IsWhole := hstage2_7 ((cfg2.slots t 7).cast nbuf2_7)
/-- The scratch operand: a whole scoped buffer of the kernel's own, passed beside the windows and carried between points. -/
abbrev scM2_0 : Memref sig .tc .vmem S1024x1024 .f32 := Memref.whole cc2_scratch0

/-- The region's invariant with the scratch operand as a memref owned at some contents; the other scoped buffers unopened. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; rfl

/-! ## The kernel body on any whole staging memrefs, case by case -/

/-- A covering store through the whole-shape rectangle, made last, leaves its payload, whatever was stored before. -/
theorem read_writes_unit2 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- CASE A (first step of the innermost axis): the body resets the accumulator to zeros, reads it back, and leaves
    `0 + x₀·x₁ᵀ` in it; the inputs are handed back as they were; nothing else is touched. -/
theorem kernelRun2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond2_0 i) (hc1 : ¬cond2_1 i)
    (x0 : Vec F S1024x512 .bf16) (x1 : Vec F S1024x512 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1
            ∗ owns (c : Thread nD τ) arg11 fullShare (k2_pay2 (k2_pay1 (F := F)) x0 x1)) -∗ K ⟨⟩))
      ⊢ wp frame (wpE (defs₀ (F := F)) Variants.none c none) E (cc2__stage_kernel i arg3 harg3 arg4 harg4 arg5 harg5 arg6 harg6 arg7 harg7 arg8 harg8 arg9 harg9 arg10 harg10 arg11 harg11) K := by
  simp only [cc2__stage_kernel_eq_skeleton]; unfold cc2__stage_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit2 _ _ hz2, View.readCov_unit_zero (S := S1024x1024) _ hz2]
  simp only [View.readAt_eq_ld, harg3.read_unread, harg4.read_unread, View.ld_unit_zero (S := S1024x512) hz2]

set_option maxHeartbeats 1000000 in
/-- CASE B (an inner step): the body adds `x₀·x₁ᵀ` to the accumulator. -/
theorem kernelRun2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond2_0 i) (hc1 : ¬cond2_1 i)
    (x0 : Vec F S1024x512 .bf16) (x1 : Vec F S1024x512 .bf16) (xs0 : Vec F S1024x1024 .f32) (E : Set ℕ) (K : PUnit → sProp 𝕄) :
    iprop(owns (c : Thread nD τ) arg3 fullShare x0 ∗ owns (c : Thread nD τ) arg4 fullShare x1 ∗ owns (c : Thread nD τ) arg11 fullShare xs0
        ∗ (iprop(owns (c : Thread nD τ) arg3 fullShare x0 ∗ owns (c : Thread nD τ) arg4 fullShare x1
            ∗ owns (c : Thread nD τ) arg11 fullShare (k2_pay2 xs0 x0 x1)) -∗ K ⟨⟩))
      ⊢ wp frame (wpE (defs₀ (F := F)) Variants.none c none) E (cc2__stage_kernel i arg3 harg3 arg4 harg4 arg5 harg5 arg6 harg6 arg7 harg7 arg8 harg8 arg9 harg9 arg10 harg10 arg11 harg11) K := by
  simp only [cc2__stage_kernel_eq_skeleton]; unfold cc2__stage_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit2 _ _ hz2]
  simp only [View.readAt_eq_ld, harg3.read_unread, harg4.read_unread, harg11.read_unread, View.ld_unit_zero (S := S1024x512) hz2, View.ld_unit_zero (S := S1024x1024) hz2]

set_option maxHeartbeats 1000000 in
/-- CASE C (last step of the innermost axis): the body adds `x₀·x₁ᵀ` to the accumulator, then stores the epilogue of the
    sum and the five rows (bias, batch norm, sign) over the whole output block. -/
theorem kernelRun2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond2_0 i) (hc1 : cond2_1 i)
    (x0 : Vec F S1024x512 .bf16) (x1 : Vec F S1024x512 .bf16) (x2 x3 x4 x5 x6 : Vec F S1x1024 .f32) (xs0 : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare x4
        ∗ owns (c : Thread nD τ) arg8 fullShare x5 ∗ owns (c : Thread nD τ) arg9 fullShare x6
        ∗ (∃ d, owns (c : Thread nD τ) arg10 fullShare d) ∗ owns (c : Thread nD τ) arg11 fullShare xs0
        ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare x5 ∗ owns (c : Thread nD τ) arg9 fullShare x6
            ∗ owns (c : Thread nD τ) arg10 fullShare (k2_pay3 (k2_pay2 xs0 x0 x1) x2 x3 x6 x5 x4)
            ∗ owns (c : Thread nD τ) arg11 fullShare (k2_pay2 xs0 x0 x1)) -∗ K ⟨⟩))
      ⊢ wp frame (wpE (defs₀ (F := F)) Variants.none c none) E (cc2__stage_kernel i arg3 harg3 arg4 harg4 arg5 harg5 arg6 harg6 arg7 harg7 arg8 harg8 arg9 harg9 arg10 harg10 arg11 harg11) K := by
  simp only [cc2__stage_kernel_eq_skeleton]; unfold cc2__stage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    sl_unfold_words
    rw [read_writes_unit2 _ _ hz2]

    simp only [View.readCov_unit_zero (S := S1024x1024) _ hz2, View.readAt_eq_ld, harg3.read_unread, harg4.read_unread, harg5.read_unread, harg6.read_unread, harg7.read_unread, harg8.read_unread, harg9.read_unread, harg11.read_unread, View.ld_unit_zero (S := S1024x512) hz2, View.ld_unit_zero (S := S1x1024) hz2, View.ld_unit_zero (S := S1024x1024) hz2]
  iexists _; isplitr
  swap; · iexact HS0
  ipureintro
  sl_unfold_words
  rw [read_writes_unit2 _ _ hz2]
  simp only [View.readAt_eq_ld, harg3.read_unread, harg4.read_unread, harg11.read_unread, View.ld_unit_zero (S := S1024x512) hz2, View.ld_unit_zero (S := S1024x1024) hz2]

/-! ## What the accumulator and the output hold after each point -/

/-- THE ACCUMULATION. What the scratch accumulator holds after the body at position `n`: at the first step of the innermost
    axis the product of the point's two blocks added to zeros, at a later step added to what the step before left. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 12 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At a first step: the reset sum. -/
theorem acc2_reset (c : Dev nD) (t : Fin cfg2.N) (h0 : t.val % 12 = 0) :
    acc2 V c t.val t.isLt = k2_pay2 (k2_pay1 (F := F)) (iblk2 V c 0 t) (iblk2 V c 1 t) := by
  obtain ⟨n, hn⟩ := t
  cases n with
  | zero => rfl
  | succ n => exact if_pos h0

/-- At a later step: the step before's sum plus this point's product. -/
theorem acc2_step (c : Dev nD) (t : Fin cfg2.N) (h0 : ¬t.val % 12 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0).trans rfl

/-- What the output window's staging buffer holds after the body at a last step of the innermost axis: the epilogue
    (bias, batch norm, sign) of the accumulated sum and the point's five row blocks. (At the other points the
    window is idle: this value is not consulted there.) -/
def out2 (c : Dev nD) (t : Fin cfg2.N) : Vec F S1024x1024 .bf16 :=
  k2_pay3 (acc2 V c t.val t.isLt) (iblk2 V c 2 t) (iblk2 V c 3 t) (iblk2 V c 6 t) (iblk2 V c 5 t) (iblk2 V c 4 t)

/-- The region invariant before position `n`: before the first point the class's (every scratch at anything); afterwards the
    accumulator at what the point before left in it, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hn0 : n = 0) : PhiS2 V c n h = Pipeline.ΦA spec2 c := by
  subst hn0; rfl

theorem PhiS2_succ (c : Dev nD) (n : ℕ) (hn : n < cfg2.N) :
    PhiS2 V c (n + 1) hn = iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hn0 : n ≠ 0) :
    PhiS2 V c n h = iprop(iprop(owns (c : Thread nD τ) scM2_0 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hn0
  | succ n => rfl

/-- At any position the invariant gives the accumulator at SOME contents (what the reset needs; what the region hands on). -/
theorem PhiS2_any (c : Dev nD) (n : ℕ) (h : n ≤ cfg2.N) :
    PhiS2 V c n h ⊢ iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  cases n with
  | zero => rw [PhiS2_zero V c 0 h rfl, PhiA2_eq]
  | succ n =>
    rw [PhiS2_succ]
    iintro ⟨⟨HS0, Hr⟩, Hg⟩
    isplitl [HS0 Hr]
    · isplitl [HS0]
      · iexists _; iexact HS0
      iexact Hr
    iexact Hg

/-! ## The pipeline's proof data -/

/-- The proof data of the pipeline on core `c`: the arrays as the region finds them (`V`); after the body at point `t` each
    input's buffer at its block and the output's at `out2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the closed forms say which case the point is in; the
    invariant hands the body the accumulator at what the point before left (at anything where it is reset) and takes it
    back at this point's sum; the output window is handed back untouched where it is idle and at the epilogue's value at the
    last step; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h1 : t.val % 12 = 11
  · have h0 : ¬t.val % 12 = 0 := by omega
    have hz' : t.val ≠ 0 := fun h => h0 (by rw [h])
    rw [show (dat2 V c).leavesExact 7 t = owns (c : Thread nD τ) (ms2_7 t) fullShare ((dat2 V c).after 7 t) from by
      unfold Dat.leavesExact; rw [liveAt2_7 t h1], after2_7]
    unfold out2
    rw [acc2_step V c t h0, PhiS2_pos V c _ _ hz']
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1)
      (iblk2 V c 0 t) (iblk2 V c 1 t) (iblk2 V c 2 t) (iblk2 V c 3 t) (iblk2 V c 4 t) (iblk2 V c 5 t) (iblk2 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat2 V c) 7 t (idleAt2_7 t h1) (noFlush2_7 t h1)]
    by_cases h0 : t.val % 12 = 0
    · rw [acc2_reset V c t h0]
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨⟨HS0, Hr⟩, Hg⟩ := (PhiS2_any V c _ _) $$ HP
      iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h))
        (iblk2 V c 0 t) (iblk2 V c 1 t) Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz' : t.val ≠ 0 := fun h => h0 (by rw [h])
      rw [acc2_step V c t h0, PhiS2_pos V c _ _ hz']
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h))
        (iblk2 V c 0 t) (iblk2 V c 1 t) _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any point the invariant gives `ΦA` back: the accumulator's named contents are forgotten. -/
theorem Phi_out2 (c : Dev nD) (t : Fin (cfg2.N + 1)) : (dat2 V c).Φ t ⊢ (Pipeline.ΦA spec2 c : sProp 𝕄) := by
  rw [show (dat2 V c).Φ t = PhiS2 V c t.val (Nat.le_of_lt_succ t.isLt) from rfl, PhiA2_eq]
  exact PhiS2_any V c _ _

/-- The same after the last point. -/
theorem hout2 (c : Dev nD) : (dat2 V c).Φ (Fin.last cfg2.N) ⊢ (Pipeline.ΦA spec2 c : sProp 𝕄) :=
  Phi_out2 V c _

end Cert.Kernel.Frame

end
-- ==== Proof.KernelFrame.Reg3.lean ====
/- The per-region half of the frame certificate for custom_call 3, the final layer: a matrix product accumulated
   over the reduction axis of an 8×6 grid into a scratch block carried between grid points, reset at the first
   step of the axis, and at the last step stored, biased and log-softmaxed, into the output block. Three control
   cases (first step / middle step / last step), one body triple each with the buffers' final contents stated as
   the skeleton's payloads of what the buffers held; the accumulated contents by recursion on the point; the
   region's proof data, its body obligation, and the invariant's entry and exit. Generic in the float operations. -/
import proofs.«103984_j66743791780425_2_alg».proof.Proof.Gen.Kernel.Launch
import proofs.«103984_j66743791780425_2_alg».proof.Proof.Gen.Kernel.Skeleton
import proofs.«103984_j66743791780425_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (the accumulator is reset), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 6). -/
theorem hcond3_0 : ∀ t : Fin cfg3.N, cond3_0 (grid3.coords t) ↔ t.val % 6 = 0 :=
  (by decide +kernel : ∀ t : Fin grid3.N, cond3_0 (grid3.coords t) ↔ t.val % 6 = 0)

/-- The condition of the body's second conditional (the epilogue store), from the grid coordinates. -/
abbrev cond3_1 (i : grid3.Coords) : Prop := k3_cond2 i = 1#1
/-- It holds at the points ≡ 5 (mod 6). -/
theorem hcond3_1 : ∀ t : Fin cfg3.N, cond3_1 (grid3.coords t) ↔ t.val % 6 = 5 :=
  (by decide +kernel : ∀ t : Fin grid3.N, cond3_1 (grid3.coords t) ↔ t.val % 6 = 5)

/-! ## The kernel body, case by case

The body resets the accumulator at the first step of the reduction axis, adds the product of the two input
blocks to it at every step, and at the last step stores the biased log-softmax of the accumulator into the
output block. Every load and store is of a whole block at zero offsets, so what each buffer ends with is the
payload of the last store into it. -/

/-- The zero offsets of a rank-2 block, however spelt. -/
theorem hz3 : (![0, 0] : Fin 2 → Nat) = fun _ => 0 := funext fun a => by fin_cases a <;> rfl

set_option maxHeartbeats 1000000 in
/-- Case A (first step of the reduction axis, not the last): the accumulator, found at anything, ends at the
    product added to the zero block; the inputs and the idle output are handed back as found. -/
theorem kernelRun3_A (c : Dev nD) (i : grid3.Coords) (arg2 : Memref sig .tc .vmem S1024x1024 .bf16) (harg2 : arg2.IsWhole) (arg3 : Memref sig .tc .vmem S10x1024 .bf16) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole) (hc0 : cond3_0 i) (hc1 : ¬cond3_1 i)
    (x0 : Vec F S1024x1024 .bf16) (x1 : Vec F S10x1024 .bf16) (x2 : Vec F S1x10 .f32)
    (xi3 : Vec F S1024x10 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k3_pay2 (k3_pay1 (F := F)) x0 x1)) -∗ K ⟨⟩))
      ⊢ wp frame (wpE (defs₀ (F := F)) Variants.none c none) E (cc3__final_kernel i arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_run_names
  rw [View.read_writes_eq_canon _ _ _ (fun y => ⟨_, List.mem_cons_self, View.mem_set_unit_zero hz3 inb_S1024x10_S1024x10_0_0 y⟩)]
  rw [View.canon_cons_unit_zero (S := S1024x10) hz3, View.readCov_unit_zero (S := S1024x10) _ hz3]
  simp only [View.readAt_eq_ld, harg2.read_unread, harg3.read_unread, View.ld_unit_zero (S := S1024x1024) hz3, View.ld_unit_zero (S := S10x1024) hz3]

set_option maxHeartbeats 1000000 in
/-- Case B (neither the first nor the last step): the accumulator, found at `xs0`, ends at the product added
    to `xs0`; the inputs and the idle output are handed back as found. -/
theorem kernelRun3_B (c : Dev nD) (i : grid3.Coords) (arg2 : Memref sig .tc .vmem S1024x1024 .bf16) (harg2 : arg2.IsWhole) (arg3 : Memref sig .tc .vmem S10x1024 .bf16) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole) (hc0 : ¬cond3_0 i) (hc1 : ¬cond3_1 i)
    (x0 : Vec F S1024x1024 .bf16) (x1 : Vec F S10x1024 .bf16) (x2 : Vec F S1x10 .f32) (xs0 : Vec F S1024x10 .f32)
    (xi3 : Vec F S1024x10 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k3_pay2 xs0 x0 x1)) -∗ K ⟨⟩))
      ⊢ wp frame (wpE (defs₀ (F := F)) Variants.none c none) E (cc3__final_kernel i arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_run_names
  rw [View.read_writes_eq_canon _ _ _ (fun y => ⟨_, List.mem_cons_self, View.mem_set_unit_zero hz3 inb_S1024x10_S1024x10_0_0 y⟩)]
  rw [View.canon_cons_unit_zero (S := S1024x10) hz3]
  simp only [View.readAt_eq_ld, harg2.read_unread, harg3.read_unread, harg6.read_unread, View.ld_unit_zero (S := S1024x1024) hz3, View.ld_unit_zero (S := S10x1024) hz3, View.ld_unit_zero (S := S1024x10) hz3]

set_option maxHeartbeats 1000000 in
/-- Case C (the last step of the reduction axis, not the first): the accumulator, found at `xs0`, ends at the
    product added to `xs0`, and the output block, found at anything, ends at the biased log-softmax of that sum;
    the inputs are handed back as found. -/
theorem kernelRun3_C (c : Dev nD) (i : grid3.Coords) (arg2 : Memref sig .tc .vmem S1024x1024 .bf16) (harg2 : arg2.IsWhole) (arg3 : Memref sig .tc .vmem S10x1024 .bf16) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole) (hc0 : ¬cond3_0 i) (hc1 : cond3_1 i)
    (x0 : Vec F S1024x1024 .bf16) (x1 : Vec F S10x1024 .bf16) (x2 : Vec F S1x10 .f32) (xs0 : Vec F S1024x10 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k3_pay3 (k3_pay2 xs0 x0 x1) x2) ∗ owns (c : Thread nD τ) arg6 fullShare (k3_pay2 xs0 x0 x1)) -∗ K ⟨⟩))
      ⊢ wp frame (wpE (defs₀ (F := F)) Variants.none c none) E (cc3__final_kernel i arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self, View.mem_set_unit_zero hz3 inb_S1024x10_S1024x10_0_0 y⟩)]
    rw [View.canon_cons_unit_zero (S := S1024x10) hz3, View.readCov_unit_zero (S := S1024x10) _ hz3]
    simp only [View.readAt_eq_ld, harg2.read_unread, harg3.read_unread, harg4.read_unread, harg6.read_unread, View.ld_unit_zero (S := S1024x1024) hz3, View.ld_unit_zero (S := S10x1024) hz3, View.ld_unit_zero (S := S1024x10) hz3, View.ld_unit_zero (S := S1x10) hz3]
  iexists _; isplitr
  swap; · iexact HS0
  ipureintro
  sl_unfold_run_names
  rw [View.read_writes_eq_canon _ _ _ (fun y => ⟨_, List.mem_cons_self, View.mem_set_unit_zero hz3 inb_S1024x10_S1024x10_0_0 y⟩)]
  rw [View.canon_cons_unit_zero (S := S1024x10) hz3]
  simp only [View.readAt_eq_ld, harg2.read_unread, harg3.read_unread, harg6.read_unread, View.ld_unit_zero (S := S1024x1024) hz3, View.ld_unit_zero (S := S10x1024) hz3, View.ld_unit_zero (S := S1024x10) hz3]

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## Where the windows are idle -/

/-- The three inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Before the last step of the reduction axis the output is idle, and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last step it is live. -/
theorem liveAt3_3 : ∀ t : Fin cfg3.N, cond3_1 (grid3.coords t) → cfg3.idle 3 (grid3.coords t) = false := by decide +kernel

/-! ## The staging and scratch memrefs -/

/-- Each window's current staging memref at point `t`, and its wholeness. -/
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x10 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows and carried between points. -/
abbrev scM3_0 : Memref sig .tc .vmem S1024x10 .f32 := Memref.whole cc3_scratch0

/-- The scoped buffers of the core that are neither a staging buffer of this region nor its accumulator, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant with the accumulator as a memref owned at some contents. -/
theorem PhiA3_eq (c : Dev nD) :
    (Pipeline.ΦA spec3 c : sProp 𝕄)
      = iprop(iprop(iprop(∃ d, owns (c : Thread nD τ) scM3_0 fullShare d) ∗ rest3 (F := F) c) ∗ (∃ r, prngReg c r)) := by
  unfold Pipeline.ΦA; rw [scopedRest3_split]; simp only [scM3_0, owns_whole]; try rfl

/-! ## What the accumulator holds after each point -/

/-- THE ACCUMULATION. What the accumulator holds after the body at position `n`: at the first step of the reduction
    axis the product of the point's input blocks added to the zero block, elsewhere added to what the point before left. -/
def acc3 (c : Dev nD) : (n : ℕ) → n < cfg3.N → Vec F S1024x10 .f32
  | 0, hn => k3_pay2 (k3_pay1 (F := F)) (iblk3 V c 0 ⟨0, hn⟩) (iblk3 V c 1 ⟨0, hn⟩)
  | n + 1, hn =>
    if (n + 1) % 6 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

/-- At a first step: the reset. -/
theorem acc3_first (c : Dev nD) (t : Fin cfg3.N) (h0 : t.val % 6 = 0) :
    acc3 V c t.val t.isLt = k3_pay2 (k3_pay1 (F := F)) (iblk3 V c 0 t) (iblk3 V c 1 t) := by
  obtain ⟨n, hn⟩ := t
  cases n with
  | zero => rfl
  | succ n => exact if_pos h0

/-- Elsewhere: one more product over what the point before left. -/
theorem acc3_next (c : Dev nD) (t : Fin cfg3.N) (h0 : ¬t.val % 6 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- The region invariant before position `n`: before the first point the class's (every scratch at anything); afterwards
    the accumulator at what the point before left in it, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega)) ∗ rest3 (F := F) c) ∗ (∃ r, prngReg c r)) := by
  cases n with
  | zero => exact absurd rfl hz
  | succ n => rfl

/-! ## The region's proof data -/

/-- The proof data of the region on core `c`: the arrays as the region finds them (`V`); after the body at point `t`
    each input's buffer at its block and the output's at the biased log-softmax of the accumulated sum (consulted at the
    last step of the reduction axis only: elsewhere the output is idle); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the accumulator at what the point before left (at anything before the first point) and takes
    it back at this point's contents; an idle output is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 48 := lt_of_lt_of_eq t.isLt (show cfg3.N = 48 from N_3)
  by_cases h0 : t.val % 6 = 0
  · by_cases h1 : t.val % 6 = 5
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [acc3_first V c t h0]
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply (kernelRun3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply (kernelRun3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS0]; · iexists _; iexact HS0
        iintro ⟨H0, H1, H2, H3, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 6 = 5
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [acc3_next V c t h0]
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply (kernelRun3_C c (grid3.coords t) _ _ _ _ _ _ _ _ _ _ (fun h => h0 ((hcond3_0 t).mp h)) ((hcond3_1 t).mpr h1) (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [acc3_next V c t h0]
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply (kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 48 := N_3; omega)

end Cert.Kernel.Frame

end
-- ==== Proof.KernelFrame.Run.lean ====
/-
  The kernel program as printed, run from the launch to the return: @main is fourteen items — seven stretches of host
  operations (the three weight matrices replaced by their signs, rows reshaped), then four kernel regions with a stretch
  of reshapes before each of the last three. The buffer contents at every boundary are named by a fold from the launch
  memory: a host stretch applies its operations, a region replaces its windows' arrays by what its write-backs leave and
  keeps every other buffer. Each region is entered from "every unscoped buffer at the boundary's contents" and left at
  the next boundary's; an input window's array ends as it was entered, so only the region's output array changes.
  The launch over the fourteen segments then says: every weakly fair execution terminates, nothing faults, and every
  unscoped buffer ends at the last boundary's contents — in particular every argument array as launched.
-/
import proofs.«103984_j66743791780425_2_alg».proof.Proof.Gen.Kernel.Launch
import proofs.«103984_j66743791780425_2_alg».proof.Proof.Gen.Kernel.Skeleton
import proofs.«103984_j66743791780425_2_alg».proof.Proof.Gen.Kernel.Points
import proofs.«103984_j66743791780425_2_alg».proof.Proof.Gen.Kernel.Regions
import proofs.«103984_j66743791780425_2_alg».proof.Proof.KernelFrame.Reg0
import proofs.«103984_j66743791780425_2_alg».proof.Proof.KernelFrame.Reg1
import proofs.«103984_j66743791780425_2_alg».proof.Proof.KernelFrame.Reg2
import proofs.«103984_j66743791780425_2_alg».proof.Proof.KernelFrame.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary

The first seven boundaries (after each host stretch before the first region) are the generated `Gen.V0 m` … `Gen.V7 m`. -/

/-! ## Region 0: entered at `Gen.V7`, left at `W8` -/

/-- The contents region 0 is entered from, read at the TensorCore's references. -/
abbrev E0 : (c : Dev nD) → (b : Ref sig .tc) → Buf (Elt F) ((c : Thread nD τ).loc b) := fun c b => Gen.V7 m c b
/-- At region 0's exit: its windows' arrays at what the pipeline leaves (each output's write-backs folded over the entry
    contents, an input's array as entered), every other buffer as entered. -/
def W8 (c : Dev nD) : Valuation τ sig (Elt F) :=
  Pipeline.withArrays spec0 c (Gen.V7 m c) fun w => (dat0 (E0 m) c).arrAt w cfg0.N
theorem W8_arr (c : Dev nD) (w : Fin cfg0.W) :
    W8 m c (Proc.devRef .tc (Pipeline.arrRef spec0 w)) = (dat0 (E0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = Gen.V7 m c (Proc.devRef .tc b) := by
  unfold W8; exact Pipeline.withArrays_of_ne spec0 c _ _ b hb
/-- The exit contents read at the TensorCore's references. -/
abbrev X0 : (c : Dev nD) → (b : Ref sig .tc) → Buf (Elt F) ((c : Thread nD τ).loc b) := fun c b => W8 m c b
theorem hF0 (c : Dev nD) (w : Fin cfg0.W) : (dat0 (E0 m) c).arrAt w cfg0.N = X0 m c (Pipeline.arrRef spec0 w) :=
  (W8_arr m c w).symm
theorem hrest0 (c : Dev nD) : ∀ b, b ∉ Finset.univ.image (Pipeline.arrRef spec0) → X0 m c b = E0 m c b :=
  fun b hb => W8_of_ne m c b fun w e => hb (Finset.mem_image.mpr ⟨w, Finset.mem_univ _, e⟩)
/-- Only the output array `main_v20` changes across region 0: an input window's array is written back nowhere, and a
    buffer that is no window's array bypasses the region. -/
theorem W8_keep (c : Dev nD) (b : Ref sig .tc) (hb : b ≠ main_v20) :
    W8 m c (Proc.devRef .tc b) = Gen.V7 m c (Proc.devRef .tc b) := by
  by_cases h : ∀ w, Pipeline.arrRef spec0 w ≠ b
  · exact W8_of_ne m c b h
  · obtain ⟨w, hw⟩ := not_forall.mp h
    have hw' : Pipeline.arrRef spec0 w = b := not_not.mp hw
    subst hw'
    match w with
    | ⟨0, _⟩ => exact (W8_arr m c 0).trans (((dat0 (E0 m) c).arrAt_in 0 rfl _).trans (A_eq0 (E0 m) c 0))
    | ⟨1, _⟩ => exact (W8_arr m c 1).trans (((dat0 (E0 m) c).arrAt_in 1 rfl _).trans (A_eq0 (E0 m) c 1))
    | ⟨2, _⟩ => exact (W8_arr m c 2).trans (((dat0 (E0 m) c).arrAt_in 2 rfl _).trans (A_eq0 (E0 m) c 2))
    | ⟨3, _⟩ => exact (W8_arr m c 3).trans (((dat0 (E0 m) c).arrAt_in 3 rfl _).trans (A_eq0 (E0 m) c 3))
    | ⟨4, _⟩ => exact (W8_arr m c 4).trans (((dat0 (E0 m) c).arrAt_in 4 rfl _).trans (A_eq0 (E0 m) c 4))
    | ⟨5, _⟩ => exact (W8_arr m c 5).trans (((dat0 (E0 m) c).arrAt_in 5 rfl _).trans (A_eq0 (E0 m) c 5))
    | ⟨6, _⟩ => exact (W8_arr m c 6).trans (((dat0 (E0 m) c).arrAt_in 6 rfl _).trans (A_eq0 (E0 m) c 6))
    | ⟨7, _⟩ => exact absurd rfl hb

/-- After the reshapes before region 1. -/
abbrev W9 : Dev nD → Valuation τ sig (Elt F) := fun c => StableHlo.after hostOps1 (W8 m c)

/-! ## Region 1: entered at `W9`, left at `W10` -/

/-- The contents region 1 is entered from, read at the TensorCore's references. -/
abbrev E1 : (c : Dev nD) → (b : Ref sig .tc) → Buf (Elt F) ((c : Thread nD τ).loc b) := fun c b => W9 m c b
/-- At region 1's exit: its windows' arrays at what the pipeline leaves (each output's write-backs folded over the entry
    contents, an input's array as entered), every other buffer as entered. -/
def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- The exit contents read at the TensorCore's references. -/
abbrev X1 : (c : Dev nD) → (b : Ref sig .tc) → Buf (Elt F) ((c : Thread nD τ).loc b) := fun c b => W10 m c b
theorem hF1 (c : Dev nD) (w : Fin cfg1.W) : (dat1 (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)
/-- Only the output array `main_v26` changes across region 1: an input window's array is written back nowhere, and a
    buffer that is no window's array bypasses the region. -/
theorem W10_keep (c : Dev nD) (b : Ref sig .tc) (hb : b ≠ main_v26) :
    W10 m c (Proc.devRef .tc b) = W9 m c (Proc.devRef .tc b) := by
  by_cases h : ∀ w, Pipeline.arrRef spec1 w ≠ b
  · exact W10_of_ne m c b h
  · obtain ⟨w, hw⟩ := not_forall.mp h
    have hw' : Pipeline.arrRef spec1 w = b := not_not.mp hw
    subst hw'
    match w with
    | ⟨0, _⟩ => exact (W10_arr m c 0).trans (((dat1 (E1 m) c).arrAt_in 0 rfl _).trans (A_eq1 (E1 m) c 0))
    | ⟨1, _⟩ => exact (W10_arr m c 1).trans (((dat1 (E1 m) c).arrAt_in 1 rfl _).trans (A_eq1 (E1 m) c 1))
    | ⟨2, _⟩ => exact (W10_arr m c 2).trans (((dat1 (E1 m) c).arrAt_in 2 rfl _).trans (A_eq1 (E1 m) c 2))
    | ⟨3, _⟩ => exact (W10_arr m c 3).trans (((dat1 (E1 m) c).arrAt_in 3 rfl _).trans (A_eq1 (E1 m) c 3))
    | ⟨4, _⟩ => exact (W10_arr m c 4).trans (((dat1 (E1 m) c).arrAt_in 4 rfl _).trans (A_eq1 (E1 m) c 4))
    | ⟨5, _⟩ => exact (W10_arr m c 5).trans (((dat1 (E1 m) c).arrAt_in 5 rfl _).trans (A_eq1 (E1 m) c 5))
    | ⟨6, _⟩ => exact (W10_arr m c 6).trans (((dat1 (E1 m) c).arrAt_in 6 rfl _).trans (A_eq1 (E1 m) c 6))
    | ⟨7, _⟩ => exact absurd rfl hb

/-- After the reshapes before region 2. -/
abbrev W11 : Dev nD → Valuation τ sig (Elt F) := fun c => StableHlo.after hostOps2 (W10 m c)

/-! ## Region 2: entered at `W11`, left at `W12` -/

/-- The contents region 2 is entered from, read at the TensorCore's references. -/
abbrev E2 : (c : Dev nD) → (b : Ref sig .tc) → Buf (Elt F) ((c : Thread nD τ).loc b) := fun c b => W11 m c b
/-- At region 2's exit: its windows' arrays at what the pipeline leaves (each output's write-backs folded over the entry
    contents, an input's array as entered), every other buffer as entered. -/
def W12 (c : Dev nD) : Valuation τ sig (Elt F) :=
  Pipeline.withArrays spec2 c (W11 m c) fun w => (dat2 (E2 m) c).arrAt w cfg2.N
theorem W12_arr (c : Dev nD) (w : Fin cfg2.W) :
    W12 m c (Proc.devRef .tc (Pipeline.arrRef spec2 w)) = (dat2 (E2 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
/-- The exit contents read at the TensorCore's references. -/
abbrev X2 : (c : Dev nD) → (b : Ref sig .tc) → Buf (Elt F) ((c : Thread nD τ).loc b) := fun c b => W12 m c b
theorem hF2 (c : Dev nD) (w : Fin cfg2.W) : (dat2 (E2 m) c).arrAt w cfg2.N = X2 m c (Pipeline.arrRef spec2 w) :=
  (W12_arr m c w).symm
theorem hrest2 (c : Dev nD) : ∀ b, b ∉ Finset.univ.image (Pipeline.arrRef spec2) → X2 m c b = E2 m c b :=
  fun b hb => W12_of_ne m c b fun w e => hb (Finset.mem_image.mpr ⟨w, Finset.mem_univ _, e⟩)
/-- Only the output array `main_v32` changes across region 2: an input window's array is written back nowhere, and a
    buffer that is no window's array bypasses the region. -/
theorem W12_keep (c : Dev nD) (b : Ref sig .tc) (hb : b ≠ main_v32) :
    W12 m c (Proc.devRef .tc b) = W11 m c (Proc.devRef .tc b) := by
  by_cases h : ∀ w, Pipeline.arrRef spec2 w ≠ b
  · exact W12_of_ne m c b h
  · obtain ⟨w, hw⟩ := not_forall.mp h
    have hw' : Pipeline.arrRef spec2 w = b := not_not.mp hw
    subst hw'
    match w with
    | ⟨0, _⟩ => exact (W12_arr m c 0).trans (((dat2 (E2 m) c).arrAt_in 0 rfl _).trans (A_eq2 (E2 m) c 0))
    | ⟨1, _⟩ => exact (W12_arr m c 1).trans (((dat2 (E2 m) c).arrAt_in 1 rfl _).trans (A_eq2 (E2 m) c 1))
    | ⟨2, _⟩ => exact (W12_arr m c 2).trans (((dat2 (E2 m) c).arrAt_in 2 rfl _).trans (A_eq2 (E2 m) c 2))
    | ⟨3, _⟩ => exact (W12_arr m c 3).trans (((dat2 (E2 m) c).arrAt_in 3 rfl _).trans (A_eq2 (E2 m) c 3))
    | ⟨4, _⟩ => exact (W12_arr m c 4).trans (((dat2 (E2 m) c).arrAt_in 4 rfl _).trans (A_eq2 (E2 m) c 4))
    | ⟨5, _⟩ => exact (W12_arr m c 5).trans (((dat2 (E2 m) c).arrAt_in 5 rfl _).trans (A_eq2 (E2 m) c 5))
    | ⟨6, _⟩ => exact (W12_arr m c 6).trans (((dat2 (E2 m) c).arrAt_in 6 rfl _).trans (A_eq2 (E2 m) c 6))
    | ⟨7, _⟩ => exact absurd rfl hb

/-- After the reshape before region 3. -/
abbrev W13 : Dev nD → Valuation τ sig (Elt F) := fun c => StableHlo.after hostOps3 (W12 m c)

/-! ## Region 3: entered at `W13`, left at `W14` -/

/-- The contents region 3 is entered from, read at the TensorCore's references. -/
abbrev E3 : (c : Dev nD) → (b : Ref sig .tc) → Buf (Elt F) ((c : Thread nD τ).loc b) := fun c b => W13 m c b
/-- At region 3's exit: its windows' arrays at what the pipeline leaves (each output's write-backs folded over the entry
    contents, an input's array as entered), every other buffer as entered. -/
def W14 (c : Dev nD) : Valuation τ sig (Elt F) :=
  Pipeline.withArrays spec3 c (W13 m c) fun w => (dat3 (E3 m) c).arrAt w cfg3.N
theorem W14_arr (c : Dev nD) (w : Fin cfg3.W) :
    W14 m c (Proc.devRef .tc (Pipeline.arrRef spec3 w)) = (dat3 (E3 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
/-- The exit contents read at the TensorCore's references. -/
abbrev X3 : (c : Dev nD) → (b : Ref sig .tc) → Buf (Elt F) ((c : Thread nD τ).loc b) := fun c b => W14 m c b
theorem hF3 (c : Dev nD) (w : Fin cfg3.W) : (dat3 (E3 m) c).arrAt w cfg3.N = X3 m c (Pipeline.arrRef spec3 w) :=
  (W14_arr m c w).symm
theorem hrest3 (c : Dev nD) : ∀ b, b ∉ Finset.univ.image (Pipeline.arrRef spec3) → X3 m c b = E3 m c b :=
  fun b hb => W14_of_ne m c b fun w e => hb (Finset.mem_image.mpr ⟨w, Finset.mem_univ _, e⟩)
/-- Only the output array `main_v34` changes across region 3: an input window's array is written back nowhere, and a
    buffer that is no window's array bypasses the region. -/
theorem W14_keep (c : Dev nD) (b : Ref sig .tc) (hb : b ≠ main_v34) :
    W14 m c (Proc.devRef .tc b) = W13 m c (Proc.devRef .tc b) := by
  by_cases h : ∀ w, Pipeline.arrRef spec3 w ≠ b
  · exact W14_of_ne m c b h
  · obtain ⟨w, hw⟩ := not_forall.mp h
    have hw' : Pipeline.arrRef spec3 w = b := not_not.mp hw
    subst hw'
    match w with
    | ⟨0, _⟩ => exact (W14_arr m c 0).trans (((dat3 (E3 m) c).arrAt_in 0 rfl _).trans (A_eq3 (E3 m) c 0))
    | ⟨1, _⟩ => exact (W14_arr m c 1).trans (((dat3 (E3 m) c).arrAt_in 1 rfl _).trans (A_eq3 (E3 m) c 1))
    | ⟨2, _⟩ => exact (W14_arr m c 2).trans (((dat3 (E3 m) c).arrAt_in 2 rfl _).trans (A_eq3 (E3 m) c 2))
    | ⟨3, _⟩ => exact absurd rfl hb

/-! # The arguments end as launched -/

/-- Every buffer some host operation writes, and every region's output array. -/
abbrev written : List (Ref sig .tc) :=
  hostOps0_W ++ (hostOps0_1_W ++ (hostOps0_2_W ++ (hostOps0_3_W ++ (hostOps0_4_W ++ (hostOps0_5_W ++ (hostOps0_6_W ++ ([main_v20] ++ (hostOps1_W ++ ([main_v26] ++ (hostOps2_W ++ ([main_v32] ++ (hostOps3_W ++ [main_v34]))))))))))))

/-- A buffer nothing writes holds its launch contents at the last boundary: the fold walks back through the four
    regions (only their output arrays change) and the host stretches (only their result buffers change). -/
theorem W14_kept (c : Dev nD) (b : Ref sig .tc) (hb : b ∉ written) :
    W14 m c (Proc.devRef .tc b) = m ((c : Thread nD τ).loc b) := by
  simp only [written, List.mem_append, not_or] at hb
  obtain ⟨h0, h1, h2, h3, h4, h5, h6, h7, h8, h9, h10, h11, h12, h13⟩ := hb
  calc W14 m c (Proc.devRef .tc b)
    _ = W13 m c (Proc.devRef .tc b) := W14_keep m c b (List.ne_of_not_mem_cons h13)
    _ = W12 m c (Proc.devRef .tc b) := StableHlo.after_of_writes_sub hostOps3 _ hostOps3_writes h12
    _ = W11 m c (Proc.devRef .tc b) := W12_keep m c b (List.ne_of_not_mem_cons h11)
    _ = W10 m c (Proc.devRef .tc b) := StableHlo.after_of_writes_sub hostOps2 _ hostOps2_writes h10
    _ = W9 m c (Proc.devRef .tc b) := W10_keep m c b (List.ne_of_not_mem_cons h9)
    _ = W8 m c (Proc.devRef .tc b) := StableHlo.after_of_writes_sub hostOps1 _ hostOps1_writes h8
    _ = Gen.V7 m c (Proc.devRef .tc b) := W8_keep m c b (List.ne_of_not_mem_cons h7)
    _ = Gen.V6 m c (Proc.devRef .tc b) := V7_of m c b h6
    _ = Gen.V5 m c (Proc.devRef .tc b) := V6_of m c b h5
    _ = Gen.V4 m c (Proc.devRef .tc b) := V5_of m c b h4
    _ = Gen.V3 m c (Proc.devRef .tc b) := V4_of m c b h3
    _ = Gen.V2 m c (Proc.devRef .tc b) := V3_of m c b h2
    _ = Gen.V1 m c (Proc.devRef .tc b) := V2_of m c b h1
    _ = Gen.V0 m c (Proc.devRef .tc b) := V1_of m c b h0
    _ = m ((c : Thread nD τ).loc b) := rfl

/-! # The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W14 m c) ∗ ∃ r, prngReg c r)

/-! # The regions as segments -/

set_option backward.isDefEq.respectTransparency.types false in
/-- Region 0 over the thread state: entered from every unscoped buffer at `Gen.V7`, left at the next boundary's
    contents. Its windows' arrays are split out of the unscoped buffers and put back at their exit contents; the
    generator register and the scoped buffers no window stages go into the kernel's invariant and come back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E0 m) c
    unfold Pipeline.ΦA at h
    rw [show (pdats m 0 c).Φ 0 = (dat0 (E0 m) c).Φ 0 from rfl]
    iintro ⟨Hp, -, Hr⟩
    iapply h
    isplitl [Hr]; · iexact Hr
    iexact Hp
  hout c := by
    have h := hout0 (E0 m) c
    unfold Pipeline.ΦA at h
    rw [Pipeline.ownSems0_none, show (pdats m 0 c).Φ (Fin.last _) = (dat0 (E0 m) c).Φ (Fin.last cfg0.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W9`, left at the next boundary's
    contents. Its windows' arrays are split out of the unscoped buffers and put back at their exit contents; the
    generator register and the scoped buffers no window stages go into the kernel's invariant and come back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E1 m) c
    unfold Pipeline.ΦA at h
    rw [show (pdats m 1 c).Φ 0 = (dat1 (E1 m) c).Φ 0 from rfl]
    iintro ⟨Hp, -, Hr⟩
    iapply h
    isplitl [Hr]; · iexact Hr
    iexact Hp
  hout c := by
    have h := hout1 (E1 m) c
    unfold Pipeline.ΦA at h
    rw [Pipeline.ownSems0_none, show (pdats m 1 c).Φ (Fin.last _) = (dat1 (E1 m) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at the next boundary's
    contents. Its windows' arrays are split out of the unscoped buffers and put back at their exit contents; the
    generator register and the scoped buffers no window stages go into the kernel's invariant and come back; nothing
    is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (E2 m) c
    unfold Pipeline.ΦA at h
    rw [show (pdats m 2 c).Φ 0 = (dat2 (E2 m) c).Φ 0 from rfl]
    iintro ⟨Hp, -, Hr⟩
    iapply h
    isplitl [Hr]; · iexact Hr
    iexact Hp
  hout c := by
    have h := hout2 (E2 m) c
    unfold Pipeline.ΦA at h
    rw [Pipeline.ownSems0_none, show (pdats m 2 c).Φ (Fin.last _) = (dat2 (E2 m) c).Φ (Fin.last cfg2.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W13`, left at the next boundary's
    contents. Its windows' arrays are split out of the unscoped buffers and put back at their exit contents; the
    generator register and the scoped buffers no window stages go into the kernel's invariant and come back; nothing
    is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (E3 m) c
    unfold Pipeline.ΦA at h
    rw [show (pdats m 3 c).Φ 0 = (dat3 (E3 m) c).Φ 0 from rfl]
    iintro ⟨Hp, -, Hr⟩
    iapply h
    isplitl [Hr]; · iexact Hr
    iexact Hp
  hout c := by
    have h := hout3 (E3 m) c
    unfold Pipeline.ΦA at h
    rw [Pipeline.ownSems0_none, show (pdats m 3 c).Φ (Fin.last _) = (dat3 (E3 m) c).Φ (Fin.last cfg3.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's fourteen segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg0 m),
    .host (hseg hostOps1 hostOps1_sub hostOps1_fresh (W8 m)),
    .region (reg1 m),
    .host (hseg hostOps2 hostOps2_sub hostOps2_fresh (W10 m)),
    .region (reg2 m),
    .host (hseg hostOps3 hostOps3_sub hostOps3_fresh (W12 m)),
    .region (reg3 m) ]

variable (ρ : Dev nD → PrngReg)

set_option backward.isDefEq.respectTransparency.types false in
/-- THE RUN: from any memory with zero counters every weakly fair execution of @main terminates, nothing faulting,
    and every unscoped buffer ends at the last boundary's contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W14_kept m c main_arg0 (by decide)),
    (h c _ (mem_uc main_arg1 (by decide))).trans (W14_kept m c main_arg1 (by decide)),
    (h c _ (mem_uc main_arg2 (by decide))).trans (W14_kept m c main_arg2 (by decide)),
    (h c _ (mem_uc main_arg3 (by decide))).trans (W14_kept m c main_arg3 (by decide)),
    (h c _ (mem_uc main_arg4 (by decide))).trans (W14_kept m c main_arg4 (by decide)),
    (h c _ (mem_uc main_arg5 (by decide))).trans (W14_kept m c main_arg5 (by decide)),
    (h c _ (mem_uc main_arg6 (by decide))).trans (W14_kept m c main_arg6 (by decide)),
    (h c _ (mem_uc main_arg7 (by decide))).trans (W14_kept m c main_arg7 (by decide)),
    (h c _ (mem_uc main_arg8 (by decide))).trans (W14_kept m c main_arg8 (by decide)),
    (h c _ (mem_uc main_arg9 (by decide))).trans (W14_kept m c main_arg9 (by decide)),
    (h c _ (mem_uc main_arg10 (by decide))).trans (W14_kept m c main_arg10 (by decide)),
    (h c _ (mem_uc main_arg11 (by decide))).trans (W14_kept m c main_arg11 (by decide)),
    (h c _ (mem_uc main_arg12 (by decide))).trans (W14_kept m c main_arg12 (by decide)),
    (h c _ (mem_uc main_arg13 (by decide))).trans (W14_kept m c main_arg13 (by decide)),
    (h c _ (mem_uc main_arg14 (by decide))).trans (W14_kept m c main_arg14 (by decide)),
    (h c _ (mem_uc main_arg15 (by decide))).trans (W14_kept m c main_arg15 (by decide)),
    (h c _ (mem_uc main_arg16 (by decide))).trans (W14_kept m c main_arg16 (by decide)),
    (h c _ (mem_uc main_arg17 (by decide))).trans (W14_kept m c main_arg17 (by decide)),
    (h c _ (mem_uc main_arg18 (by decide))).trans (W14_kept m c main_arg18 (by decide)),
    (h c _ (mem_uc main_arg19 (by decide))).trans (W14_kept m c main_arg19 (by decide)),
    (h c _ (mem_uc main_arg20 (by decide))).trans (W14_kept m c main_arg20 (by decide))⟩) (run_all m ρ)

/-- THE RESULT: the result array ends at the last boundary's contents of `main_v34`. -/
theorem result : θ_run defs (onTc (τ := τ) (main (F := F))) ⟨m, fun _ => 0, ρ⟩ (fun r => ∀ c : Dev nD,
      r.2.mem ((c.tc : Thread nD τ).loc main_v34) = W14 m c (Proc.devRef .tc main_v34)) :=
  (θ_run defs _ _).mono (fun r h c => h c _ (mem_uc main_v34 (by decide))) (run_all m ρ)

end Cert.Kernel.Frame

end
-- ==== Proof.KernelIdealFrame.Reg0.lean ====
/- The frame half of REGION 0 (custom_call 0, `cc0__layer1_kernel`, pipeline 0), stated at a PARAMETER `V`: the
   TensorCore's buffer contents when the region is entered. Each window's block at a point (`iblk0`); what the body
   leaves in the output window's staging buffer as a closed function of the seven input blocks (`out0_7`); the body's
   triple on whole staging memrefs (`sound_kernel0`); the proof data (`dat0`) and the body obligation at every grid
   point (`body_obligation0`). The body loads whole input blocks, computes one payload and stores it over the whole
   output block; it keeps nothing from point to point. -/
import proofs.«103984_j66743791780425_2_alg».proof.Proof.Gen.KernelIdeal.Launch
import proofs.«103984_j66743791780425_2_alg».proof.Proof.Gen.KernelIdeal.Skeleton
import proofs.«103984_j66743791780425_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0: custom_call 0, `cc0__layer1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x784 := Rect.unit (s := S1024x784) ![0, 0] S1024x784.size inb_S1024x784_S1024x784_0_0
abbrev r0_1 : Rect S512x784 := Rect.unit (s := S512x784) ![0, 0] S512x784.size inb_S512x784_S512x784_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output window's buffer -/

/-- Window 7's staging buffer after the body, from the seven input windows' blocks: its one store as a piece. The
    payload takes the loaded values in the order the body loads them: windows 0, 1, 2, 3, then 6, 5, 4. -/
def out0_7 (x0 : Vec F S1024x784 .f32) (x1 : Vec F S512x784 .f32) (x2 : Vec F S1x512 .f32) (x3 : Vec F S1x512 .f32)
    (x4 : Vec F S1x512 .f32) (x5 : Vec F S1x512 .f32) (x6 : Vec F S1x512 .f32) : Vec F S1024x512 .bf16 :=
  View.canon [⟨r0_3, k0_pay1 (View.ld x0 r0_0) (View.ld x1 r0_1) (View.ld x2 r0_2) (View.ld x3 r0_2) (View.ld x6 r0_2) (View.ld x5 r0_2) (View.ld x4 r0_2)⟩]

/-- The one store is over the whole block, so it covers the buffer. -/
theorem cover0_7 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

/-! ## The body's triple -/

set_option maxHeartbeats 4000000 in
/-- The kernel body on whole staging memrefs, the inputs' at read contents `xW` and the output's at anything, runs to
    the continuation holding the inputs' as they were and the output's at `out0_7` of the inputs': the printed function
    is its skeleton, whose loads and one store are run one by one. The load of the output buffer before the store
    reads whatever the buffer holds; its value is not used. -/
theorem sound_kernel0 (c : Dev nD) (E : Set ℕ) (i : grid0.Coords) (arg2 : Memref sig .tc .vmem S1024x784 .f32) (harg2 : arg2.IsWhole) (arg3 : Memref sig .tc .vmem S512x784 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .bf16) (harg9 : arg9.IsWhole)
    (x0 : Vec F S1024x784 .f32) (x1 : Vec F S512x784 .f32) (x2 : Vec F S1x512 .f32) (x3 : Vec F S1x512 .f32) (x4 : Vec F S1x512 .f32) (x5 : Vec F S1x512 .f32) (x6 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at the region's entry is the class's, -/
theorem hin0 (c : Dev nD) : (Pipeline.ΦA spec0 c : sProp 𝕄) ⊢ (dat0 V c).Φ 0 := Entails.refl _
/-- and so it is at the region's exit. -/
theorem hout0 (c : Dev nD) : (dat0 V c).Φ (Fin.last cfg0.N) ⊢ (Pipeline.ΦA spec0 c : sProp 𝕄) := Entails.refl _

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame
-- ==== Proof.KernelIdealFrame.Reg1.lean ====
import proofs.«103984_j66743791780425_2_alg».proof.Proof.Gen.KernelIdeal.Launch
import proofs.«103984_j66743791780425_2_alg».proof.Proof.Gen.KernelIdeal.Skeleton
import proofs.«103984_j66743791780425_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

theorem hz1 : (![0, 0] : Fin 2 → Nat) = fun _ => 0 := funext fun a => by fin_cases a <;> rfl

/-- The condition of the body's first `scf.if` (the reset), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 12): the first step of the innermost axis. -/
theorem hcond1_0 : ∀ t : Fin cfg1.N, cond1_0 (grid1.coords t) ↔ t.val % 12 = 0 :=
  (by decide +kernel : ∀ t : Fin grid1.N, cond1_0 (grid1.coords t) ↔ t.val % 12 = 0)

/-- The condition of the body's second `scf.if` (the epilogue). -/
abbrev cond1_1 (i : grid1.Coords) : Prop := k1_cond2 i = 1#1
/-- It holds at the points ≡ 11 (mod 12): the last step of the innermost axis. -/
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Off the last step of the innermost axis the output window is idle (the body stores nothing into it), -/
theorem idleAt1_7 (t : Fin cfg1.N) (h1 : ¬t.val % 12 = 11) : cfg1.idle 7 (grid1.coords t) = true := by
  have h : ¬cond1_1 (grid1.coords t) := fun h => h1 ((hcond1_1 t).mp h)
  show (!(k1_cond2 (grid1.coords t) == 1#1)) = true
  rw [Bool.not_eq_true', beq_eq_false_iff_ne]; exact h
/-- and is not written back there; -/
theorem noFlush1_7 (t : Fin cfg1.N) (h1 : ¬t.val % 12 = 11) : (cfg1.win 7).flush t = false :=
  Bool.eq_false_iff.mpr fun h => h1 ((flush1_7 t).mp h)
/-- at the last step it is live. -/
theorem liveAt1_7 (t : Fin cfg1.N) (h1 : t.val % 12 = 11) : cfg1.idle 7 (grid1.coords t) = false := by
  have h : cond1_1 (grid1.coords t) := (hcond1_1 t).mpr h1
  show (!(k1_cond2 (grid1.coords t) == 1#1)) = false
  rw [Bool.not_eq_false', beq_iff_eq]; exact h

/-! ## The staging and scratch memrefs -/

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
/-- The scratch operand: a whole scoped buffer of the kernel's own, passed beside the windows and carried between points. -/
abbrev scM1_0 : Memref sig .tc .vmem S1024x1024 .f32 := Memref.whole cc1_scratch0

/-- The region's invariant with the scratch operand as a memref owned at some contents; the other scoped buffers unopened. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; rfl

/-! ## The kernel body on any whole staging memrefs, case by case -/

/-- A covering store through the whole-shape rectangle, made last, leaves its payload, whatever was stored before. -/
theorem read_writes_unit1 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- CASE A (first step of the innermost axis): the body resets the accumulator to zeros, reads it back, and leaves
    `0 + x₀·x₁ᵀ` in it; the inputs are handed back as they were; nothing else is touched. -/
theorem kernelRun1_A (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond1_0 i) (hc1 : ¬cond1_1 i)
    (x0 : Vec F S1024x512 .bf16) (x1 : Vec F S1024x512 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1
            ∗ owns (c : Thread nD τ) arg11 fullShare (k1_pay2 (k1_pay1 (F := F)) x0 x1)) -∗ K ⟨⟩))
      ⊢ wp frame (wpE (defs₀ (F := F)) Variants.none c none) E (cc1__stage_kernel i arg3 harg3 arg4 harg4 arg5 harg5 arg6 harg6 arg7 harg7 arg8 harg8 arg9 harg9 arg10 harg10 arg11 harg11) K := by
  simp only [cc1__stage_kernel_eq_skeleton]; unfold cc1__stage_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit1 _ _ hz1, View.readCov_unit_zero (S := S1024x1024) _ hz1]
  simp only [View.readAt_eq_ld, harg3.read_unread, harg4.read_unread, View.ld_unit_zero (S := S1024x512) hz1]

set_option maxHeartbeats 1000000 in
/-- CASE B (an inner step): the body adds `x₀·x₁ᵀ` to the accumulator. -/
theorem kernelRun1_B (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond1_0 i) (hc1 : ¬cond1_1 i)
    (x0 : Vec F S1024x512 .bf16) (x1 : Vec F S1024x512 .bf16) (xs0 : Vec F S1024x1024 .f32) (E : Set ℕ) (K : PUnit → sProp 𝕄) :
    iprop(owns (c : Thread nD τ) arg3 fullShare x0 ∗ owns (c : Thread nD τ) arg4 fullShare x1 ∗ owns (c : Thread nD τ) arg11 fullShare xs0
        ∗ (iprop(owns (c : Thread nD τ) arg3 fullShare x0 ∗ owns (c : Thread nD τ) arg4 fullShare x1
            ∗ owns (c : Thread nD τ) arg11 fullShare (k1_pay2 xs0 x0 x1)) -∗ K ⟨⟩))
      ⊢ wp frame (wpE (defs₀ (F := F)) Variants.none c none) E (cc1__stage_kernel i arg3 harg3 arg4 harg4 arg5 harg5 arg6 harg6 arg7 harg7 arg8 harg8 arg9 harg9 arg10 harg10 arg11 harg11) K := by
  simp only [cc1__stage_kernel_eq_skeleton]; unfold cc1__stage_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit1 _ _ hz1]
  simp only [View.readAt_eq_ld, harg3.read_unread, harg4.read_unread, harg11.read_unread, View.ld_unit_zero (S := S1024x512) hz1, View.ld_unit_zero (S := S1024x1024) hz1]

set_option maxHeartbeats 1000000 in
/-- CASE C (last step of the innermost axis): the body adds `x₀·x₁ᵀ` to the accumulator, then stores the epilogue of the
    sum and the five rows (bias, batch norm, sign) over the whole output block. -/
theorem kernelRun1_C (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond1_0 i) (hc1 : cond1_1 i)
    (x0 : Vec F S1024x512 .bf16) (x1 : Vec F S1024x512 .bf16) (x2 x3 x4 x5 x6 : Vec F S1x1024 .f32) (xs0 : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare x4
        ∗ owns (c : Thread nD τ) arg8 fullShare x5 ∗ owns (c : Thread nD τ) arg9 fullShare x6
        ∗ (∃ d, owns (c : Thread nD τ) arg10 fullShare d) ∗ owns (c : Thread nD τ) arg11 fullShare xs0
        ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare x5 ∗ owns (c : Thread nD τ) arg9 fullShare x6
            ∗ owns (c : Thread nD τ) arg10 fullShare (k1_pay3 (k1_pay2 xs0 x0 x1) x2 x3 x6 x5 x4)
            ∗ owns (c : Thread nD τ) arg11 fullShare (k1_pay2 xs0 x0 x1)) -∗ K ⟨⟩))
      ⊢ wp frame (wpE (defs₀ (F := F)) Variants.none c none) E (cc1__stage_kernel i arg3 harg3 arg4 harg4 arg5 harg5 arg6 harg6 arg7 harg7 arg8 harg8 arg9 harg9 arg10 harg10 arg11 harg11) K := by
  simp only [cc1__stage_kernel_eq_skeleton]; unfold cc1__stage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    sl_unfold_words
    rw [read_writes_unit1 _ _ hz1]

    simp only [View.readCov_unit_zero (S := S1024x1024) _ hz1, View.readAt_eq_ld, harg3.read_unread, harg4.read_unread, harg5.read_unread, harg6.read_unread, harg7.read_unread, harg8.read_unread, harg9.read_unread, harg11.read_unread, View.ld_unit_zero (S := S1024x512) hz1, View.ld_unit_zero (S := S1x1024) hz1, View.ld_unit_zero (S := S1024x1024) hz1]
  iexists _; isplitr
  swap; · iexact HS0
  ipureintro
  sl_unfold_words
  rw [read_writes_unit1 _ _ hz1]
  simp only [View.readAt_eq_ld, harg3.read_unread, harg4.read_unread, harg11.read_unread, View.ld_unit_zero (S := S1024x512) hz1, View.ld_unit_zero (S := S1024x1024) hz1]

/-! ## What the accumulator and the output hold after each point -/

/-- THE ACCUMULATION. What the scratch accumulator holds after the body at position `n`: at the first step of the innermost
    axis the product of the point's two blocks added to zeros, at a later step added to what the step before left. -/
def acc1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 12 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At a first step: the reset sum. -/
theorem acc1_reset (c : Dev nD) (t : Fin cfg1.N) (h0 : t.val % 12 = 0) :
    acc1 V c t.val t.isLt = k1_pay2 (k1_pay1 (F := F)) (iblk1 V c 0 t) (iblk1 V c 1 t) := by
  obtain ⟨n, hn⟩ := t
  cases n with
  | zero => rfl
  | succ n => exact if_pos h0

/-- At a later step: the step before's sum plus this point's product. -/
theorem acc1_step (c : Dev nD) (t : Fin cfg1.N) (h0 : ¬t.val % 12 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-- What the output window's staging buffer holds after the body at a last step of the innermost axis: the epilogue
    (bias, batch norm, sign) of the accumulated sum and the point's five row blocks. (At the other points the
    window is idle: this value is not consulted there.) -/
def out1 (c : Dev nD) (t : Fin cfg1.N) : Vec F S1024x1024 .bf16 :=
  k1_pay3 (acc1 V c t.val t.isLt) (iblk1 V c 2 t) (iblk1 V c 3 t) (iblk1 V c 6 t) (iblk1 V c 5 t) (iblk1 V c 4 t)

/-- The region invariant before position `n`: before the first point the class's (every scratch at anything); afterwards the
    accumulator at what the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hn0 : n = 0) : PhiS1 V c n h = Pipeline.ΦA spec1 c := by
  subst hn0; rfl

theorem PhiS1_succ (c : Dev nD) (n : ℕ) (hn : n < cfg1.N) :
    PhiS1 V c (n + 1) hn = iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hn0 : n ≠ 0) :
    PhiS1 V c n h = iprop(iprop(owns (c : Thread nD τ) scM1_0 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hn0
  | succ n => rfl

/-- At any position the invariant gives the accumulator at SOME contents (what the reset needs; what the region hands on). -/
theorem PhiS1_any (c : Dev nD) (n : ℕ) (h : n ≤ cfg1.N) :
    PhiS1 V c n h ⊢ iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  cases n with
  | zero => rw [PhiS1_zero V c 0 h rfl, PhiA1_eq]
  | succ n =>
    rw [PhiS1_succ]
    iintro ⟨⟨HS0, Hr⟩, Hg⟩
    isplitl [HS0 Hr]
    · isplitl [HS0]
      · iexists _; iexact HS0
      iexact Hr
    iexact Hg

/-! ## The pipeline's proof data -/

/-- The proof data of the pipeline on core `c`: the arrays as the region finds them (`V`); after the body at point `t` each
    input's buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in; the
    invariant hands the body the accumulator at what the point before left (at anything where it is reset) and takes it
    back at this point's sum; the output window is handed back untouched where it is idle and at the epilogue's value at the
    last step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h1 : t.val % 12 = 11
  · have h0 : ¬t.val % 12 = 0 := by omega
    have hz' : t.val ≠ 0 := fun h => h0 (by rw [h])
    rw [show (dat1 V c).leavesExact 7 t = owns (c : Thread nD τ) (ms1_7 t) fullShare ((dat1 V c).after 7 t) from by
      unfold Dat.leavesExact; rw [liveAt1_7 t h1], after1_7]
    unfold out1
    rw [acc1_step V c t h0, PhiS1_pos V c _ _ hz']
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1)
      (iblk1 V c 0 t) (iblk1 V c 1 t) (iblk1 V c 2 t) (iblk1 V c 3 t) (iblk1 V c 4 t) (iblk1 V c 5 t) (iblk1 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat1 V c) 7 t (idleAt1_7 t h1) (noFlush1_7 t h1)]
    by_cases h0 : t.val % 12 = 0
    · rw [acc1_reset V c t h0]
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨⟨HS0, Hr⟩, Hg⟩ := (PhiS1_any V c _ _) $$ HP
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h))
        (iblk1 V c 0 t) (iblk1 V c 1 t) Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz' : t.val ≠ 0 := fun h => h0 (by rw [h])
      rw [acc1_step V c t h0, PhiS1_pos V c _ _ hz']
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h))
        (iblk1 V c 0 t) (iblk1 V c 1 t) _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point the invariant gives `ΦA` back: the accumulator's named contents are forgotten. -/
theorem Phi_out1 (c : Dev nD) (t : Fin (cfg1.N + 1)) : (dat1 V c).Φ t ⊢ (Pipeline.ΦA spec1 c : sProp 𝕄) := by
  rw [show (dat1 V c).Φ t = PhiS1 V c t.val (Nat.le_of_lt_succ t.isLt) from rfl, PhiA1_eq]
  exact PhiS1_any V c _ _

/-- The same after the last point. -/
theorem hout1 (c : Dev nD) : (dat1 V c).Φ (Fin.last cfg1.N) ⊢ (Pipeline.ΦA spec1 c : sProp 𝕄) :=
  Phi_out1 V c _

end Cert.KernelIdeal.Frame

end
-- ==== Proof.KernelIdealFrame.Reg2.lean ====
import proofs.«103984_j66743791780425_2_alg».proof.Proof.Gen.KernelIdeal.Launch
import proofs.«103984_j66743791780425_2_alg».proof.Proof.Gen.KernelIdeal.Skeleton
import proofs.«103984_j66743791780425_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

theorem hz2 : (![0, 0] : Fin 2 → Nat) = fun _ => 0 := funext fun a => by fin_cases a <;> rfl

/-- The condition of the body's first `scf.if` (the reset), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 12): the first step of the innermost axis. -/
theorem hcond2_0 : ∀ t : Fin cfg2.N, cond2_0 (grid2.coords t) ↔ t.val % 12 = 0 :=
  (by decide +kernel : ∀ t : Fin grid2.N, cond2_0 (grid2.coords t) ↔ t.val % 12 = 0)

/-- The condition of the body's second `scf.if` (the epilogue). -/
abbrev cond2_1 (i : grid2.Coords) : Prop := k2_cond2 i = 1#1
/-- It holds at the points ≡ 11 (mod 12): the last step of the innermost axis. -/
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last step of the innermost axis the output window is idle (the body stores nothing into it), -/
theorem idleAt2_7 (t : Fin cfg2.N) (h1 : ¬t.val % 12 = 11) : cfg2.idle 7 (grid2.coords t) = true := by
  have h : ¬cond2_1 (grid2.coords t) := fun h => h1 ((hcond2_1 t).mp h)
  show (!(k2_cond2 (grid2.coords t) == 1#1)) = true
  rw [Bool.not_eq_true', beq_eq_false_iff_ne]; exact h
/-- and is not written back there; -/
theorem noFlush2_7 (t : Fin cfg2.N) (h1 : ¬t.val % 12 = 11) : (cfg2.win 7).flush t = false :=
  Bool.eq_false_iff.mpr fun h => h1 ((flush2_7 t).mp h)
/-- at the last step it is live. -/
theorem liveAt2_7 (t : Fin cfg2.N) (h1 : t.val % 12 = 11) : cfg2.idle 7 (grid2.coords t) = false := by
  have h : cond2_1 (grid2.coords t) := (hcond2_1 t).mpr h1
  show (!(k2_cond2 (grid2.coords t) == 1#1)) = false
  rw [Bool.not_eq_false', beq_iff_eq]; exact h

/-! ## The staging and scratch memrefs -/

abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .bf16 := win2_7.stage (cfg2.slots t 7)
abbrev hs2_7 (t : Fin cfg2.N) : (ms2_7 t).IsWhole := hstage2_7 ((cfg2.slots t 7).cast nbuf2_7)
/-- The scratch operand: a whole scoped buffer of the kernel's own, passed beside the windows and carried between points. -/
abbrev scM2_0 : Memref sig .tc .vmem S1024x1024 .f32 := Memref.whole cc2_scratch0

/-- The region's invariant with the scratch operand as a memref owned at some contents; the other scoped buffers unopened. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; rfl

/-! ## The kernel body on any whole staging memrefs, case by case -/

/-- A covering store through the whole-shape rectangle, made last, leaves its payload, whatever was stored before. -/
theorem read_writes_unit2 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- CASE A (first step of the innermost axis): the body resets the accumulator to zeros, reads it back, and leaves
    `0 + x₀·x₁ᵀ` in it; the inputs are handed back as they were; nothing else is touched. -/
theorem kernelRun2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond2_0 i) (hc1 : ¬cond2_1 i)
    (x0 : Vec F S1024x512 .bf16) (x1 : Vec F S1024x512 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1
            ∗ owns (c : Thread nD τ) arg11 fullShare (k2_pay2 (k2_pay1 (F := F)) x0 x1)) -∗ K ⟨⟩))
      ⊢ wp frame (wpE (defs₀ (F := F)) Variants.none c none) E (cc2__stage_kernel i arg3 harg3 arg4 harg4 arg5 harg5 arg6 harg6 arg7 harg7 arg8 harg8 arg9 harg9 arg10 harg10 arg11 harg11) K := by
  simp only [cc2__stage_kernel_eq_skeleton]; unfold cc2__stage_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit2 _ _ hz2, View.readCov_unit_zero (S := S1024x1024) _ hz2]
  simp only [View.readAt_eq_ld, harg3.read_unread, harg4.read_unread, View.ld_unit_zero (S := S1024x512) hz2]

set_option maxHeartbeats 1000000 in
/-- CASE B (an inner step): the body adds `x₀·x₁ᵀ` to the accumulator. -/
theorem kernelRun2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond2_0 i) (hc1 : ¬cond2_1 i)
    (x0 : Vec F S1024x512 .bf16) (x1 : Vec F S1024x512 .bf16) (xs0 : Vec F S1024x1024 .f32) (E : Set ℕ) (K : PUnit → sProp 𝕄) :
    iprop(owns (c : Thread nD τ) arg3 fullShare x0 ∗ owns (c : Thread nD τ) arg4 fullShare x1 ∗ owns (c : Thread nD τ) arg11 fullShare xs0
        ∗ (iprop(owns (c : Thread nD τ) arg3 fullShare x0 ∗ owns (c : Thread nD τ) arg4 fullShare x1
            ∗ owns (c : Thread nD τ) arg11 fullShare (k2_pay2 xs0 x0 x1)) -∗ K ⟨⟩))
      ⊢ wp frame (wpE (defs₀ (F := F)) Variants.none c none) E (cc2__stage_kernel i arg3 harg3 arg4 harg4 arg5 harg5 arg6 harg6 arg7 harg7 arg8 harg8 arg9 harg9 arg10 harg10 arg11 harg11) K := by
  simp only [cc2__stage_kernel_eq_skeleton]; unfold cc2__stage_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [read_writes_unit2 _ _ hz2]
  simp only [View.readAt_eq_ld, harg3.read_unread, harg4.read_unread, harg11.read_unread, View.ld_unit_zero (S := S1024x512) hz2, View.ld_unit_zero (S := S1024x1024) hz2]

set_option maxHeartbeats 1000000 in
/-- CASE C (last step of the innermost axis): the body adds `x₀·x₁ᵀ` to the accumulator, then stores the epilogue of the
    sum and the five rows (bias, batch norm, sign) over the whole output block. -/
theorem kernelRun2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬cond2_0 i) (hc1 : cond2_1 i)
    (x0 : Vec F S1024x512 .bf16) (x1 : Vec F S1024x512 .bf16) (x2 x3 x4 x5 x6 : Vec F S1x1024 .f32) (xs0 : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare x4
        ∗ owns (c : Thread nD τ) arg8 fullShare x5 ∗ owns (c : Thread nD τ) arg9 fullShare x6
        ∗ (∃ d, owns (c : Thread nD τ) arg10 fullShare d) ∗ owns (c : Thread nD τ) arg11 fullShare xs0
        ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare x5 ∗ owns (c : Thread nD τ) arg9 fullShare x6
            ∗ owns (c : Thread nD τ) arg10 fullShare (k2_pay3 (k2_pay2 xs0 x0 x1) x2 x3 x6 x5 x4)
            ∗ owns (c : Thread nD τ) arg11 fullShare (k2_pay2 xs0 x0 x1)) -∗ K ⟨⟩))
      ⊢ wp frame (wpE (defs₀ (F := F)) Variants.none c none) E (cc2__stage_kernel i arg3 harg3 arg4 harg4 arg5 harg5 arg6 harg6 arg7 harg7 arg8 harg8 arg9 harg9 arg10 harg10 arg11 harg11) K := by
  simp only [cc2__stage_kernel_eq_skeleton]; unfold cc2__stage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg11.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    sl_unfold_words
    rw [read_writes_unit2 _ _ hz2]

    simp only [View.readCov_unit_zero (S := S1024x1024) _ hz2, View.readAt_eq_ld, harg3.read_unread, harg4.read_unread, harg5.read_unread, harg6.read_unread, harg7.read_unread, harg8.read_unread, harg9.read_unread, harg11.read_unread, View.ld_unit_zero (S := S1024x512) hz2, View.ld_unit_zero (S := S1x1024) hz2, View.ld_unit_zero (S := S1024x1024) hz2]
  iexists _; isplitr
  swap; · iexact HS0
  ipureintro
  sl_unfold_words
  rw [read_writes_unit2 _ _ hz2]
  simp only [View.readAt_eq_ld, harg3.read_unread, harg4.read_unread, harg11.read_unread, View.ld_unit_zero (S := S1024x512) hz2, View.ld_unit_zero (S := S1024x1024) hz2]

/-! ## What the accumulator and the output hold after each point -/

/-- THE ACCUMULATION. What the scratch accumulator holds after the body at position `n`: at the first step of the innermost
    axis the product of the point's two blocks added to zeros, at a later step added to what the step before left. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 12 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At a first step: the reset sum. -/
theorem acc2_reset (c : Dev nD) (t : Fin cfg2.N) (h0 : t.val % 12 = 0) :
    acc2 V c t.val t.isLt = k2_pay2 (k2_pay1 (F := F)) (iblk2 V c 0 t) (iblk2 V c 1 t) := by
  obtain ⟨n, hn⟩ := t
  cases n with
  | zero => rfl
  | succ n => exact if_pos h0

/-- At a later step: the step before's sum plus this point's product. -/
theorem acc2_step (c : Dev nD) (t : Fin cfg2.N) (h0 : ¬t.val % 12 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0).trans rfl

/-- What the output window's staging buffer holds after the body at a last step of the innermost axis: the epilogue
    (bias, batch norm, sign) of the accumulated sum and the point's five row blocks. (At the other points the
    window is idle: this value is not consulted there.) -/
def out2 (c : Dev nD) (t : Fin cfg2.N) : Vec F S1024x1024 .bf16 :=
  k2_pay3 (acc2 V c t.val t.isLt) (iblk2 V c 2 t) (iblk2 V c 3 t) (iblk2 V c 6 t) (iblk2 V c 5 t) (iblk2 V c 4 t)

/-- The region invariant before position `n`: before the first point the class's (every scratch at anything); afterwards the
    accumulator at what the point before left in it, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hn0 : n = 0) : PhiS2 V c n h = Pipeline.ΦA spec2 c := by
  subst hn0; rfl

theorem PhiS2_succ (c : Dev nD) (n : ℕ) (hn : n < cfg2.N) :
    PhiS2 V c (n + 1) hn = iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hn0 : n ≠ 0) :
    PhiS2 V c n h = iprop(iprop(owns (c : Thread nD τ) scM2_0 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hn0
  | succ n => rfl

/-- At any position the invariant gives the accumulator at SOME contents (what the reset needs; what the region hands on). -/
theorem PhiS2_any (c : Dev nD) (n : ℕ) (h : n ≤ cfg2.N) :
    PhiS2 V c n h ⊢ iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  cases n with
  | zero => rw [PhiS2_zero V c 0 h rfl, PhiA2_eq]
  | succ n =>
    rw [PhiS2_succ]
    iintro ⟨⟨HS0, Hr⟩, Hg⟩
    isplitl [HS0 Hr]
    · isplitl [HS0]
      · iexists _; iexact HS0
      iexact Hr
    iexact Hg

/-! ## The pipeline's proof data -/

/-- The proof data of the pipeline on core `c`: the arrays as the region finds them (`V`); after the body at point `t` each
    input's buffer at its block and the output's at `out2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the closed forms say which case the point is in; the
    invariant hands the body the accumulator at what the point before left (at anything where it is reset) and takes it
    back at this point's sum; the output window is handed back untouched where it is idle and at the epilogue's value at the
    last step; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h1 : t.val % 12 = 11
  · have h0 : ¬t.val % 12 = 0 := by omega
    have hz' : t.val ≠ 0 := fun h => h0 (by rw [h])
    rw [show (dat2 V c).leavesExact 7 t = owns (c : Thread nD τ) (ms2_7 t) fullShare ((dat2 V c).after 7 t) from by
      unfold Dat.leavesExact; rw [liveAt2_7 t h1], after2_7]
    unfold out2
    rw [acc2_step V c t h0, PhiS2_pos V c _ _ hz']
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1)
      (iblk2 V c 0 t) (iblk2 V c 1 t) (iblk2 V c 2 t) (iblk2 V c 3 t) (iblk2 V c 4 t) (iblk2 V c 5 t) (iblk2 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat2 V c) 7 t (idleAt2_7 t h1) (noFlush2_7 t h1)]
    by_cases h0 : t.val % 12 = 0
    · rw [acc2_reset V c t h0]
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨⟨HS0, Hr⟩, Hg⟩ := (PhiS2_any V c _ _) $$ HP
      iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h))
        (iblk2 V c 0 t) (iblk2 V c 1 t) Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz' : t.val ≠ 0 := fun h => h0 (by rw [h])
      rw [acc2_step V c t h0, PhiS2_pos V c _ _ hz']
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h))
        (iblk2 V c 0 t) (iblk2 V c 1 t) _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any point the invariant gives `ΦA` back: the accumulator's named contents are forgotten. -/
theorem Phi_out2 (c : Dev nD) (t : Fin (cfg2.N + 1)) : (dat2 V c).Φ t ⊢ (Pipeline.ΦA spec2 c : sProp 𝕄) := by
  rw [show (dat2 V c).Φ t = PhiS2 V c t.val (Nat.le_of_lt_succ t.isLt) from rfl, PhiA2_eq]
  exact PhiS2_any V c _ _

/-- The same after the last point. -/
theorem hout2 (c : Dev nD) : (dat2 V c).Φ (Fin.last cfg2.N) ⊢ (Pipeline.ΦA spec2 c : sProp 𝕄) :=
  Phi_out2 V c _

end Cert.KernelIdeal.Frame

end
-- ==== Proof.KernelIdealFrame.Reg3.lean ====
/- The per-region half of the frame certificate for custom_call 3, the final layer: a matrix product accumulated
   over the reduction axis of an 8×6 grid into a scratch block carried between grid points, reset at the first
   step of the axis, and at the last step stored, biased and log-softmaxed, into the output block. Three control
   cases (first step / middle step / last step), one body triple each with the buffers' final contents stated as
   the skeleton's payloads of what the buffers held; the accumulated contents by recursion on the point; the
   region's proof data, its body obligation, and the invariant's entry and exit. Generic in the float operations. -/
import proofs.«103984_j66743791780425_2_alg».proof.Proof.Gen.KernelIdeal.Launch
import proofs.«103984_j66743791780425_2_alg».proof.Proof.Gen.KernelIdeal.Skeleton
import proofs.«103984_j66743791780425_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (the accumulator is reset), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 6). -/
theorem hcond3_0 : ∀ t : Fin cfg3.N, cond3_0 (grid3.coords t) ↔ t.val % 6 = 0 :=
  (by decide +kernel : ∀ t : Fin grid3.N, cond3_0 (grid3.coords t) ↔ t.val % 6 = 0)

/-- The condition of the body's second conditional (the epilogue store), from the grid coordinates. -/
abbrev cond3_1 (i : grid3.Coords) : Prop := k3_cond2 i = 1#1
/-- It holds at the points ≡ 5 (mod 6). -/
theorem hcond3_1 : ∀ t : Fin cfg3.N, cond3_1 (grid3.coords t) ↔ t.val % 6 = 5 :=
  (by decide +kernel : ∀ t : Fin grid3.N, cond3_1 (grid3.coords t) ↔ t.val % 6 = 5)

/-! ## The kernel body, case by case

The body resets the accumulator at the first step of the reduction axis, adds the product of the two input
blocks to it at every step, and at the last step stores the biased log-softmax of the accumulator into the
output block. Every load and store is of a whole block at zero offsets, so what each buffer ends with is the
payload of the last store into it. -/

/-- The zero offsets of a rank-2 block, however spelt. -/
theorem hz3 : (![0, 0] : Fin 2 → Nat) = fun _ => 0 := funext fun a => by fin_cases a <;> rfl

set_option maxHeartbeats 1000000 in
/-- Case A (first step of the reduction axis, not the last): the accumulator, found at anything, ends at the
    product added to the zero block; the inputs and the idle output are handed back as found. -/
theorem kernelRun3_A (c : Dev nD) (i : grid3.Coords) (arg2 : Memref sig .tc .vmem S1024x1024 .bf16) (harg2 : arg2.IsWhole) (arg3 : Memref sig .tc .vmem S10x1024 .bf16) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole) (hc0 : cond3_0 i) (hc1 : ¬cond3_1 i)
    (x0 : Vec F S1024x1024 .bf16) (x1 : Vec F S10x1024 .bf16) (x2 : Vec F S1x10 .f32)
    (xi3 : Vec F S1024x10 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k3_pay2 (k3_pay1 (F := F)) x0 x1)) -∗ K ⟨⟩))
      ⊢ wp frame (wpE (defs₀ (F := F)) Variants.none c none) E (cc3__final_kernel i arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_run_names
  rw [View.read_writes_eq_canon _ _ _ (fun y => ⟨_, List.mem_cons_self, View.mem_set_unit_zero hz3 inb_S1024x10_S1024x10_0_0 y⟩)]
  rw [View.canon_cons_unit_zero (S := S1024x10) hz3, View.readCov_unit_zero (S := S1024x10) _ hz3]
  simp only [View.readAt_eq_ld, harg2.read_unread, harg3.read_unread, View.ld_unit_zero (S := S1024x1024) hz3, View.ld_unit_zero (S := S10x1024) hz3]

set_option maxHeartbeats 1000000 in
/-- Case B (neither the first nor the last step): the accumulator, found at `xs0`, ends at the product added
    to `xs0`; the inputs and the idle output are handed back as found. -/
theorem kernelRun3_B (c : Dev nD) (i : grid3.Coords) (arg2 : Memref sig .tc .vmem S1024x1024 .bf16) (harg2 : arg2.IsWhole) (arg3 : Memref sig .tc .vmem S10x1024 .bf16) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole) (hc0 : ¬cond3_0 i) (hc1 : ¬cond3_1 i)
    (x0 : Vec F S1024x1024 .bf16) (x1 : Vec F S10x1024 .bf16) (x2 : Vec F S1x10 .f32) (xs0 : Vec F S1024x10 .f32)
    (xi3 : Vec F S1024x10 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k3_pay2 xs0 x0 x1)) -∗ K ⟨⟩))
      ⊢ wp frame (wpE (defs₀ (F := F)) Variants.none c none) E (cc3__final_kernel i arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_run_names
  rw [View.read_writes_eq_canon _ _ _ (fun y => ⟨_, List.mem_cons_self, View.mem_set_unit_zero hz3 inb_S1024x10_S1024x10_0_0 y⟩)]
  rw [View.canon_cons_unit_zero (S := S1024x10) hz3]
  simp only [View.readAt_eq_ld, harg2.read_unread, harg3.read_unread, harg6.read_unread, View.ld_unit_zero (S := S1024x1024) hz3, View.ld_unit_zero (S := S10x1024) hz3, View.ld_unit_zero (S := S1024x10) hz3]

set_option maxHeartbeats 1000000 in
/-- Case C (the last step of the reduction axis, not the first): the accumulator, found at `xs0`, ends at the
    product added to `xs0`, and the output block, found at anything, ends at the biased log-softmax of that sum;
    the inputs are handed back as found. -/
theorem kernelRun3_C (c : Dev nD) (i : grid3.Coords) (arg2 : Memref sig .tc .vmem S1024x1024 .bf16) (harg2 : arg2.IsWhole) (arg3 : Memref sig .tc .vmem S10x1024 .bf16) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole) (hc0 : ¬cond3_0 i) (hc1 : cond3_1 i)
    (x0 : Vec F S1024x1024 .bf16) (x1 : Vec F S10x1024 .bf16) (x2 : Vec F S1x10 .f32) (xs0 : Vec F S1024x10 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k3_pay3 (k3_pay2 xs0 x0 x1) x2) ∗ owns (c : Thread nD τ) arg6 fullShare (k3_pay2 xs0 x0 x1)) -∗ K ⟨⟩))
      ⊢ wp frame (wpE (defs₀ (F := F)) Variants.none c none) E (cc3__final_kernel i arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self, View.mem_set_unit_zero hz3 inb_S1024x10_S1024x10_0_0 y⟩)]
    rw [View.canon_cons_unit_zero (S := S1024x10) hz3, View.readCov_unit_zero (S := S1024x10) _ hz3]
    simp only [View.readAt_eq_ld, harg2.read_unread, harg3.read_unread, harg4.read_unread, harg6.read_unread, View.ld_unit_zero (S := S1024x1024) hz3, View.ld_unit_zero (S := S10x1024) hz3, View.ld_unit_zero (S := S1024x10) hz3, View.ld_unit_zero (S := S1x10) hz3]
  iexists _; isplitr
  swap; · iexact HS0
  ipureintro
  sl_unfold_run_names
  rw [View.read_writes_eq_canon _ _ _ (fun y => ⟨_, List.mem_cons_self, View.mem_set_unit_zero hz3 inb_S1024x10_S1024x10_0_0 y⟩)]
  rw [View.canon_cons_unit_zero (S := S1024x10) hz3]
  simp only [View.readAt_eq_ld, harg2.read_unread, harg3.read_unread, harg6.read_unread, View.ld_unit_zero (S := S1024x1024) hz3, View.ld_unit_zero (S := S10x1024) hz3, View.ld_unit_zero (S := S1024x10) hz3]

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## Where the windows are idle -/

/-- The three inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Before the last step of the reduction axis the output is idle, and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last step it is live. -/
theorem liveAt3_3 : ∀ t : Fin cfg3.N, cond3_1 (grid3.coords t) → cfg3.idle 3 (grid3.coords t) = false := by decide +kernel

/-! ## The staging and scratch memrefs -/

/-- Each window's current staging memref at point `t`, and its wholeness. -/
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x10 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows and carried between points. -/
abbrev scM3_0 : Memref sig .tc .vmem S1024x10 .f32 := Memref.whole cc3_scratch0

/-- The scoped buffers of the core that are neither a staging buffer of this region nor its accumulator, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant with the accumulator as a memref owned at some contents. -/
theorem PhiA3_eq (c : Dev nD) :
    (Pipeline.ΦA spec3 c : sProp 𝕄)
      = iprop(iprop(iprop(∃ d, owns (c : Thread nD τ) scM3_0 fullShare d) ∗ rest3 (F := F) c) ∗ (∃ r, prngReg c r)) := by
  unfold Pipeline.ΦA; rw [scopedRest3_split]; simp only [scM3_0, owns_whole]; try rfl

/-! ## What the accumulator holds after each point -/

/-- THE ACCUMULATION. What the accumulator holds after the body at position `n`: at the first step of the reduction
    axis the product of the point's input blocks added to the zero block, elsewhere added to what the point before left. -/
def acc3 (c : Dev nD) : (n : ℕ) → n < cfg3.N → Vec F S1024x10 .f32
  | 0, hn => k3_pay2 (k3_pay1 (F := F)) (iblk3 V c 0 ⟨0, hn⟩) (iblk3 V c 1 ⟨0, hn⟩)
  | n + 1, hn =>
    if (n + 1) % 6 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

/-- At a first step: the reset. -/
theorem acc3_first (c : Dev nD) (t : Fin cfg3.N) (h0 : t.val % 6 = 0) :
    acc3 V c t.val t.isLt = k3_pay2 (k3_pay1 (F := F)) (iblk3 V c 0 t) (iblk3 V c 1 t) := by
  obtain ⟨n, hn⟩ := t
  cases n with
  | zero => rfl
  | succ n => exact if_pos h0

/-- Elsewhere: one more product over what the point before left. -/
theorem acc3_next (c : Dev nD) (t : Fin cfg3.N) (h0 : ¬t.val % 6 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- The region invariant before position `n`: before the first point the class's (every scratch at anything); afterwards
    the accumulator at what the point before left in it, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega)) ∗ rest3 (F := F) c) ∗ (∃ r, prngReg c r)) := by
  cases n with
  | zero => exact absurd rfl hz
  | succ n => rfl

/-! ## The region's proof data -/

/-- The proof data of the region on core `c`: the arrays as the region finds them (`V`); after the body at point `t`
    each input's buffer at its block and the output's at the biased log-softmax of the accumulated sum (consulted at the
    last step of the reduction axis only: elsewhere the output is idle); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the accumulator at what the point before left (at anything before the first point) and takes
    it back at this point's contents; an idle output is handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 48 := lt_of_lt_of_eq t.isLt (show cfg3.N = 48 from N_3)
  by_cases h0 : t.val % 6 = 0
  · by_cases h1 : t.val % 6 = 5
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [acc3_first V c t h0]
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply (kernelRun3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply (kernelRun3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS0]; · iexists _; iexact HS0
        iintro ⟨H0, H1, H2, H3, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 6 = 5
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [acc3_next V c t h0]
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply (kernelRun3_C c (grid3.coords t) _ _ _ _ _ _ _ _ _ _ (fun h => h0 ((hcond3_0 t).mp h)) ((hcond3_1 t).mpr h1) (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [acc3_next V c t h0]
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply (kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 48 := N_3; omega)

end Cert.KernelIdeal.Frame

end
-- ==== Proof.KernelIdealFrame.Run.lean ====
/-
  The idealized kernel program run from the launch to the return: @main is fourteen items — seven stretches of host
  operations (the three weight matrices replaced by their signs, rows reshaped), then four kernel regions with a stretch
  of reshapes before each of the last three. The buffer contents at every boundary are named by a fold from the launch
  memory: a host stretch applies its operations, a region replaces its windows' arrays by what its write-backs leave and
  keeps every other buffer. Each region is entered from "every unscoped buffer at the boundary's contents" and left at
  the next boundary's; an input window's array ends as it was entered, so only the region's output array changes.
  The launch over the fourteen segments then says: every weakly fair execution terminates, nothing faults, and every
  unscoped buffer ends at the last boundary's contents — in particular every argument array as launched.
-/
import proofs.«103984_j66743791780425_2_alg».proof.Proof.Gen.KernelIdeal.Launch
import proofs.«103984_j66743791780425_2_alg».proof.Proof.Gen.KernelIdeal.Skeleton
import proofs.«103984_j66743791780425_2_alg».proof.Proof.Gen.KernelIdeal.Points
import proofs.«103984_j66743791780425_2_alg».proof.Proof.Gen.KernelIdeal.Regions
import proofs.«103984_j66743791780425_2_alg».proof.Proof.KernelIdealFrame.Reg0
import proofs.«103984_j66743791780425_2_alg».proof.Proof.KernelIdealFrame.Reg1
import proofs.«103984_j66743791780425_2_alg».proof.Proof.KernelIdealFrame.Reg2
import proofs.«103984_j66743791780425_2_alg».proof.Proof.KernelIdealFrame.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary

The first seven boundaries (after each host stretch before the first region) are the generated `Gen.V0 m` … `Gen.V7 m`. -/

/-! ## Region 0: entered at `Gen.V7`, left at `W8` -/

/-- The contents region 0 is entered from, read at the TensorCore's references. -/
abbrev E0 : (c : Dev nD) → (b : Ref sig .tc) → Buf (Elt F) ((c : Thread nD τ).loc b) := fun c b => Gen.V7 m c b
/-- At region 0's exit: its windows' arrays at what the pipeline leaves (each output's write-backs folded over the entry
    contents, an input's array as entered), every other buffer as entered. -/
def W8 (c : Dev nD) : Valuation τ sig (Elt F) :=
  Pipeline.withArrays spec0 c (Gen.V7 m c) fun w => (dat0 (E0 m) c).arrAt w cfg0.N
theorem W8_arr (c : Dev nD) (w : Fin cfg0.W) :
    W8 m c (Proc.devRef .tc (Pipeline.arrRef spec0 w)) = (dat0 (E0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = Gen.V7 m c (Proc.devRef .tc b) := by
  unfold W8; exact Pipeline.withArrays_of_ne spec0 c _ _ b hb
/-- The exit contents read at the TensorCore's references. -/
abbrev X0 : (c : Dev nD) → (b : Ref sig .tc) → Buf (Elt F) ((c : Thread nD τ).loc b) := fun c b => W8 m c b
theorem hF0 (c : Dev nD) (w : Fin cfg0.W) : (dat0 (E0 m) c).arrAt w cfg0.N = X0 m c (Pipeline.arrRef spec0 w) :=
  (W8_arr m c w).symm
theorem hrest0 (c : Dev nD) : ∀ b, b ∉ Finset.univ.image (Pipeline.arrRef spec0) → X0 m c b = E0 m c b :=
  fun b hb => W8_of_ne m c b fun w e => hb (Finset.mem_image.mpr ⟨w, Finset.mem_univ _, e⟩)
/-- Only the output array `main_v20` changes across region 0: an input window's array is written back nowhere, and a
    buffer that is no window's array bypasses the region. -/
theorem W8_keep (c : Dev nD) (b : Ref sig .tc) (hb : b ≠ main_v20) :
    W8 m c (Proc.devRef .tc b) = Gen.V7 m c (Proc.devRef .tc b) := by
  by_cases h : ∀ w, Pipeline.arrRef spec0 w ≠ b
  · exact W8_of_ne m c b h
  · obtain ⟨w, hw⟩ := not_forall.mp h
    have hw' : Pipeline.arrRef spec0 w = b := not_not.mp hw
    subst hw'
    match w with
    | ⟨0, _⟩ => exact (W8_arr m c 0).trans (((dat0 (E0 m) c).arrAt_in 0 rfl _).trans (A_eq0 (E0 m) c 0))
    | ⟨1, _⟩ => exact (W8_arr m c 1).trans (((dat0 (E0 m) c).arrAt_in 1 rfl _).trans (A_eq0 (E0 m) c 1))
    | ⟨2, _⟩ => exact (W8_arr m c 2).trans (((dat0 (E0 m) c).arrAt_in 2 rfl _).trans (A_eq0 (E0 m) c 2))
    | ⟨3, _⟩ => exact (W8_arr m c 3).trans (((dat0 (E0 m) c).arrAt_in 3 rfl _).trans (A_eq0 (E0 m) c 3))
    | ⟨4, _⟩ => exact (W8_arr m c 4).trans (((dat0 (E0 m) c).arrAt_in 4 rfl _).trans (A_eq0 (E0 m) c 4))
    | ⟨5, _⟩ => exact (W8_arr m c 5).trans (((dat0 (E0 m) c).arrAt_in 5 rfl _).trans (A_eq0 (E0 m) c 5))
    | ⟨6, _⟩ => exact (W8_arr m c 6).trans (((dat0 (E0 m) c).arrAt_in 6 rfl _).trans (A_eq0 (E0 m) c 6))
    | ⟨7, _⟩ => exact absurd rfl hb

/-- After the reshapes before region 1. -/
abbrev W9 : Dev nD → Valuation τ sig (Elt F) := fun c => StableHlo.after hostOps1 (W8 m c)

/-! ## Region 1: entered at `W9`, left at `W10` -/

/-- The contents region 1 is entered from, read at the TensorCore's references. -/
abbrev E1 : (c : Dev nD) → (b : Ref sig .tc) → Buf (Elt F) ((c : Thread nD τ).loc b) := fun c b => W9 m c b
/-- At region 1's exit: its windows' arrays at what the pipeline leaves (each output's write-backs folded over the entry
    contents, an input's array as entered), every other buffer as entered. -/
def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- The exit contents read at the TensorCore's references. -/
abbrev X1 : (c : Dev nD) → (b : Ref sig .tc) → Buf (Elt F) ((c : Thread nD τ).loc b) := fun c b => W10 m c b
theorem hF1 (c : Dev nD) (w : Fin cfg1.W) : (dat1 (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)
/-- Only the output array `main_v26` changes across region 1: an input window's array is written back nowhere, and a
    buffer that is no window's array bypasses the region. -/
theorem W10_keep (c : Dev nD) (b : Ref sig .tc) (hb : b ≠ main_v26) :
    W10 m c (Proc.devRef .tc b) = W9 m c (Proc.devRef .tc b) := by
  by_cases h : ∀ w, Pipeline.arrRef spec1 w ≠ b
  · exact W10_of_ne m c b h
  · obtain ⟨w, hw⟩ := not_forall.mp h
    have hw' : Pipeline.arrRef spec1 w = b := not_not.mp hw
    subst hw'
    match w with
    | ⟨0, _⟩ => exact (W10_arr m c 0).trans (((dat1 (E1 m) c).arrAt_in 0 rfl _).trans (A_eq1 (E1 m) c 0))
    | ⟨1, _⟩ => exact (W10_arr m c 1).trans (((dat1 (E1 m) c).arrAt_in 1 rfl _).trans (A_eq1 (E1 m) c 1))
    | ⟨2, _⟩ => exact (W10_arr m c 2).trans (((dat1 (E1 m) c).arrAt_in 2 rfl _).trans (A_eq1 (E1 m) c 2))
    | ⟨3, _⟩ => exact (W10_arr m c 3).trans (((dat1 (E1 m) c).arrAt_in 3 rfl _).trans (A_eq1 (E1 m) c 3))
    | ⟨4, _⟩ => exact (W10_arr m c 4).trans (((dat1 (E1 m) c).arrAt_in 4 rfl _).trans (A_eq1 (E1 m) c 4))
    | ⟨5, _⟩ => exact (W10_arr m c 5).trans (((dat1 (E1 m) c).arrAt_in 5 rfl _).trans (A_eq1 (E1 m) c 5))
    | ⟨6, _⟩ => exact (W10_arr m c 6).trans (((dat1 (E1 m) c).arrAt_in 6 rfl _).trans (A_eq1 (E1 m) c 6))
    | ⟨7, _⟩ => exact absurd rfl hb

/-- After the reshapes before region 2. -/
abbrev W11 : Dev nD → Valuation τ sig (Elt F) := fun c => StableHlo.after hostOps2 (W10 m c)

/-! ## Region 2: entered at `W11`, left at `W12` -/

/-- The contents region 2 is entered from, read at the TensorCore's references. -/
abbrev E2 : (c : Dev nD) → (b : Ref sig .tc) → Buf (Elt F) ((c : Thread nD τ).loc b) := fun c b => W11 m c b
/-- At region 2's exit: its windows' arrays at what the pipeline leaves (each output's write-backs folded over the entry
    contents, an input's array as entered), every other buffer as entered. -/
def W12 (c : Dev nD) : Valuation τ sig (Elt F) :=
  Pipeline.withArrays spec2 c (W11 m c) fun w => (dat2 (E2 m) c).arrAt w cfg2.N
theorem W12_arr (c : Dev nD) (w : Fin cfg2.W) :
    W12 m c (Proc.devRef .tc (Pipeline.arrRef spec2 w)) = (dat2 (E2 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
/-- The exit contents read at the TensorCore's references. -/
abbrev X2 : (c : Dev nD) → (b : Ref sig .tc) → Buf (Elt F) ((c : Thread nD τ).loc b) := fun c b => W12 m c b
theorem hF2 (c : Dev nD) (w : Fin cfg2.W) : (dat2 (E2 m) c).arrAt w cfg2.N = X2 m c (Pipeline.arrRef spec2 w) :=
  (W12_arr m c w).symm
theorem hrest2 (c : Dev nD) : ∀ b, b ∉ Finset.univ.image (Pipeline.arrRef spec2) → X2 m c b = E2 m c b :=
  fun b hb => W12_of_ne m c b fun w e => hb (Finset.mem_image.mpr ⟨w, Finset.mem_univ _, e⟩)
/-- Only the output array `main_v32` changes across region 2: an input window's array is written back nowhere, and a
    buffer that is no window's array bypasses the region. -/
theorem W12_keep (c : Dev nD) (b : Ref sig .tc) (hb : b ≠ main_v32) :
    W12 m c (Proc.devRef .tc b) = W11 m c (Proc.devRef .tc b) := by
  by_cases h : ∀ w, Pipeline.arrRef spec2 w ≠ b
  · exact W12_of_ne m c b h
  · obtain ⟨w, hw⟩ := not_forall.mp h
    have hw' : Pipeline.arrRef spec2 w = b := not_not.mp hw
    subst hw'
    match w with
    | ⟨0, _⟩ => exact (W12_arr m c 0).trans (((dat2 (E2 m) c).arrAt_in 0 rfl _).trans (A_eq2 (E2 m) c 0))
    | ⟨1, _⟩ => exact (W12_arr m c 1).trans (((dat2 (E2 m) c).arrAt_in 1 rfl _).trans (A_eq2 (E2 m) c 1))
    | ⟨2, _⟩ => exact (W12_arr m c 2).trans (((dat2 (E2 m) c).arrAt_in 2 rfl _).trans (A_eq2 (E2 m) c 2))
    | ⟨3, _⟩ => exact (W12_arr m c 3).trans (((dat2 (E2 m) c).arrAt_in 3 rfl _).trans (A_eq2 (E2 m) c 3))
    | ⟨4, _⟩ => exact (W12_arr m c 4).trans (((dat2 (E2 m) c).arrAt_in 4 rfl _).trans (A_eq2 (E2 m) c 4))
    | ⟨5, _⟩ => exact (W12_arr m c 5).trans (((dat2 (E2 m) c).arrAt_in 5 rfl _).trans (A_eq2 (E2 m) c 5))
    | ⟨6, _⟩ => exact (W12_arr m c 6).trans (((dat2 (E2 m) c).arrAt_in 6 rfl _).trans (A_eq2 (E2 m) c 6))
    | ⟨7, _⟩ => exact absurd rfl hb

/-- After the reshape before region 3. -/
abbrev W13 : Dev nD → Valuation τ sig (Elt F) := fun c => StableHlo.after hostOps3 (W12 m c)

/-! ## Region 3: entered at `W13`, left at `W14` -/

/-- The contents region 3 is entered from, read at the TensorCore's references. -/
abbrev E3 : (c : Dev nD) → (b : Ref sig .tc) → Buf (Elt F) ((c : Thread nD τ).loc b) := fun c b => W13 m c b
/-- At region 3's exit: its windows' arrays at what the pipeline leaves (each output's write-backs folded over the entry
    contents, an input's array as entered), every other buffer as entered. -/
def W14 (c : Dev nD) : Valuation τ sig (Elt F) :=
  Pipeline.withArrays spec3 c (W13 m c) fun w => (dat3 (E3 m) c).arrAt w cfg3.N
theorem W14_arr (c : Dev nD) (w : Fin cfg3.W) :
    W14 m c (Proc.devRef .tc (Pipeline.arrRef spec3 w)) = (dat3 (E3 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
/-- The exit contents read at the TensorCore's references. -/
abbrev X3 : (c : Dev nD) → (b : Ref sig .tc) → Buf (Elt F) ((c : Thread nD τ).loc b) := fun c b => W14 m c b
theorem hF3 (c : Dev nD) (w : Fin cfg3.W) : (dat3 (E3 m) c).arrAt w cfg3.N = X3 m c (Pipeline.arrRef spec3 w) :=
  (W14_arr m c w).symm
theorem hrest3 (c : Dev nD) : ∀ b, b ∉ Finset.univ.image (Pipeline.arrRef spec3) → X3 m c b = E3 m c b :=
  fun b hb => W14_of_ne m c b fun w e => hb (Finset.mem_image.mpr ⟨w, Finset.mem_univ _, e⟩)
/-- Only the output array `main_v34` changes across region 3: an input window's array is written back nowhere, and a
    buffer that is no window's array bypasses the region. -/
theorem W14_keep (c : Dev nD) (b : Ref sig .tc) (hb : b ≠ main_v34) :
    W14 m c (Proc.devRef .tc b) = W13 m c (Proc.devRef .tc b) := by
  by_cases h : ∀ w, Pipeline.arrRef spec3 w ≠ b
  · exact W14_of_ne m c b h
  · obtain ⟨w, hw⟩ := not_forall.mp h
    have hw' : Pipeline.arrRef spec3 w = b := not_not.mp hw
    subst hw'
    match w with
    | ⟨0, _⟩ => exact (W14_arr m c 0).trans (((dat3 (E3 m) c).arrAt_in 0 rfl _).trans (A_eq3 (E3 m) c 0))
    | ⟨1, _⟩ => exact (W14_arr m c 1).trans (((dat3 (E3 m) c).arrAt_in 1 rfl _).trans (A_eq3 (E3 m) c 1))
    | ⟨2, _⟩ => exact (W14_arr m c 2).trans (((dat3 (E3 m) c).arrAt_in 2 rfl _).trans (A_eq3 (E3 m) c 2))
    | ⟨3, _⟩ => exact absurd rfl hb

/-! # The arguments end as launched -/

/-- Every buffer some host operation writes, and every region's output array. -/
abbrev written : List (Ref sig .tc) :=
  hostOps0_W ++ (hostOps0_1_W ++ (hostOps0_2_W ++ (hostOps0_3_W ++ (hostOps0_4_W ++ (hostOps0_5_W ++ (hostOps0_6_W ++ ([main_v20] ++ (hostOps1_W ++ ([main_v26] ++ (hostOps2_W ++ ([main_v32] ++ (hostOps3_W ++ [main_v34]))))))))))))

/-- A buffer nothing writes holds its launch contents at the last boundary: the fold walks back through the four
    regions (only their output arrays change) and the host stretches (only their result buffers change). -/
theorem W14_kept (c : Dev nD) (b : Ref sig .tc) (hb : b ∉ written) :
    W14 m c (Proc.devRef .tc b) = m ((c : Thread nD τ).loc b) := by
  simp only [written, List.mem_append, not_or] at hb
  obtain ⟨h0, h1, h2, h3, h4, h5, h6, h7, h8, h9, h10, h11, h12, h13⟩ := hb
  calc W14 m c (Proc.devRef .tc b)
    _ = W13 m c (Proc.devRef .tc b) := W14_keep m c b (List.ne_of_not_mem_cons h13)
    _ = W12 m c (Proc.devRef .tc b) := StableHlo.after_of_writes_sub hostOps3 _ hostOps3_writes h12
    _ = W11 m c (Proc.devRef .tc b) := W12_keep m c b (List.ne_of_not_mem_cons h11)
    _ = W10 m c (Proc.devRef .tc b) := StableHlo.after_of_writes_sub hostOps2 _ hostOps2_writes h10
    _ = W9 m c (Proc.devRef .tc b) := W10_keep m c b (List.ne_of_not_mem_cons h9)
    _ = W8 m c (Proc.devRef .tc b) := StableHlo.after_of_writes_sub hostOps1 _ hostOps1_writes h8
    _ = Gen.V7 m c (Proc.devRef .tc b) := W8_keep m c b (List.ne_of_not_mem_cons h7)
    _ = Gen.V6 m c (Proc.devRef .tc b) := V7_of m c b h6
    _ = Gen.V5 m c (Proc.devRef .tc b) := V6_of m c b h5
    _ = Gen.V4 m c (Proc.devRef .tc b) := V5_of m c b h4
    _ = Gen.V3 m c (Proc.devRef .tc b) := V4_of m c b h3
    _ = Gen.V2 m c (Proc.devRef .tc b) := V3_of m c b h2
    _ = Gen.V1 m c (Proc.devRef .tc b) := V2_of m c b h1
    _ = Gen.V0 m c (Proc.devRef .tc b) := V1_of m c b h0
    _ = m ((c : Thread nD τ).loc b) := rfl

/-! # The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W14 m c) ∗ ∃ r, prngReg c r)

/-! # The regions as segments -/

set_option backward.isDefEq.respectTransparency.types false in
/-- Region 0 over the thread state: entered from every unscoped buffer at `Gen.V7`, left at the next boundary's
    contents. Its windows' arrays are split out of the unscoped buffers and put back at their exit contents; the
    generator register and the scoped buffers no window stages go into the kernel's invariant and come back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E0 m) c
    unfold Pipeline.ΦA at h
    rw [show (pdats m 0 c).Φ 0 = (dat0 (E0 m) c).Φ 0 from rfl]
    iintro ⟨Hp, -, Hr⟩
    iapply h
    isplitl [Hr]; · iexact Hr
    iexact Hp
  hout c := by
    have h := hout0 (E0 m) c
    unfold Pipeline.ΦA at h
    rw [Pipeline.ownSems0_none, show (pdats m 0 c).Φ (Fin.last _) = (dat0 (E0 m) c).Φ (Fin.last cfg0.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W9`, left at the next boundary's
    contents. Its windows' arrays are split out of the unscoped buffers and put back at their exit contents; the
    generator register and the scoped buffers no window stages go into the kernel's invariant and come back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E1 m) c
    unfold Pipeline.ΦA at h
    rw [show (pdats m 1 c).Φ 0 = (dat1 (E1 m) c).Φ 0 from rfl]
    iintro ⟨Hp, -, Hr⟩
    iapply h
    isplitl [Hr]; · iexact Hr
    iexact Hp
  hout c := by
    have h := hout1 (E1 m) c
    unfold Pipeline.ΦA at h
    rw [Pipeline.ownSems0_none, show (pdats m 1 c).Φ (Fin.last _) = (dat1 (E1 m) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W11`, left at the next boundary's
    contents. Its windows' arrays are split out of the unscoped buffers and put back at their exit contents; the
    generator register and the scoped buffers no window stages go into the kernel's invariant and come back; nothing
    is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (E2 m) c
    unfold Pipeline.ΦA at h
    rw [show (pdats m 2 c).Φ 0 = (dat2 (E2 m) c).Φ 0 from rfl]
    iintro ⟨Hp, -, Hr⟩
    iapply h
    isplitl [Hr]; · iexact Hr
    iexact Hp
  hout c := by
    have h := hout2 (E2 m) c
    unfold Pipeline.ΦA at h
    rw [Pipeline.ownSems0_none, show (pdats m 2 c).Φ (Fin.last _) = (dat2 (E2 m) c).Φ (Fin.last cfg2.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W13`, left at the next boundary's
    contents. Its windows' arrays are split out of the unscoped buffers and put back at their exit contents; the
    generator register and the scoped buffers no window stages go into the kernel's invariant and come back; nothing
    is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (E3 m) c
    unfold Pipeline.ΦA at h
    rw [show (pdats m 3 c).Φ 0 = (dat3 (E3 m) c).Φ 0 from rfl]
    iintro ⟨Hp, -, Hr⟩
    iapply h
    isplitl [Hr]; · iexact Hr
    iexact Hp
  hout c := by
    have h := hout3 (E3 m) c
    unfold Pipeline.ΦA at h
    rw [Pipeline.ownSems0_none, show (pdats m 3 c).Φ (Fin.last _) = (dat3 (E3 m) c).Φ (Fin.last cfg3.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's fourteen segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg0 m),
    .host (hseg hostOps1 hostOps1_sub hostOps1_fresh (W8 m)),
    .region (reg1 m),
    .host (hseg hostOps2 hostOps2_sub hostOps2_fresh (W10 m)),
    .region (reg2 m),
    .host (hseg hostOps3 hostOps3_sub hostOps3_fresh (W12 m)),
    .region (reg3 m) ]

variable (ρ : Dev nD → PrngReg)

set_option backward.isDefEq.respectTransparency.types false in
/-- THE RUN: from any memory with zero counters every weakly fair execution of @main terminates, nothing faulting,
    and every unscoped buffer ends at the last boundary's contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W14_kept m c main_arg0 (by decide)),
    (h c _ (mem_uc main_arg1 (by decide))).trans (W14_kept m c main_arg1 (by decide)),
    (h c _ (mem_uc main_arg2 (by decide))).trans (W14_kept m c main_arg2 (by decide)),
    (h c _ (mem_uc main_arg3 (by decide))).trans (W14_kept m c main_arg3 (by decide)),
    (h c _ (mem_uc main_arg4 (by decide))).trans (W14_kept m c main_arg4 (by decide)),
    (h c _ (mem_uc main_arg5 (by decide))).trans (W14_kept m c main_arg5 (by decide)),
    (h c _ (mem_uc main_arg6 (by decide))).trans (W14_kept m c main_arg6 (by decide)),
    (h c _ (mem_uc main_arg7 (by decide))).trans (W14_kept m c main_arg7 (by decide)),
    (h c _ (mem_uc main_arg8 (by decide))).trans (W14_kept m c main_arg8 (by decide)),
    (h c _ (mem_uc main_arg9 (by decide))).trans (W14_kept m c main_arg9 (by decide)),
    (h c _ (mem_uc main_arg10 (by decide))).trans (W14_kept m c main_arg10 (by decide)),
    (h c _ (mem_uc main_arg11 (by decide))).trans (W14_kept m c main_arg11 (by decide)),
    (h c _ (mem_uc main_arg12 (by decide))).trans (W14_kept m c main_arg12 (by decide)),
    (h c _ (mem_uc main_arg13 (by decide))).trans (W14_kept m c main_arg13 (by decide)),
    (h c _ (mem_uc main_arg14 (by decide))).trans (W14_kept m c main_arg14 (by decide)),
    (h c _ (mem_uc main_arg15 (by decide))).trans (W14_kept m c main_arg15 (by decide)),
    (h c _ (mem_uc main_arg16 (by decide))).trans (W14_kept m c main_arg16 (by decide)),
    (h c _ (mem_uc main_arg17 (by decide))).trans (W14_kept m c main_arg17 (by decide)),
    (h c _ (mem_uc main_arg18 (by decide))).trans (W14_kept m c main_arg18 (by decide)),
    (h c _ (mem_uc main_arg19 (by decide))).trans (W14_kept m c main_arg19 (by decide)),
    (h c _ (mem_uc main_arg20 (by decide))).trans (W14_kept m c main_arg20 (by decide))⟩) (run_all m ρ)

/-- THE RESULT: the result array ends at the last boundary's contents of `main_v34`. -/
theorem result : θ_run defs (onTc (τ := τ) (main (F := F))) ⟨m, fun _ => 0, ρ⟩ (fun r => ∀ c : Dev nD,
      r.2.mem ((c.tc : Thread nD τ).loc main_v34) = W14 m c (Proc.devRef .tc main_v34)) :=
  (θ_run defs _ _).mono (fun r h c => h c _ (mem_uc main_v34 (by decide))) (run_all m ρ)

end Cert.KernelIdeal.Frame

end
-- ==== Proof.SpecSoftmax.lean ====
/- The log-softmax of a row of ten logits over the extended reals, as a function of the row alone: the row's
   maximum as the fold of `max` from -∞ over the ten positions, each logit shifted by it, and the logarithm of
   the sum of the shifted logits' exponentials subtracted. No program is mentioned here. -/
import Idealize.ShloMosaic.PureOps.Ideal
import Idealize.ShloMosaic.PureOps.Ideal.Laws

noncomputable section

namespace Cert.Spec

open Idealize.ShloMosaic

/-- The maximum of a row of ten logits: `max` folded from -∞ over the ten positions. -/
def rowMax (z : Fin 10 → EReal) : EReal := (Finset.univ : Finset (Fin 10)).fold max ⊥ z

/-- The log-softmax of the row `z` at position `q`: the logit shifted by the row's maximum, minus the logarithm of the
    sum over the row of the exponentials of the shifted logits. -/
def lsm (z : Fin 10 → EReal) (q : Fin 10) : EReal :=
  (z q - rowMax z) - Ideal.log (∑ q' : Fin 10, Ideal.exp (z q' - rowMax z))

/-- The f32 word of -∞ is the bottom of the extended reals. -/
theorem ofBits_neg_inf_f32 : Ideal.ofBits .f32 0xFF800000#32 = ⊥ := by simp [Ideal.ofBits, Ideal.ieee]

/-- Taking the maximum with -∞ once more changes nothing. -/
theorem max_bot_rowMax (z : Fin 10 → EReal) : max ⊥ (rowMax z) = rowMax z := max_eq_right bot_le

end Cert.Spec

end
-- ==== Proof.KernelIdealValue.Val3.lean ====
/- The VALUE of the last layer at the ideal values: after the region the output array holds, at `(r, q)`, the
   log-softmax at position `q` of row `r`'s ten logits — the row's inner product with each of the ten weight rows
   over the 6144 contraction positions, plus the bias. The payloads are read at an index (the reset is zero; the
   accumulation adds a block's 1024 products; the epilogue is the log-softmax of the biased row); the accumulator's
   contents are a partial inner product, by induction on the grid point; at the last step of the reduction axis it is
   the whole inner product, which the epilogue's store writes back; those blocks tile the output array. -/
import proofs.«103984_j66743791780425_2_alg».proof.Proof.KernelIdealFrame.Reg3
import proofs.«103984_j66743791780425_2_alg».proof.Proof.SpecSoftmax
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the last layer reads, as the region finds them: the layer's input rows (8192 × 6144), the ten
    weight rows (10 × 6144), and the bias row (1 × 10), each as a function to the extended reals. -/
abbrev act3 (c : Dev nD) : S8192x6144.Idx → EReal := V c main_v32
abbrev wgt3 (c : Dev nD) : S10x6144.Idx → EReal := V c main_v14
abbrev bias3 (c : Dev nD) : S1x10.Idx → EReal := V c main_v33

/-- The ten logits of row `r`: the row's inner product with each weight row, plus the bias. -/
def logits3 (c : Dev nD) (r : Fin 8192) (q' : Fin 10) : EReal :=
  (∑ k : Fin 6144, act3 V c (ix2 r k) * wgt3 V c (ix2 q' k)) + bias3 V c (ix2 0 q')

/-! ## Two column forms of the layout operations -/

/-- An `[a]` array cast to the column `[a, 1]` reads, at `(p, u)`, the operand at `p`, whatever the unit coordinate. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row index with the reduced coordinate put back is the pair. -/
theorem lift3 (p : Fin 1024) (k : Fin (S1024x10.size 1)) :
    reduces_S1024x10_S1024.lift (ix1 p) k = ix2 p (⟨k.val, k.isLt⟩ : Fin 10) :=
  funext fun c => Fin.ext (by
    match c with
    | ⟨0, _⟩ => rfl
    | ⟨1, _⟩ => rfl)

/-! ## The payloads at an index -/

/-- The reset stores zeros. -/
theorem pay1_apply (j : S1024x10.Idx) : k3_pay1 (F := Ideal) j = 0 := by
  unfold k3_pay1
  simp only [shapeCast_self]
  exact Ideal.ofBits_zero_f32

theorem lhs3_0 (i : S1024x10.Idx) (k : dot_S1024x1024_S10x1024_S1024x10_1_1_0_0_n_n.contr.Idx) : (dot_S1024x1024_S10x1024_S1024x10_1_1_0_0_n_n.lhsIdx i k 0).val = (i 0).val := by
  unfold DotDims.lhsIdx
  rw [dif_neg (show ¬(0 : Fin S1024x1024.rank) ∈ dot_S1024x1024_S10x1024_S1024x10_1_1_0_0_n_n.lhsBatch by decide), dif_pos (show (0 : Fin S1024x1024.rank) ∈ dot_S1024x1024_S10x1024_S1024x10_1_1_0_0_n_n.lhsNonContracting by decide)]
  rfl
theorem lhs3_1 (i : S1024x10.Idx) (k : dot_S1024x1024_S10x1024_S1024x10_1_1_0_0_n_n.contr.Idx) : (dot_S1024x1024_S10x1024_S1024x10_1_1_0_0_n_n.lhsIdx i k 1).val = (k ⟨0, by decide⟩).val :=
  dot_S1024x1024_S10x1024_S1024x10_1_1_0_0_n_n.lhsIdx_val_of_single rfl i k
theorem rhs3_0 (i : S1024x10.Idx) (k : dot_S1024x1024_S10x1024_S1024x10_1_1_0_0_n_n.contr.Idx) : (dot_S1024x1024_S10x1024_S1024x10_1_1_0_0_n_n.rhsIdx i k 0).val = (i 1).val := by
  unfold DotDims.rhsIdx
  rw [dif_neg (show ¬(0 : Fin S10x1024.rank) ∈ dot_S1024x1024_S10x1024_S1024x10_1_1_0_0_n_n.rhsBatch by decide), dif_pos (show (0 : Fin S10x1024.rank) ∈ dot_S1024x1024_S10x1024_S1024x10_1_1_0_0_n_n.rhsNonContracting by decide)]
  rfl
theorem rhs3_1 (i : S1024x10.Idx) (k : dot_S1024x1024_S10x1024_S1024x10_1_1_0_0_n_n.contr.Idx) : (dot_S1024x1024_S10x1024_S1024x10_1_1_0_0_n_n.rhsIdx i k 1).val = (k ⟨0, by decide⟩).val :=
  dot_S1024x1024_S10x1024_S1024x10_1_1_0_0_n_n.rhsIdx_val_of_single rfl i k

/-- The accumulation adds, at `(p, q')`, the inner product over the block's 1024 contraction positions of the
    activations' row `p` with the weights' row `q'`. -/
theorem pay2_apply (a : FVec Ideal S1024x10 .f32) (x : FVec Ideal S1024x1024 .bf16) (w : FVec Ideal S10x1024 .bf16) (p : Fin 1024) (q' : Fin 10) :
    k3_pay2 (F := Ideal) a x w (ix2 p q') = a (ix2 p q') + ∑ k : Fin 1024, x (ix2 p k) * w (ix2 q' k) := by
  unfold k3_pay2
  simp only [shapeCast_self, matmul]
  show a (ix2 p q') + FloatOps.matmul dot_S1024x1024_S10x1024_S1024x10_1_1_0_0_n_n none x w (constant S1024x10 .f32 0x00000000#32) (ix2 p q') = _
  refine congrArg (a (ix2 p q') + ·) ?_
  refine (Ideal.matmul_constant_zero_apply dot_S1024x1024_S10x1024_S1024x10_1_1_0_0_n_n none x w (ix2 p q')).trans ?_
  rw [← Equiv.sum_comp (ValueIdx.contrEquiv1 dot_S1024x1024_S10x1024_S1024x10_1_1_0_0_n_n 1024 rfl rfl).symm]
  refine Finset.sum_congr rfl fun k _ => ?_
  have hk := ValueIdx.contrEquiv1_symm_val dot_S1024x1024_S10x1024_S1024x10_1_1_0_0_n_n 1024 rfl rfl k
  have el : dot_S1024x1024_S10x1024_S1024x10_1_1_0_0_n_n.lhsIdx (ix2 p q') ((ValueIdx.contrEquiv1 dot_S1024x1024_S10x1024_S1024x10_1_1_0_0_n_n 1024 rfl rfl).symm k) = ix2 p k := funext fun a => Fin.ext (by
    match a with
    | ⟨0, _⟩ => exact lhs3_0 _ _
    | ⟨1, _⟩ => exact (lhs3_1 _ _).trans hk)
  have er : dot_S1024x1024_S10x1024_S1024x10_1_1_0_0_n_n.rhsIdx (ix2 p q') ((ValueIdx.contrEquiv1 dot_S1024x1024_S10x1024_S1024x10_1_1_0_0_n_n 1024 rfl rfl).symm k) = ix2 q' k := funext fun a => Fin.ext (by
    match a with
    | ⟨0, _⟩ => exact rhs3_0 _ _
    | ⟨1, _⟩ => exact (rhs3_1 _ _).trans hk)
  rw [el, er]

/-- The epilogue: at `(p, q)` the log-softmax, at position `q`, of the row `p` of the accumulated sum plus the bias row. -/
theorem pay3_apply (a : FVec Ideal S1024x10 .f32) (b : FVec Ideal S1x10 .f32) (p : Fin 1024) (q : Fin 10) :
    k3_pay3 (F := Ideal) a b (ix2 p q) = Cert.Spec.lsm (fun q' => a (ix2 p q') + b (ix2 (0 : Fin 1) q')) q := by
  unfold k3_pay3
  simp only [shapeCast_self]
  -- the biased row
  have hz : ∀ k : Fin 10, addf a (broadcastTo S1024x10 b broadcasts_S1x10_S1024x10) (ix2 p k) = a (ix2 p k) + b (ix2 (0 : Fin 1) k) := fun k =>
    congrArg (a (ix2 p k) + ·) (broadcastTo_1b_ab_apply b broadcasts_S1x10_S1024x10 p k)
  generalize addf a (broadcastTo S1024x10 b broadcasts_S1x10_S1024x10) = Z at hz ⊢
  -- its maximum
  have hmax : multiReduction (F := Ideal) .maximumf [1] S1024 Z 0xFF800000#32 reduces_S1024x10_S1024 (.inl rfl) rfl (ix1 p)
      = Cert.Spec.rowMax (fun q' => a (ix2 p q') + b (ix2 (0 : Fin 1) q')) := by
    refine (Ideal.multiReduction_maximumf_single Z 0xFF800000#32 reduces_S1024x10_S1024 (.inl rfl) rfl (ix1 p)).trans ?_
    unfold Cert.Spec.rowMax
    show (Finset.univ : Finset (Fin 10)).fold max (Ideal.ofBits .f32 0xFF800000#32) (Z ∘ reduces_S1024x10_S1024.lift (ix1 p)) = _
    rw [Cert.Spec.ofBits_neg_inf_f32]
    have e : (Z ∘ reduces_S1024x10_S1024.lift (ix1 p)) = (fun q' : Fin 10 => a (ix2 p q') + b (ix2 (0 : Fin 1) q')) := funext fun k => by
      show Z (reduces_S1024x10_S1024.lift (ix1 p) k) = _
      rw [lift3]; exact hz _
    rw [e]
    rfl
  generalize multiReduction (F := Ideal) .maximumf [1] S1024 Z 0xFF800000#32 reduces_S1024x10_S1024 (.inl rfl) rfl = MX at hmax ⊢
  -- the shifted row
  have hsh : ∀ k : Fin 10, subf Z (broadcastTo S1024x10 (shapeCast S1024x1 MX shapeCasts_S1024_S1024x1) broadcasts_S1024x1_S1024x10) (ix2 p k)
      = (a (ix2 p k) + b (ix2 (0 : Fin 1) k)) - Cert.Spec.rowMax (fun q' => a (ix2 p q') + b (ix2 (0 : Fin 1) q')) := fun k => by
    show Z (ix2 p k) - broadcastTo S1024x10 (shapeCast S1024x1 MX shapeCasts_S1024_S1024x1) broadcasts_S1024x1_S1024x10 (ix2 p k) = _
    rw [broadcastTo_a1_ab_apply, shapeCast_a_a1_apply, hmax, hz]
  generalize subf Z (broadcastTo S1024x10 (shapeCast S1024x1 MX shapeCasts_S1024_S1024x1) broadcasts_S1024x1_S1024x10) = Y at hsh ⊢
  -- the sum of its exponentials
  have hsum : multiReduction (F := Ideal) .add [1] S1024 (exp Y) 0x00000000#32 reduces_S1024x10_S1024 (.inl rfl) rfl (ix1 p)
      = ∑ q' : Fin 10, Ideal.exp ((a (ix2 p q') + b (ix2 (0 : Fin 1) q')) - Cert.Spec.rowMax (fun q' => a (ix2 p q') + b (ix2 (0 : Fin 1) q'))) := by
    refine (Ideal.multiReduction_add_single (exp Y) 0x00000000#32 reduces_S1024x10_S1024 (.inl rfl) rfl (ix1 p)).trans ?_
    show ∑ k : Fin 10, (exp Y) (reduces_S1024x10_S1024.lift (ix1 p) k) = _
    refine Finset.sum_congr rfl fun k _ => ?_
    refine (congrArg (exp Y) (lift3 p k)).trans ?_
    show Ideal.exp (Y (ix2 p _)) = _
    rw [hsh]
  generalize multiReduction (F := Ideal) .add [1] S1024 (exp Y) 0x00000000#32 reduces_S1024x10_S1024 (.inl rfl) rfl = SM at hsum ⊢
  show Y (ix2 p q) - broadcastTo S1024x10 (log (shapeCast S1024x1 SM shapeCasts_S1024_S1024x1)) broadcasts_S1024x1_S1024x10 (ix2 p q) = _
  rw [broadcastTo_a1_ab_apply]
  show Y (ix2 p q) - Ideal.log (shapeCast S1024x1 SM shapeCasts_S1024_S1024x1 (ix2 p (0 : Fin 1))) = _
  rw [shapeCast_a_a1_apply, hsum, hsh]
  rfl

/-! ## The windows' blocks at an index -/

/-- The printed index maps of the four windows, decided over the grid: the row block is the grid's first coordinate,
    the contraction block its second. -/
theorem idx_facts3 : ∀ t : Fin cfg3.N,
    win3_0.index t (0 : Fin 2) = t.val / 6 ∧ win3_0.index t (1 : Fin 2) = t.val % 6
    ∧ win3_1.index t (0 : Fin 2) = 0 ∧ win3_1.index t (1 : Fin 2) = t.val % 6
    ∧ win3_2.index t (0 : Fin 2) = 0 ∧ win3_2.index t (1 : Fin 2) = 0
    ∧ win3_3.index t (0 : Fin 2) = t.val / 6 ∧ win3_3.index t (1 : Fin 2) = 0 :=
  (by decide +kernel : ∀ t : Fin grid3.N, _)

/-- The activations' block at point `t` reads the array at row `(t / 6) · 1024 + p`, position `(t % 6) · 1024 + k`. -/
theorem iblk3_0_apply (c : Dev nD) (t : Fin cfg3.N) (p k : Fin 1024) (r : Fin 8192) (kk : Fin 6144)
    (hr : r.val = t.val / 6 * 1024 + p.val) (hk : kk.val = t.val % 6 * 1024 + k.val) :
    (iblk3 V c 0 t : FVec Ideal S1024x1024 .bf16) (ix2 p k) = act3 V c (ix2 r kk) := by
  obtain ⟨e0, e1, -⟩ := idx_facts3 t
  unfold iblk3
  rw [View.read_apply]
  show V c main_v32 (((cfg3.win 0).blk t).view.emb (ix2 p k)) = V c main_v32 (ix2 r kk)
  refine congrArg _ (funext fun a => Fin.ext ?_)
  match a with
  | ⟨0, _⟩ => show win3_0.index t (0 : Fin 2) * 1024 + 1 * p.val = r.val; rw [e0, hr]; omega
  | ⟨1, _⟩ => show win3_0.index t (1 : Fin 2) * 1024 + 1 * k.val = kk.val; rw [e1, hk]; omega

/-- The weights' block at point `t` reads the array at row `q'`, position `(t % 6) · 1024 + k`. -/
theorem iblk3_1_apply (c : Dev nD) (t : Fin cfg3.N) (q' : Fin 10) (k : Fin 1024) (kk : Fin 6144)
    (hk : kk.val = t.val % 6 * 1024 + k.val) :
    (iblk3 V c 1 t : FVec Ideal S10x1024 .bf16) (ix2 q' k) = wgt3 V c (ix2 q' kk) := by
  obtain ⟨-, -, e0, e1, -⟩ := idx_facts3 t
  unfold iblk3
  rw [View.read_apply]
  show V c main_v14 (((cfg3.win 1).blk t).view.emb (ix2 q' k)) = V c main_v14 (ix2 q' kk)
  refine congrArg _ (funext fun a => Fin.ext ?_)
  match a with
  | ⟨0, _⟩ => show win3_1.index t (0 : Fin 2) * 10 + 1 * q'.val = q'.val; rw [e0]; omega
  | ⟨1, _⟩ => show win3_1.index t (1 : Fin 2) * 1024 + 1 * k.val = kk.val; rw [e1, hk]; omega

/-- The bias block is the bias row, at every point. -/
theorem iblk3_2_apply (c : Dev nD) (t : Fin cfg3.N) (u : Fin 1) (q' : Fin 10) :
    (iblk3 V c 2 t : FVec Ideal S1x10 .f32) (ix2 u q') = bias3 V c (ix2 (0 : Fin 1) q') := by
  obtain ⟨-, -, -, -, e0, e1, -⟩ := idx_facts3 t
  unfold iblk3
  rw [View.read_apply]
  show V c main_v33 (((cfg3.win 2).blk t).view.emb (ix2 u q')) = V c main_v33 (ix2 (0 : Fin 1) q')
  refine congrArg _ (funext fun a => Fin.ext ?_)
  match a with
  | ⟨0, _⟩ => show win3_2.index t (0 : Fin 2) * 1 + 1 * u.val = 0; rw [e0]; omega
  | ⟨1, _⟩ => show win3_2.index t (1 : Fin 2) * 10 + 1 * q'.val = q'.val; rw [e1]; omega

/-! ## The accumulated sum -/

/-- The three input blocks at point `t`, as vectors of the extended reals. -/
abbrev xblk3 (c : Dev nD) (t : Fin cfg3.N) : FVec Ideal S1024x1024 .bf16 := iblk3 V c 0 t
abbrev wblk3 (c : Dev nD) (t : Fin cfg3.N) : FVec Ideal S10x1024 .bf16 := iblk3 V c 1 t
abbrev bblk3 (c : Dev nD) (t : Fin cfg3.N) : FVec Ideal S1x10 .f32 := iblk3 V c 2 t

/-- One term of row `r`'s inner product with weight row `q'`, at contraction position `j` (zero past the end). -/
def term3 (c : Dev nD) (r : Fin 8192) (q' : Fin 10) (j : ℕ) : EReal :=
  if h : j < 6144 then act3 V c (ix2 r ⟨j, h⟩) * wgt3 V c (ix2 q' ⟨j, h⟩) else 0

/-- The inner product's first `n` terms. -/
def partial3 (c : Dev nD) (r : Fin 8192) (q' : Fin 10) (n : ℕ) : EReal := ∑ j ∈ Finset.range n, term3 V c r q' j

/-- What one point adds: the 1024 terms of its contraction block. -/
theorem step3 (c : Dev nD) (t : Fin cfg3.N) (p : Fin 1024) (q' : Fin 10) (r : Fin 8192) (hr : r.val = t.val / 6 * 1024 + p.val) :
    ∑ k : Fin 1024, xblk3 V c t (ix2 p k) * wblk3 V c t (ix2 q' k)
      = ∑ k ∈ Finset.range 1024, term3 V c r q' (t.val % 6 * 1024 + k) := by
  have hN : t.val < 48 := lt_of_lt_of_eq t.isLt (show cfg3.N = 48 from N_3)
  rw [Finset.sum_range]
  refine Finset.sum_congr rfl fun k _ => ?_
  have hk : t.val % 6 * 1024 + k.val < 6144 := by have := k.isLt; omega
  unfold term3
  rw [dif_pos hk]
  exact congrArg₂ (· * ·) (iblk3_0_apply V c t p k r ⟨t.val % 6 * 1024 + k.val, hk⟩ hr rfl) (iblk3_1_apply V c t q' k ⟨t.val % 6 * 1024 + k.val, hk⟩ rfl)

/-- THE INVARIANT. After point `n` the accumulator holds, at `(p, q')`, the first `(n % 6 + 1) · 1024` terms of the inner
    product of row `(n / 6) · 1024 + p` with weight row `q'`. -/
theorem acc3_eq (c : Dev nD) : ∀ (n : ℕ) (hn : n < cfg3.N) (p : Fin 1024) (q' : Fin 10) (r : Fin 8192)
    (hr : r.val = n / 6 * 1024 + p.val),
    (acc3 V c n hn : FVec Ideal S1024x10 .f32) (ix2 p q') = partial3 V c r q' ((n % 6 + 1) * 1024) := by
  intro n
  induction n with
  | zero =>
    intro hn p q' r hr
    have e := acc3_first V c ⟨0, hn⟩ rfl
    refine (congrFun e (ix2 p q')).trans ?_
    refine (pay2_apply _ (xblk3 V c ⟨0, hn⟩) (wblk3 V c ⟨0, hn⟩) p q').trans ?_
    refine (congrArg₂ (· + ·) (pay1_apply _) (step3 V c ⟨0, hn⟩ p q' r hr)).trans ?_
    rw [zero_add]
    unfold partial3
    refine Finset.sum_congr rfl fun k _ => ?_
    show term3 V c r q' (0 % 6 * 1024 + k) = _
    rw [Nat.zero_mod, Nat.zero_mul, Nat.zero_add]
  | succ n ih =>
    intro hn p q' r hr
    have hN : n + 1 < 48 := lt_of_lt_of_eq hn (show cfg3.N = 48 from N_3)
    by_cases h0 : (n + 1) % 6 = 0
    · have e := acc3_first V c ⟨n + 1, hn⟩ h0
      refine (congrFun e (ix2 p q')).trans ?_
      refine (pay2_apply _ (xblk3 V c ⟨n + 1, hn⟩) (wblk3 V c ⟨n + 1, hn⟩) p q').trans ?_
      refine (congrArg₂ (· + ·) (pay1_apply _) (step3 V c ⟨n + 1, hn⟩ p q' r hr)).trans ?_
      rw [zero_add]
      unfold partial3
      show ∑ k ∈ Finset.range 1024, term3 V c r q' ((n + 1) % 6 * 1024 + k) = _
      rw [h0]
      refine Finset.sum_congr rfl fun k _ => ?_
      rw [Nat.zero_mul, Nat.zero_add]
    · have e := acc3_next V c ⟨n + 1, hn⟩ h0
      refine (congrFun e (ix2 p q')).trans ?_
      refine (pay2_apply _ (xblk3 V c ⟨n + 1, hn⟩) (wblk3 V c ⟨n + 1, hn⟩) p q').trans ?_
      have hd : n / 6 = (n + 1) / 6 := by omega
      have hm : n % 6 + 1 = (n + 1) % 6 := by omega
      have ih' := ih (Nat.lt_of_succ_lt hn) p q' r (by rw [hd]; exact hr)
      refine (congrArg₂ (· + ·) ih' (step3 V c ⟨n + 1, hn⟩ p q' r hr)).trans ?_
      rw [hm]
      unfold partial3
      show _ + ∑ k ∈ Finset.range 1024, term3 V c r q' ((n + 1) % 6 * 1024 + k) = _
      rw [show ((n + 1) % 6 + 1) * 1024 = (n + 1) % 6 * 1024 + 1024 by ring, Finset.sum_range_add]

/-- At the last step of the reduction axis the accumulator holds the whole inner product. -/
theorem acc3_last (c : Dev nD) (t : Fin cfg3.N) (h5 : t.val % 6 = 5) (p : Fin 1024) (q' : Fin 10) (r : Fin 8192)
    (hr : r.val = t.val / 6 * 1024 + p.val) :
    (acc3 V c t.val t.isLt : FVec Ideal S1024x10 .f32) (ix2 p q') = ∑ k : Fin 6144, act3 V c (ix2 r k) * wgt3 V c (ix2 q' k) := by
  rw [acc3_eq V c t.val t.isLt p q' r hr, h5]
  unfold partial3
  rw [Finset.sum_range]
  refine Finset.sum_congr rfl fun k _ => ?_
  unfold term3
  rw [dif_pos k.isLt]

/-! ## From the blocks to the array -/

/-- The log-softmax of row `r`'s logits at position `q`, by natural-number coordinates (zero outside the array). -/
def outAt3 (c : Dev nD) (r q : ℕ) : EReal :=
  if h : r < 8192 ∧ q < 10 then Cert.Spec.lsm (logits3 V c ⟨r, h.1⟩) ⟨q, h.2⟩ else 0

/-- What the output array ends holding: at `(r, q)` the log-softmax of row `r`'s logits at `q`. -/
def G3 (c : Dev nD) : Buf (Elt Ideal) ((c : Thread nD τ).loc main_v34) := fun i => outAt3 V c (i 0).val (i 1).val

theorem G3_apply (c : Dev nD) (r : Fin 8192) (q : Fin 10) : G3 V c (ix2 r q) = Cert.Spec.lsm (logits3 V c r) q := by
  show outAt3 V c r.val q.val = _
  unfold outAt3
  rw [dif_pos ⟨r.isLt, q.isLt⟩]

/-- WHAT A FLUSHING POINT WRITES BACK is its block of `G3`: at the last step of the reduction axis the accumulator holds
    the rows' whole inner products, and the epilogue stores their biased log-softmax. -/
theorem flushed3_eq (c : Dev nD) (t : Fin cfg3.N) (hf : (cfg3.win 3).flush t = true) :
    (dat3 (F := Ideal) V c).flushed 3 t = ((cfg3.win 3).blk t).view.read (Elt Ideal) (G3 V c) := by
  have h5 : t.val % 6 = 5 := (flush3_3 t).mp hf
  have hN : t.val < 48 := lt_of_lt_of_eq t.isLt (show cfg3.N = 48 from N_3)
  obtain ⟨-, -, -, -, -, -, e0, e1⟩ := idx_facts3 t
  show (cfg3.win 3).cut (grid3.coords t) ((dat3 (F := Ideal) V c).after 3 t) = _
  rw [after3_3]
  funext j
  obtain ⟨p, q, rfl⟩ : ∃ (p : Fin 1024) (q : Fin 10), j = ix2 p q := ⟨j 0, j 1, eq_ix2 j⟩
  rw [View.read_apply]
  show k3_pay3 (F := Ideal) (acc3 V c t.val t.isLt) (bblk3 V c t) (ix2 p q) = outAt3 V c (win3_3.index t (0 : Fin 2) * 1024 + 1 * p.val) (win3_3.index t (1 : Fin 2) * 10 + 1 * q.val)
  refine (pay3_apply (acc3 V c t.val t.isLt) (bblk3 V c t) p q).trans ?_
  have hr : t.val / 6 * 1024 + p.val < 8192 := by have := p.isLt; omega
  rw [e0, e1, Nat.one_mul, Nat.one_mul, Nat.zero_mul, Nat.zero_add]
  unfold outAt3
  rw [dif_pos ⟨hr, q.isLt⟩]
  refine congrArg (fun z => Cert.Spec.lsm z q) (funext fun q' => ?_)
  unfold logits3
  exact congrArg₂ (· + ·) (acc3_last V c t h5 p q' ⟨t.val / 6 * 1024 + p.val, hr⟩ rfl) (iblk3_2_apply V c t 0 q')

/-- An index of the array is in point `t`'s block iff each coordinate is in the block's range on its axis. -/
theorem mem_blk3 (t : Fin cfg3.N) (i : S8192x10.Idx) :
    i ∈ ((cfg3.win 3).blk t).view.set ↔ ∀ a : Fin 2, win3_3.index t a * S1024x10.size a ≤ (i a).val ∧ (i a).val < win3_3.index t a * S1024x10.size a + S1024x10.size a := by
  show i ∈ ((View.whole main_v34).slice (win3_3.rect t)).set ↔ _
  rw [View.set_slice_whole, Rect.mem_set_unit]
  exact Iff.rfl

/-- Every index of the output array is in the block of the last step of its row block's reduction. -/
theorem cover3 (i : S8192x10.Idx) : ∃ t : Fin cfg3.N, (cfg3.win 3).flush t = true ∧ i ∈ ((cfg3.win 3).blk t).view.set := by
  have h0 : (i 0).val < 8192 := (i 0).isLt
  have h1 : (i 1).val < 10 := (i 1).isLt
  have ht : 6 * ((i 0).val / 1024) + 5 < cfg3.N := by rw [show cfg3.N = 48 from N_3]; omega
  obtain ⟨-, -, -, -, -, -, e0, e1⟩ := idx_facts3 ⟨6 * ((i 0).val / 1024) + 5, ht⟩
  have e0' : win3_3.index ⟨6 * ((i 0).val / 1024) + 5, ht⟩ (0 : Fin 2) = (6 * ((i 0).val / 1024) + 5) / 6 := e0
  refine ⟨⟨6 * ((i 0).val / 1024) + 5, ht⟩, (flush3_3 _).mpr (by show (6 * ((i 0).val / 1024) + 5) % 6 = 5; omega), ?_⟩
  rw [mem_blk3]
  intro a
  match a with
  | ⟨0, _⟩ =>
    show win3_3.index ⟨6 * ((i 0).val / 1024) + 5, ht⟩ (0 : Fin 2) * 1024 ≤ (i 0).val ∧ (i 0).val < win3_3.index ⟨6 * ((i 0).val / 1024) + 5, ht⟩ (0 : Fin 2) * 1024 + 1024
    rw [e0']; omega
  | ⟨1, _⟩ =>
    show win3_3.index ⟨6 * ((i 0).val / 1024) + 5, ht⟩ (1 : Fin 2) * 10 ≤ (i 1).val ∧ (i 1).val < win3_3.index ⟨6 * ((i 0).val / 1024) + 5, ht⟩ (1 : Fin 2) * 10 + 10
    rw [e1]; omega

/-- THE ARRAY after the region: `G3`. -/
theorem arrAt3 (c : Dev nD) : (dat3 (F := Ideal) V c).arrAt 3 cfg3.N = G3 V c :=
  (dat3 (F := Ideal) V c).arrAt_eq_of_cover 3 (G3 V c) (flushed3_eq V c) cover3

/-- THE VALUE of the last layer: the output array holds, at `(r, q)`, the log-softmax at `q` of row `r`'s ten logits. -/
theorem final3 (c : Dev nD) (r : Fin 8192) (q : Fin 10) :
    (dat3 (F := Ideal) V c).arrAt 3 cfg3.N (ix2 r q) = Cert.Spec.lsm (logits3 V c r) q :=
  (congrFun (arrAt3 V c) (ix2 r q)).trans (G3_apply V c r q)

end Cert.KernelIdeal.FrameValue

end
-- ==== Proof.Spec.lean ====
/-
  The arithmetic both programs share, on the extended reals, with no program in sight.

  A hidden unit of the network is  sgn (bn (x · wᵀ) …): the pre-activation plus its bias, centred by the running mean,
  scaled by γ / √(σ² + ε), shifted by β, and then its SIGN, with the sign of zero taken as +1. The reference clips the
  batch-normalised value to [-1, 1] before it takes the sign; clipping to an interval that has 0 in its interior does
  not move a value across 0, so the sign is the same (`sgn_clip`).
-/
import Idealize.ShloMosaic.PureOps.Ideal
import Idealize.ShloMosaic.PureOps.Ideal.Laws

noncomputable section

namespace Cert.Spec

open Idealize.ShloMosaic

/-- The three float words the sign is built from, as the extended reals they denote. -/
theorem word_zero : Ideal.ofBits .f32 0x00000000#32 = 0 := Ideal.ofBits_zero_f32
theorem word_one : Ideal.ofBits .f32 0x3F800000#32 = 1 := by
  simp [Ideal.ofBits, Ideal.ieee]
  rw [← EReal.coe_mul]; norm_num
theorem word_neg_one : Ideal.ofBits .f32 0xBF800000#32 = -1 := by
  simp [Ideal.ofBits, Ideal.ieee]
  rw [← EReal.coe_mul]; norm_num

/-- The batch-norm ε, the float word both programs carry. -/
def eps : EReal := Ideal.ofBits .f32 0x3727C5AC#32

/-- The sign with sgn 0 = +1, spelt as both programs compute it: compare with 0, then choose 1 or -1. -/
def sgn (y : EReal) : EReal :=
  Scalar.select (Ideal.cmp .oge y (Ideal.ofBits .f32 0x00000000#32)) (Ideal.ofBits .f32 0x3F800000#32) (Ideal.ofBits .f32 0xBF800000#32)

theorem sgn_eq (y : EReal) : sgn y = if 0 ≤ y then (1 : EReal) else -1 := by
  unfold sgn Scalar.select Ideal.cmp
  rw [word_zero, word_one, word_neg_one]
  by_cases h : (0 : EReal) ≤ y <;> simp [h]

/-- Eval-mode batch normalisation of `a + b`: ((a + b) − μ) · (γ · (σ² + ε)^(-1/2)) + β. -/
def bn (a b mu g v be : EReal) : EReal := ((a + b) - mu) * (g * Ideal.rsqrt (v + eps)) + be

/-- Clipping to [-1, 1] (first from below, then from above) keeps the sign. -/
theorem sgn_clip (y : EReal) :
    sgn (min (Ideal.ofBits .f32 0x3F800000#32) (max (Ideal.ofBits .f32 0xBF800000#32) y)) = sgn y := by
  rw [sgn_eq, sgn_eq, word_one, word_neg_one]
  have h : (0 : EReal) ≤ min 1 (max (-1) y) ↔ 0 ≤ y := by
    rw [le_min_iff, le_max_iff]
    constructor
    · rintro ⟨-, h | h⟩
      · exact absurd h (by norm_num)
      · exact h
    · intro h; exact ⟨by norm_num, Or.inr h⟩
  simp only [h]

end Cert.Spec

end
-- ==== Proof.KernelIdealValue.Host.lean ====
/-
  What the host stretches of the idealized kernel program leave in the buffers the four regions read, in terms of the
  launch memory: the three sign matrices (compare with 0, choose 1 or -1; a change of float format is the identity on
  the extended reals), the head's weight matrix (a change of format only), and each length-n parameter vector
  reshaped to a 1×n row; and that a buffer no later item writes still holds them when a later region is entered.
-/
import proofs.«103984_j66743791780425_2_alg».proof.Proof.KernelIdealFrame.Run
import proofs.«103984_j66743791780425_2_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## When the first region is entered -/

theorem in_x (c : Dev nD) : (Gen.V7 m c (Proc.devRef .tc main_arg0) : S8192x784.Idx → EReal) = m ((c : Thread nD τ).loc main_arg0) := by
  show StableHlo.after hostOps0_6 (Gen.V6 m c) (Proc.devRef .tc main_arg0) = _
  after_results

theorem sgn_w1 (c : Dev nD) : (Gen.V7 m c (Proc.devRef .tc main_v3) : S6144x784.Idx → EReal) = fun i => Cert.Spec.sgn (m ((c : Thread nD τ).loc main_arg1) i) := by
  show StableHlo.after hostOps0_6 (Gen.V6 m c) (Proc.devRef .tc main_v3) = _
  after_results
  rfl

theorem sgn_w2 (c : Dev nD) : (Gen.V7 m c (Proc.devRef .tc main_v8) : S6144x6144.Idx → EReal) = fun i => Cert.Spec.sgn (m ((c : Thread nD τ).loc main_arg3) i) := by
  show StableHlo.after hostOps0_6 (Gen.V6 m c) (Proc.devRef .tc main_v8) = _
  after_results
  rfl

theorem sgn_w3 (c : Dev nD) : (Gen.V7 m c (Proc.devRef .tc main_v13) : S6144x6144.Idx → EReal) = fun i => Cert.Spec.sgn (m ((c : Thread nD τ).loc main_arg5) i) := by
  show StableHlo.after hostOps0_6 (Gen.V6 m c) (Proc.devRef .tc main_v13) = _
  after_results
  rfl

theorem cast_w4 (c : Dev nD) : (Gen.V7 m c (Proc.devRef .tc main_v14) : S10x6144.Idx → EReal) = m ((c : Thread nD τ).loc main_arg7) := by
  show StableHlo.after hostOps0_6 (Gen.V6 m c) (Proc.devRef .tc main_v14) = _
  after_results
  rfl

theorem row0_bias (c : Dev nD) (j : Fin 6144) : (Gen.V7 m c (Proc.devRef .tc main_v15) : S1x6144.Idx → EReal) (ix2 0 j) = m ((c : Thread nD τ).loc main_arg2) (ix1 j) := by
  show StableHlo.after hostOps0_6 (Gen.V6 m c) (Proc.devRef .tc main_v15) (ix2 0 j) = _
  after_results
  exact shapeCast_a_1a_apply _ _ 0 j

theorem row0_gamma (c : Dev nD) (j : Fin 6144) : (Gen.V7 m c (Proc.devRef .tc main_v16) : S1x6144.Idx → EReal) (ix2 0 j) = m ((c : Thread nD τ).loc main_arg9) (ix1 j) := by
  show StableHlo.after hostOps0_6 (Gen.V6 m c) (Proc.devRef .tc main_v16) (ix2 0 j) = _
  after_results
  exact shapeCast_a_1a_apply _ _ 0 j

theorem row0_beta (c : Dev nD) (j : Fin 6144) : (Gen.V7 m c (Proc.devRef .tc main_v17) : S1x6144.Idx → EReal) (ix2 0 j) = m ((c : Thread nD τ).loc main_arg10) (ix1 j) := by
  show StableHlo.after hostOps0_6 (Gen.V6 m c) (Proc.devRef .tc main_v17) (ix2 0 j) = _
  after_results
  exact shapeCast_a_1a_apply _ _ 0 j

theorem row0_mean (c : Dev nD) (j : Fin 6144) : (Gen.V7 m c (Proc.devRef .tc main_v18) : S1x6144.Idx → EReal) (ix2 0 j) = m ((c : Thread nD τ).loc main_arg11) (ix1 j) := by
  show StableHlo.after hostOps0_6 (Gen.V6 m c) (Proc.devRef .tc main_v18) (ix2 0 j) = _
  after_results
  exact shapeCast_a_1a_apply _ _ 0 j

theorem row0_var (c : Dev nD) (j : Fin 6144) : (Gen.V7 m c (Proc.devRef .tc main_v19) : S1x6144.Idx → EReal) (ix2 0 j) = m ((c : Thread nD τ).loc main_arg12) (ix1 j) := by
  show StableHlo.after hostOps0_6 (Gen.V6 m c) (Proc.devRef .tc main_v19) (ix2 0 j) = _
  after_results
  exact shapeCast_a_1a_apply _ _ 0 j

/-! ## Arguments at the later boundaries -/

/-- An argument array (nothing writes it) at the first region's exit. -/
theorem W8_arg (c : Dev nD) (b : Ref sig .tc) (hb : b ∉ written) : W8 m c (Proc.devRef .tc b) = m ((c : Thread nD τ).loc b) := by
  simp only [written, List.mem_append, not_or] at hb
  obtain ⟨h0, h1, h2, h3, h4, h5, h6, h7, -⟩ := hb
  calc W8 m c (Proc.devRef .tc b)
    _ = Gen.V7 m c (Proc.devRef .tc b) := W8_keep m c b (List.ne_of_not_mem_cons h7)
    _ = Gen.V6 m c (Proc.devRef .tc b) := V7_of m c b h6
    _ = Gen.V5 m c (Proc.devRef .tc b) := V6_of m c b h5
    _ = Gen.V4 m c (Proc.devRef .tc b) := V5_of m c b h4
    _ = Gen.V3 m c (Proc.devRef .tc b) := V4_of m c b h3
    _ = Gen.V2 m c (Proc.devRef .tc b) := V3_of m c b h2
    _ = Gen.V1 m c (Proc.devRef .tc b) := V2_of m c b h1
    _ = Gen.V0 m c (Proc.devRef .tc b) := V1_of m c b h0
    _ = m ((c : Thread nD τ).loc b) := rfl

/-- … at the second region's exit. -/
theorem W10_arg (c : Dev nD) (b : Ref sig .tc) (hb : b ∉ written) : W10 m c (Proc.devRef .tc b) = m ((c : Thread nD τ).loc b) := by
  have hb' := hb
  simp only [written, List.mem_append, not_or] at hb
  obtain ⟨-, -, -, -, -, -, -, -, h8, h9, -⟩ := hb
  calc W10 m c (Proc.devRef .tc b)
    _ = W9 m c (Proc.devRef .tc b) := W10_keep m c b (List.ne_of_not_mem_cons h9)
    _ = W8 m c (Proc.devRef .tc b) := StableHlo.after_of_writes_sub hostOps1 _ hostOps1_writes h8
    _ = m ((c : Thread nD τ).loc b) := W8_arg m c b hb'

/-- … at the third region's exit. -/
theorem W12_arg (c : Dev nD) (b : Ref sig .tc) (hb : b ∉ written) : W12 m c (Proc.devRef .tc b) = m ((c : Thread nD τ).loc b) := by
  have hb' := hb
  simp only [written, List.mem_append, not_or] at hb
  obtain ⟨-, -, -, -, -, -, -, -, -, -, h10, h11, -⟩ := hb
  calc W12 m c (Proc.devRef .tc b)
    _ = W11 m c (Proc.devRef .tc b) := W12_keep m c b (List.ne_of_not_mem_cons h11)
    _ = W10 m c (Proc.devRef .tc b) := StableHlo.after_of_writes_sub hostOps2 _ hostOps2_writes h10
    _ = m ((c : Thread nD τ).loc b) := W10_arg m c b hb'

/-! ## When the second region is entered -/

/-- The first layer's activations are what the first region left. -/
theorem in1_h (c : Dev nD) : W9 m c (Proc.devRef .tc main_v20) = W8 m c (Proc.devRef .tc main_v20) :=
  StableHlo.after_of_writes_sub hostOps1 _ hostOps1_writes (by decide)

theorem in1_w (c : Dev nD) : (W9 m c (Proc.devRef .tc main_v8) : S6144x6144.Idx → EReal) = fun i => Cert.Spec.sgn (m ((c : Thread nD τ).loc main_arg3) i) :=
  ((StableHlo.after_of_writes_sub hostOps1 _ hostOps1_writes (by decide)).trans (W8_keep m c main_v8 (by decide))).trans (sgn_w2 m c)

theorem row1_bias (c : Dev nD) (j : Fin 6144) : (W9 m c (Proc.devRef .tc main_v21) : S1x6144.Idx → EReal) (ix2 0 j) = m ((c : Thread nD τ).loc main_arg4) (ix1 j) := by
  show StableHlo.after hostOps1 (W8 m c) (Proc.devRef .tc main_v21) (ix2 0 j) = _
  after_results
  rw [W8_arg m c main_arg4 (by decide)]
  exact shapeCast_a_1a_apply _ _ 0 j

theorem row1_gamma (c : Dev nD) (j : Fin 6144) : (W9 m c (Proc.devRef .tc main_v22) : S1x6144.Idx → EReal) (ix2 0 j) = m ((c : Thread nD τ).loc main_arg13) (ix1 j) := by
  show StableHlo.after hostOps1 (W8 m c) (Proc.devRef .tc main_v22) (ix2 0 j) = _
  after_results
  rw [W8_arg m c main_arg13 (by decide)]
  exact shapeCast_a_1a_apply _ _ 0 j

theorem row1_beta (c : Dev nD) (j : Fin 6144) : (W9 m c (Proc.devRef .tc main_v23) : S1x6144.Idx → EReal) (ix2 0 j) = m ((c : Thread nD τ).loc main_arg14) (ix1 j) := by
  show StableHlo.after hostOps1 (W8 m c) (Proc.devRef .tc main_v23) (ix2 0 j) = _
  after_results
  rw [W8_arg m c main_arg14 (by decide)]
  exact shapeCast_a_1a_apply _ _ 0 j

theorem row1_mean (c : Dev nD) (j : Fin 6144) : (W9 m c (Proc.devRef .tc main_v24) : S1x6144.Idx → EReal) (ix2 0 j) = m ((c : Thread nD τ).loc main_arg15) (ix1 j) := by
  show StableHlo.after hostOps1 (W8 m c) (Proc.devRef .tc main_v24) (ix2 0 j) = _
  after_results
  rw [W8_arg m c main_arg15 (by decide)]
  exact shapeCast_a_1a_apply _ _ 0 j

theorem row1_var (c : Dev nD) (j : Fin 6144) : (W9 m c (Proc.devRef .tc main_v25) : S1x6144.Idx → EReal) (ix2 0 j) = m ((c : Thread nD τ).loc main_arg16) (ix1 j) := by
  show StableHlo.after hostOps1 (W8 m c) (Proc.devRef .tc main_v25) (ix2 0 j) = _
  after_results
  rw [W8_arg m c main_arg16 (by decide)]
  exact shapeCast_a_1a_apply _ _ 0 j

/-! ## When the third region is entered -/

theorem in2_h (c : Dev nD) : W11 m c (Proc.devRef .tc main_v26) = W10 m c (Proc.devRef .tc main_v26) :=
  StableHlo.after_of_writes_sub hostOps2 _ hostOps2_writes (by decide)

theorem in2_w (c : Dev nD) : (W11 m c (Proc.devRef .tc main_v13) : S6144x6144.Idx → EReal) = fun i => Cert.Spec.sgn (m ((c : Thread nD τ).loc main_arg5) i) :=
  ((((StableHlo.after_of_writes_sub hostOps2 _ hostOps2_writes (by decide)).trans (W10_keep m c main_v13 (by decide))).trans
    (StableHlo.after_of_writes_sub hostOps1 _ hostOps1_writes (by decide))).trans (W8_keep m c main_v13 (by decide))).trans (sgn_w3 m c)

theorem row2_bias (c : Dev nD) (j : Fin 6144) : (W11 m c (Proc.devRef .tc main_v27) : S1x6144.Idx → EReal) (ix2 0 j) = m ((c : Thread nD τ).loc main_arg6) (ix1 j) := by
  show StableHlo.after hostOps2 (W10 m c) (Proc.devRef .tc main_v27) (ix2 0 j) = _
  after_results
  rw [W10_arg m c main_arg6 (by decide)]
  exact shapeCast_a_1a_apply _ _ 0 j

theorem row2_gamma (c : Dev nD) (j : Fin 6144) : (W11 m c (Proc.devRef .tc main_v28) : S1x6144.Idx → EReal) (ix2 0 j) = m ((c : Thread nD τ).loc main_arg17) (ix1 j) := by
  show StableHlo.after hostOps2 (W10 m c) (Proc.devRef .tc main_v28) (ix2 0 j) = _
  after_results
  rw [W10_arg m c main_arg17 (by decide)]
  exact shapeCast_a_1a_apply _ _ 0 j

theorem row2_beta (c : Dev nD) (j : Fin 6144) : (W11 m c (Proc.devRef .tc main_v29) : S1x6144.Idx → EReal) (ix2 0 j) = m ((c : Thread nD τ).loc main_arg18) (ix1 j) := by
  show StableHlo.after hostOps2 (W10 m c) (Proc.devRef .tc main_v29) (ix2 0 j) = _
  after_results
  rw [W10_arg m c main_arg18 (by decide)]
  exact shapeCast_a_1a_apply _ _ 0 j

theorem row2_mean (c : Dev nD) (j : Fin 6144) : (W11 m c (Proc.devRef .tc main_v30) : S1x6144.Idx → EReal) (ix2 0 j) = m ((c : Thread nD τ).loc main_arg19) (ix1 j) := by
  show StableHlo.after hostOps2 (W10 m c) (Proc.devRef .tc main_v30) (ix2 0 j) = _
  after_results
  rw [W10_arg m c main_arg19 (by decide)]
  exact shapeCast_a_1a_apply _ _ 0 j

theorem row2_var (c : Dev nD) (j : Fin 6144) : (W11 m c (Proc.devRef .tc main_v31) : S1x6144.Idx → EReal) (ix2 0 j) = m ((c : Thread nD τ).loc main_arg20) (ix1 j) := by
  show StableHlo.after hostOps2 (W10 m c) (Proc.devRef .tc main_v31) (ix2 0 j) = _
  after_results
  rw [W10_arg m c main_arg20 (by decide)]
  exact shapeCast_a_1a_apply _ _ 0 j

/-! ## When the last region is entered -/

theorem in3_h (c : Dev nD) : W13 m c (Proc.devRef .tc main_v32) = W12 m c (Proc.devRef .tc main_v32) :=
  StableHlo.after_of_writes_sub hostOps3 _ hostOps3_writes (by decide)

theorem in3_w (c : Dev nD) : (W13 m c (Proc.devRef .tc main_v14) : S10x6144.Idx → EReal) = m ((c : Thread nD τ).loc main_arg7) :=
  ((((((StableHlo.after_of_writes_sub hostOps3 _ hostOps3_writes (by decide)).trans (W12_keep m c main_v14 (by decide))).trans
    (StableHlo.after_of_writes_sub hostOps2 _ hostOps2_writes (by decide))).trans (W10_keep m c main_v14 (by decide))).trans
    (StableHlo.after_of_writes_sub hostOps1 _ hostOps1_writes (by decide))).trans (W8_keep m c main_v14 (by decide))).trans (cast_w4 m c)

theorem row3_bias (c : Dev nD) (j : Fin 10) : (W13 m c (Proc.devRef .tc main_v33) : S1x10.Idx → EReal) (ix2 0 j) = m ((c : Thread nD τ).loc main_arg8) (ix1 j) := by
  show StableHlo.after hostOps3 (W12 m c) (Proc.devRef .tc main_v33) (ix2 0 j) = _
  after_results
  rw [W12_arg m c main_arg8 (by decide)]
  exact shapeCast_a_1a_apply _ _ 0 j

end Cert.KernelIdeal.FrameValue

end
-- ==== Proof.KernelIdealValue.Val2.lean ====
/- The VALUE of region 2 at the ideal reals: after the region, the layer's output array holds, at row `r` and column `j`,
   the sign of the batch-normalised pre-activation of unit `j` on row `r` of the layer's input (`final2`). The contraction
   over the 6144 shared coordinates is made in twelve steps of 512 along the innermost grid axis, summed into an accumulator
   that is zeroed at the first step: first the body's three stored values at an index of their block, over arbitrary loaded
   blocks; then the accumulator after each grid point as a partial sum over the shared coordinates below the point's
   (`acc2_eq`, by induction on the point); then what a last step writes back as a block of ONE function of the whole arrays
   (`flushed2_eq`), and the blocks tile the array (`cover2`). -/
import proofs.«103984_j66743791780425_2_alg».proof.Proof.Gen.KernelIdeal.Skeleton
import proofs.«103984_j66743791780425_2_alg».proof.Proof.KernelIdealFrame.Reg2
import proofs.«103984_j66743791780425_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

/-! ## The body's matrix product at an index -/

theorem lhs2_0 (i : S1024x1024.Idx) (k : dot_S1024x512_S1024x512_S1024x1024_1_1_0_0_n_n.contr.Idx) : (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs2_1 (i : S1024x1024.Idx) (k : dot_S1024x512_S1024x512_S1024x1024_1_1_0_0_n_n.contr.Idx) : (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs2_0 (i : S1024x1024.Idx) (k : dot_S1024x512_S1024x512_S1024x1024_1_1_0_0_n_n.contr.Idx) : (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs2_1 (i : S1024x1024.Idx) (k : dot_S1024x512_S1024x512_S1024x1024_1_1_0_0_n_n.contr.Idx) : (dot_S1024x512_S1024x512_S1024x1024_1_1_0_0_n_n.rhsIdx i k 1).val = (k ⟨0, by decide⟩).val :=
  dot_S1024x512_S1024x512_S1024x1024_1_1_0_0_n_n.rhsIdx_val_of_single rfl i k

/-- The product of a 1024×512 block with the transpose of a 1024×512 block, accumulated into zero, at row `p` and
    column `q`: the sum over the 512 shared coordinates. -/
theorem matmul2_apply (x0 x1 : Vec Ideal S1024x512 .bf16) (p q : Fin 1024) :
    matmul (φ₁ := .bf16) (φ₂ := .bf16) dot_S1024x512_S1024x512_S1024x1024_1_1_0_0_n_n none x0 x1 (constant (F := Ideal) S1024x1024 .f32 0x00000000#32) (ix2 p q)
      = ∑ k : Fin 512, x0 (ix2 p k) * x1 (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs2_0 _ _
    | ⟨1, _⟩ => exact (lhs2_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs2_0 _ _
    | ⟨1, _⟩ => exact (rhs2_1 _ _).trans hk)
  rw [el, er]

/-! ## The body's three payloads at an index -/

/-- The reset block is zero everywhere. -/
theorem pay2_1_apply (i : S1024x1024.Idx) : k2_pay1 (F := Ideal) i = 0 := by
  unfold k2_pay1
  simp only [shapeCast_self]
  exact Ideal.ofBits_zero_f32

/-- The accumulation step at row `p`, column `q`: the accumulator plus the 512-term product of row `p` of the input block
    with row `q` of the weight block. -/
theorem pay2_2_apply (acc : Vec Ideal S1024x1024 .f32) (x0 x1 : Vec Ideal S1024x512 .bf16) (p q : Fin 1024) :
    k2_pay2 acc x0 x1 (ix2 p q) = acc (ix2 p q) + ∑ k : Fin 512, x0 (ix2 p k) * x1 (ix2 q k) := by
  unfold k2_pay2
  simp only [shapeCast_self]
  simp only [addf_apply, matmul2_apply]

/-- The epilogue at row `p`, column `q`: the sign of the batch-normalised sum, the five rows read at column `q`.
    The arguments are in the order the body loads them. -/
theorem pay2_3_apply (acc : Vec Ideal S1024x1024 .f32) (xb xg xv xm xe : Vec Ideal S1x1024 .f32) (p q : Fin 1024) :
    k2_pay3 acc xb xg xv xm xe (ix2 p q)
      = Cert.Spec.sgn (Cert.Spec.bn (acc (ix2 p q)) (xb (ix2 0 q)) (xm (ix2 0 q)) (xg (ix2 0 q)) (xv (ix2 0 q)) (xe (ix2 0 q))) := by
  unfold k2_pay3
  simp only [shapeCast_self]
  simp only [truncf_apply, select_apply, cmpf_apply, broadcast_apply, addf_apply, mulf_apply, subf_apply,
    broadcastTo_1b_ab_apply]
  rfl

/-! ## The printed index maps -/

/-- The printed index maps, decided over the grid: with the point `t = 12·(6·i + j) + k`, the input block is (i, k), the
    weight block (j, k), the five rows' blocks (0, j), the output block (i, j). -/
theorem idx_facts2 : ∀ t : Fin cfg2.N,
    win2_0.index t (0 : Fin 2) = t.val / 72 ∧ win2_0.index t (1 : Fin 2) = t.val % 12
    ∧ win2_1.index t (0 : Fin 2) = t.val / 12 % 6 ∧ win2_1.index t (1 : Fin 2) = t.val % 12
    ∧ win2_2.index t (0 : Fin 2) = 0 ∧ win2_2.index t (1 : Fin 2) = t.val / 12 % 6
    ∧ win2_3.index t (0 : Fin 2) = 0 ∧ win2_3.index t (1 : Fin 2) = t.val / 12 % 6
    ∧ win2_4.index t (0 : Fin 2) = 0 ∧ win2_4.index t (1 : Fin 2) = t.val / 12 % 6
    ∧ win2_5.index t (0 : Fin 2) = 0 ∧ win2_5.index t (1 : Fin 2) = t.val / 12 % 6
    ∧ win2_6.index t (0 : Fin 2) = 0 ∧ win2_6.index t (1 : Fin 2) = t.val / 12 % 6
    ∧ win2_7.index t (0 : Fin 2) = t.val / 72 ∧ win2_7.index t (1 : Fin 2) = t.val / 12 % 6 :=
  (by decide +kernel : ∀ t : Fin grid2.N, _)

/-! ## The specification -/

/-- One hidden unit of the layer, from the arrays: row `r` of the input `x` against row `j` of the weights `w`, plus the
    bias, batch-normalised with column `j` of the four per-column rows (scale `g`, shift `be`, mean `mu`, variance `v`),
    then the sign. -/
def hidden2 (x : S8192x6144.Idx → EReal) (w : S6144x6144.Idx → EReal) (b g be mu v : S1x6144.Idx → EReal)
    (r : Fin 8192) (j : Fin 6144) : EReal :=
  Cert.Spec.sgn (Cert.Spec.bn (∑ k : Fin 6144, x (ix2 r k) * w (ix2 j k)) (b (ix2 0 j)) (mu (ix2 0 j)) (g (ix2 0 j)) (v (ix2 0 j)) (be (ix2 0 j)))

/-- The term of the contraction at shared coordinate `k`, over natural-number coordinates (zero off the arrays). -/
def term2 (x : S8192x6144.Idx → EReal) (w : S6144x6144.Idx → EReal) (r j k : ℕ) : EReal :=
  if h : r < 8192 ∧ j < 6144 ∧ k < 6144 then x (ix2 ⟨r, h.1⟩ ⟨k, h.2.2⟩) * w (ix2 ⟨j, h.2.1⟩ ⟨k, h.2.2⟩) else 0

/-- All 6144 terms are the unit's contraction. -/
theorem term2_sum (x : S8192x6144.Idx → EReal) (w : S6144x6144.Idx → EReal) (r : Fin 8192) (j : Fin 6144) :
    ∑ k ∈ Finset.range 6144, term2 x w r.val j.val k = ∑ k : Fin 6144, x (ix2 r k) * w (ix2 j k) := by
  rw [← Fin.sum_univ_eq_sum_range (fun k => term2 x w r.val j.val k) 6144]
  refine Finset.sum_congr rfl fun k _ => ?_
  unfold term2
  rw [dif_pos ⟨r.isLt, j.isLt, k.isLt⟩]

variable (V : (c : Dev nD) → (b : Ref sig .tc) → Buf (Elt Ideal) ((c : Thread nD τ).loc b))

/-- What the output array ends holding: the unit of its row and column, at every index, over the arrays as the region
    finds them. -/
def layer2 (c : Dev nD) : S8192x6144.Idx → EReal := fun i => hidden2 (V c main_v26) (V c main_v13) (V c main_v27) (V c main_v28) (V c main_v29) (V c main_v30) (V c main_v31) (i 0) (i 1)

/-! ## The blocks read off the arrays -/

/-- The row and the column of the array that element `(p, q)` of point `t`'s output block sits at. -/
abbrev rowAt2 (t : Fin cfg2.N) (p q : Fin 1024) : Fin 8192 := ((cfg2.win 7).blk t).view.emb (ix2 p q) 0
abbrev colAt2 (t : Fin cfg2.N) (p q : Fin 1024) : Fin 6144 := ((cfg2.win 7).blk t).view.emb (ix2 p q) 1
theorem rowAt2_val (t : Fin cfg2.N) (p q : Fin 1024) : (rowAt2 t p q).val = 1024 * (t.val / 72) + p.val := by
  show win2_7.index t (0 : Fin 2) * 1024 + 1 * p.val = _
  obtain ⟨-, -, -, -, -, -, -, -, -, -, -, -, -, -, e0, e1⟩ := idx_facts2 t
  omega
theorem colAt2_val (t : Fin cfg2.N) (p q : Fin 1024) : (colAt2 t p q).val = 1024 * (t.val / 12 % 6) + q.val := by
  show win2_7.index t (1 : Fin 2) * 1024 + 1 * q.val = _
  obtain ⟨-, -, -, -, -, -, -, -, -, -, -, -, -, -, e0, e1⟩ := idx_facts2 t
  omega

/-- The input block at point `t`, at `(p, k)`: the input array at the output block's row and the point's stretch of the
    shared coordinate. -/
theorem read2_0 (c : Dev nD) (t : Fin cfg2.N) (p : Fin 1024) (k : Fin 512) (r : Fin 8192) (n : Fin 6144)
    (hr : r.val = 1024 * (t.val / 72) + p.val) (hn : n.val = 512 * (t.val % 12) + k.val) :
    iblk2 V c 0 t (ix2 p k) = (V c main_v26 : S8192x6144.Idx → EReal) (ix2 r n) := by
  show (V c main_v26 : S8192x6144.Idx → EReal) (((cfg2.win 0).blk t).view.emb (ix2 p k)) = _
  refine congrArg _ ?_
  obtain ⟨e0, e1, -⟩ := idx_facts2 t
  funext a; apply Fin.ext
  match a with
  | ⟨0, _⟩ => show win2_0.index t (0 : Fin 2) * 1024 + 1 * p.val = r.val; omega
  | ⟨1, _⟩ => show win2_0.index t (1 : Fin 2) * 512 + 1 * k.val = n.val; omega

/-- The weight block at point `t`, at `(q, k)`: the weight array at the output block's column and the same stretch. -/
theorem read2_1 (c : Dev nD) (t : Fin cfg2.N) (q : Fin 1024) (k : Fin 512) (j : Fin 6144) (n : Fin 6144)
    (hj : j.val = 1024 * (t.val / 12 % 6) + q.val) (hn : n.val = 512 * (t.val % 12) + k.val) :
    iblk2 V c 1 t (ix2 q k) = (V c main_v13 : S6144x6144.Idx → EReal) (ix2 j n) := by
  show (V c main_v13 : S6144x6144.Idx → EReal) (((cfg2.win 1).blk t).view.emb (ix2 q k)) = _
  refine congrArg _ ?_
  obtain ⟨-, -, e0, e1, -⟩ := idx_facts2 t
  funext a; apply Fin.ext
  match a with
  | ⟨0, _⟩ => show win2_1.index t (0 : Fin 2) * 1024 + 1 * q.val = j.val; omega
  | ⟨1, _⟩ => show win2_1.index t (1 : Fin 2) * 512 + 1 * k.val = n.val; omega

/-- Window 2's block at point `t` holds the columns of its one-row array that the output block's columns are. -/
theorem read2_2 (c : Dev nD) (t : Fin cfg2.N) (p q : Fin 1024) :
    iblk2 V c 2 t (ix2 0 q) = (V c main_v27 : S1x6144.Idx → EReal) (ix2 0 (colAt2 t p q)) := by
  show (V c main_v27 : S1x6144.Idx → EReal) (((cfg2.win 2).blk t).view.emb (ix2 0 q)) = _
  refine congrArg _ ?_
  obtain ⟨-, -, -, -, e0, e1, -⟩ := idx_facts2 t
  have hc := colAt2_val t p q
  funext a; apply Fin.ext
  match a with
  | ⟨0, _⟩ => show win2_2.index t (0 : Fin 2) * 1 + 1 * 0 = 0; omega
  | ⟨1, _⟩ => show win2_2.index t (1 : Fin 2) * 1024 + 1 * q.val = (colAt2 t p q).val; omega

/-- Window 3's block at point `t` holds the columns of its one-row array that the output block's columns are. -/
theorem read2_3 (c : Dev nD) (t : Fin cfg2.N) (p q : Fin 1024) :
    iblk2 V c 3 t (ix2 0 q) = (V c main_v28 : S1x6144.Idx → EReal) (ix2 0 (colAt2 t p q)) := by
  show (V c main_v28 : S1x6144.Idx → EReal) (((cfg2.win 3).blk t).view.emb (ix2 0 q)) = _
  refine congrArg _ ?_
  obtain ⟨-, -, -, -, -, -, e0, e1, -⟩ := idx_facts2 t
  have hc := colAt2_val t p q
  funext a; apply Fin.ext
  match a with
  | ⟨0, _⟩ => show win2_3.index t (0 : Fin 2) * 1 + 1 * 0 = 0; omega
  | ⟨1, _⟩ => show win2_3.index t (1 : Fin 2) * 1024 + 1 * q.val = (colAt2 t p q).val; omega

/-- Window 4's block at point `t` holds the columns of its one-row array that the output block's columns are. -/
theorem read2_4 (c : Dev nD) (t : Fin cfg2.N) (p q : Fin 1024) :
    iblk2 V c 4 t (ix2 0 q) = (V c main_v29 : S1x6144.Idx → EReal) (ix2 0 (colAt2 t p q)) := by
  show (V c main_v29 : S1x6144.Idx → EReal) (((cfg2.win 4).blk t).view.emb (ix2 0 q)) = _
  refine congrArg _ ?_
  obtain ⟨-, -, -, -, -, -, -, -, e0, e1, -⟩ := idx_facts2 t
  have hc := colAt2_val t p q
  funext a; apply Fin.ext
  match a with
  | ⟨0, _⟩ => show win2_4.index t (0 : Fin 2) * 1 + 1 * 0 = 0; omega
  | ⟨1, _⟩ => show win2_4.index t (1 : Fin 2) * 1024 + 1 * q.val = (colAt2 t p q).val; omega

/-- Window 5's block at point `t` holds the columns of its one-row array that the output block's columns are. -/
theorem read2_5 (c : Dev nD) (t : Fin cfg2.N) (p q : Fin 1024) :
    iblk2 V c 5 t (ix2 0 q) = (V c main_v30 : S1x6144.Idx → EReal) (ix2 0 (colAt2 t p q)) := by
  show (V c main_v30 : S1x6144.Idx → EReal) (((cfg2.win 5).blk t).view.emb (ix2 0 q)) = _
  refine congrArg _ ?_
  obtain ⟨-, -, -, -, -, -, -, -, -, -, e0, e1, -⟩ := idx_facts2 t
  have hc := colAt2_val t p q
  funext a; apply Fin.ext
  match a with
  | ⟨0, _⟩ => show win2_5.index t (0 : Fin 2) * 1 + 1 * 0 = 0; omega
  | ⟨1, _⟩ => show win2_5.index t (1 : Fin 2) * 1024 + 1 * q.val = (colAt2 t p q).val; omega

/-- Window 6's block at point `t` holds the columns of its one-row array that the output block's columns are. -/
theorem read2_6 (c : Dev nD) (t : Fin cfg2.N) (p q : Fin 1024) :
    iblk2 V c 6 t (ix2 0 q) = (V c main_v31 : S1x6144.Idx → EReal) (ix2 0 (colAt2 t p q)) := by
  show (V c main_v31 : S1x6144.Idx → EReal) (((cfg2.win 6).blk t).view.emb (ix2 0 q)) = _
  refine congrArg _ ?_
  obtain ⟨-, -, -, -, -, -, -, -, -, -, -, -, e0, e1, -⟩ := idx_facts2 t
  have hc := colAt2_val t p q
  funext a; apply Fin.ext
  match a with
  | ⟨0, _⟩ => show win2_6.index t (0 : Fin 2) * 1 + 1 * 0 = 0; omega
  | ⟨1, _⟩ => show win2_6.index t (1 : Fin 2) * 1024 + 1 * q.val = (colAt2 t p q).val; omega

/-- The product the body adds at point `t`, entry `(p, q)`, term by term: the contraction's terms on the point's stretch. -/
theorem step2_eq (c : Dev nD) (t : Fin cfg2.N) (x0 x1 : S1024x512.Idx → EReal) (hx0 : x0 = iblk2 V c 0 t) (hx1 : x1 = iblk2 V c 1 t) (p q : Fin 1024) :
    ∑ k : Fin 512, x0 (ix2 p k) * x1 (ix2 q k)
      = ∑ k ∈ Finset.range 512, term2 (V c main_v26) (V c main_v13) (1024 * (t.val / 72) + p.val) (1024 * (t.val / 12 % 6) + q.val) (512 * (t.val % 12) + k) := by
  have hN : t.val < 576 := lt_of_lt_of_eq t.isLt N_2
  rw [← Fin.sum_univ_eq_sum_range (fun k => term2 (V c main_v26) (V c main_v13) (1024 * (t.val / 72) + p.val) (1024 * (t.val / 12 % 6) + q.val) (512 * (t.val % 12) + k)) 512]
  refine Finset.sum_congr rfl fun k _ => ?_
  have hk : k.val < 512 := k.isLt
  have hp : p.val < 1024 := p.isLt
  have hq : q.val < 1024 := q.isLt
  unfold term2
  rw [dif_pos ⟨by omega, by omega, by omega⟩]
  exact congrArg₂ (· * ·) ((congrFun hx0 (ix2 p k)).trans (read2_0 V c t p k ⟨1024 * (t.val / 72) + p.val, by omega⟩ ⟨512 * (t.val % 12) + k.val, by omega⟩ rfl rfl))
    ((congrFun hx1 (ix2 q k)).trans (read2_1 V c t q k ⟨1024 * (t.val / 12 % 6) + q.val, by omega⟩ ⟨512 * (t.val % 12) + k.val, by omega⟩ rfl rfl))

/-! ## The accumulator, point by point -/

/-- THE PARTIAL SUM. After the body at point `n = 12·(6·i + j) + k` the accumulator holds, at `(p, q)`, the contraction's
    terms below `512·(k + 1)` for row `1024·i + p` and column `1024·j + q`: by induction on the point — at a first step
    the zero block plus the step's product, at a later step the step before's sum plus it. -/
theorem acc2_eq (c : Dev nD) : ∀ (n : ℕ) (hn : n < cfg2.N) (p q : Fin 1024),
    acc2 V c n hn (ix2 p q)
      = ∑ k ∈ Finset.range (512 * (n % 12 + 1)), term2 (V c main_v26) (V c main_v13) (1024 * (n / 72) + p.val) (1024 * (n / 12 % 6) + q.val) k := by
  intro n
  induction n using Nat.strong_induction_on with
  | _ n ih =>
    intro hn p q
    have hN : n < 576 := lt_of_lt_of_eq hn N_2
    by_cases h0 : n % 12 = 0
    · refine (congrFun (acc2_reset V c ⟨n, hn⟩ h0) (ix2 p q)).trans ?_
      refine (pay2_2_apply (k2_pay1 (F := Ideal)) (iblk2 V c 0 ⟨n, hn⟩) (iblk2 V c 1 ⟨n, hn⟩) p q).trans ?_
      refine (congrArg₂ (· + ·) (pay2_1_apply (ix2 p q)) (step2_eq V c ⟨n, hn⟩ (iblk2 V c 0 ⟨n, hn⟩) (iblk2 V c 1 ⟨n, hn⟩) rfl rfl p q)).trans ?_
      rw [zero_add]
      show ∑ k ∈ Finset.range 512, term2 _ _ _ _ (512 * (n % 12) + k) = _
      rw [h0]
      simp only [Nat.mul_zero, Nat.zero_add, Nat.mul_one]
    · refine (congrFun (acc2_step V c ⟨n, hn⟩ h0) (ix2 p q)).trans ?_
      refine (pay2_2_apply (acc2 V c (n - 1) (Nat.lt_of_le_of_lt (Nat.sub_le _ _) hn)) (iblk2 V c 0 ⟨n, hn⟩) (iblk2 V c 1 ⟨n, hn⟩) p q).trans ?_
      refine (congrArg₂ (· + ·) (ih (n - 1) (by omega) (Nat.lt_of_le_of_lt (Nat.sub_le _ _) hn) p q) (step2_eq V c ⟨n, hn⟩ (iblk2 V c 0 ⟨n, hn⟩) (iblk2 V c 1 ⟨n, hn⟩) rfl rfl p q)).trans ?_
      show _ + ∑ k ∈ Finset.range 512, term2 _ _ (1024 * (n / 72) + p.val) (1024 * (n / 12 % 6) + q.val) (512 * (n % 12) + k) = _
      have e1 : (n - 1) / 72 = n / 72 := by omega
      have e2 : (n - 1) / 12 % 6 = n / 12 % 6 := by omega
      have e3 : (n - 1) % 12 + 1 = n % 12 := by omega
      rw [e1, e2, e3, show 512 * (n % 12 + 1) = 512 * (n % 12) + 512 from by omega, Finset.sum_range_add]

/-! ## From blocks to the array -/

/-- A block of stored values is a given block when it is so index by index. -/
theorem out2_eq_of_forall (c : Dev nD) (t : Fin cfg2.N) (B : S1024x1024.Idx → EReal)
    (h : ∀ (p q : Fin 1024), out2 V c t (ix2 p q) = B (ix2 p q)) : out2 V c t = B := by
  funext y
  obtain ⟨p, q, rfl⟩ : ∃ (p q : Fin 1024), y = ix2 p q := ⟨y 0, y 1, eq_ix2 y⟩
  exact h p q

/-- What a last step `t` stores at `(p, q)` of the output block: the unit of the row and column that entry sits at. -/
theorem out2_apply (c : Dev nD) (t : Fin cfg2.N) (h11 : t.val % 12 = 11) (p q : Fin 1024) :
    out2 V c t (ix2 p q) = hidden2 (V c main_v26) (V c main_v13) (V c main_v27) (V c main_v28) (V c main_v29) (V c main_v30) (V c main_v31) (rowAt2 t p q) (colAt2 t p q) := by
  refine (pay2_3_apply (acc2 V c t.val t.isLt) (iblk2 V c 2 t) (iblk2 V c 3 t) (iblk2 V c 6 t) (iblk2 V c 5 t) (iblk2 V c 4 t) p q).trans ?_
  rw [acc2_eq V c t.val t.isLt p q, h11, ← rowAt2_val t p q, ← colAt2_val t p q]
  rw [show 512 * (11 + 1) = 6144 from rfl, term2_sum]
  rw [read2_2 V c t p q, read2_3 V c t p q, read2_4 V c t p q, read2_5 V c t p q, read2_6 V c t p q]
  rfl

/-- What a last step `t` writes back is block `t` of `layer2` of the arrays as the region finds them. -/
theorem flushed2_eq (c : Dev nD) (t : Fin cfg2.N) (hf : (cfg2.win 7).flush t = true) :
    (dat2 V c).flushed 7 t = ((cfg2.win 7).blk t).view.read (Elt Ideal) (layer2 V c) := by
  have h11 : t.val % 12 = 11 := (flush2_7 t).mp hf
  show (cfg2.win 7).cut (grid2.coords t) ((dat2 V c).after 7 t) = _
  rw [after2_7]
  refine out2_eq_of_forall V c t _ fun p q => ?_
  rw [out2_apply V c t h11 p q]
  rfl

/-- An index of the array is in point `t`'s block iff each coordinate is in the block's range on its axis. -/
theorem mem_blk2 (t : Fin cfg2.N) (i : S8192x6144.Idx) :
    i ∈ ((cfg2.win 7).blk t).view.set ↔ ∀ a : Fin 2, win2_7.index t a * S1024x1024.size a ≤ (i a).val ∧ (i a).val < win2_7.index t a * S1024x1024.size a + S1024x1024.size a := by
  show i ∈ ((View.whole main_v32).slice (win2_7.rect t)).set ↔ _
  rw [View.set_slice_whole, Rect.mem_set_unit]
  exact Iff.rfl

/-- Every index of the array is in some last step's block: the step whose output block holds the row and the column. -/
theorem cover2 (i : S8192x6144.Idx) : ∃ t : Fin cfg2.N, (cfg2.win 7).flush t = true ∧ i ∈ ((cfg2.win 7).blk t).view.set := by
  have hi0 : (i 0).val < 8192 := (i 0).isLt
  have hi1 : (i 1).val < 6144 := (i 1).isLt
  have hlt : 12 * (6 * ((i 0).val / 1024) + (i 1).val / 1024) + 11 < cfg2.N := by
    rw [show cfg2.N = 576 from N_2]; omega
  refine ⟨⟨12 * (6 * ((i 0).val / 1024) + (i 1).val / 1024) + 11, hlt⟩, (flush2_7 _).mpr (by show (12 * (6 * ((i 0).val / 1024) + (i 1).val / 1024) + 11) % 12 = 11; omega), ?_⟩
  rw [mem_blk2]
  obtain ⟨-, -, -, -, -, -, -, -, -, -, -, -, -, -, e0, e1⟩ := idx_facts2 ⟨12 * (6 * ((i 0).val / 1024) + (i 1).val / 1024) + 11, hlt⟩
  intro a
  match a with
  | ⟨0, _⟩ =>
    show win2_7.index _ (0 : Fin 2) * 1024 ≤ (i 0).val ∧ (i 0).val < win2_7.index _ (0 : Fin 2) * 1024 + 1024
    rw [e0]; show (12 * (6 * ((i 0).val / 1024) + (i 1).val / 1024) + 11) / 72 * 1024 ≤ (i 0).val ∧ (i 0).val < (12 * (6 * ((i 0).val / 1024) + (i 1).val / 1024) + 11) / 72 * 1024 + 1024
    omega
  | ⟨1, _⟩ =>
    show win2_7.index _ (1 : Fin 2) * 1024 ≤ (i 1).val ∧ (i 1).val < win2_7.index _ (1 : Fin 2) * 1024 + 1024
    rw [e1]; show (12 * (6 * ((i 0).val / 1024) + (i 1).val / 1024) + 11) / 12 % 6 * 1024 ≤ (i 1).val ∧ (i 1).val < (12 * (6 * ((i 0).val / 1024) + (i 1).val / 1024) + 11) / 12 % 6 * 1024 + 1024
    omega

/-- The output array after the region: `layer2` of the arrays as the region finds them, everywhere. -/
theorem arr2 (c : Dev nD) : (dat2 V c).arrAt 7 cfg2.N = layer2 V c :=
  (dat2 V c).arrAt_eq_of_cover 7 (layer2 V c) (fun t hf => flushed2_eq V c t hf) cover2

/-- The output array after the region, at row `r` and column `j`. -/
theorem final2 (c : Dev nD) (r : Fin 8192) (j : Fin 6144) :
    (dat2 (F := Ideal) V c).arrAt 7 cfg2.N (ix2 r j) = hidden2 (V c main_v26) (V c main_v13) (V c main_v27) (V c main_v28) (V c main_v29) (V c main_v30) (V c main_v31) r j := by
  rw [arr2]; rfl

end Cert.KernelIdeal.FrameValue

end
-- ==== Proof.KernelIdealValue.Val1.lean ====
/- The VALUE of region 1 at the ideal reals: after the region, the layer's output array holds, at row `r` and column `j`,
   the sign of the batch-normalised pre-activation of unit `j` on row `r` of the layer's input (`final1`). The contraction
   over the 6144 shared coordinates is made in twelve steps of 512 along the innermost grid axis, summed into an accumulator
   that is zeroed at the first step: first the body's three stored values at an index of their block, over arbitrary loaded
   blocks; then the accumulator after each grid point as a partial sum over the shared coordinates below the point's
   (`acc1_eq`, by induction on the point); then what a last step writes back as a block of ONE function of the whole arrays
   (`flushed1_eq`), and the blocks tile the array (`cover1`). -/
import proofs.«103984_j66743791780425_2_alg».proof.Proof.Gen.KernelIdeal.Skeleton
import proofs.«103984_j66743791780425_2_alg».proof.Proof.KernelIdealFrame.Reg1
import proofs.«103984_j66743791780425_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

/-! ## The body's matrix product at an index -/

theorem lhs1_0 (i : S1024x1024.Idx) (k : dot_S1024x512_S1024x512_S1024x1024_1_1_0_0_n_n.contr.Idx) : (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs1_1 (i : S1024x1024.Idx) (k : dot_S1024x512_S1024x512_S1024x1024_1_1_0_0_n_n.contr.Idx) : (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs1_0 (i : S1024x1024.Idx) (k : dot_S1024x512_S1024x512_S1024x1024_1_1_0_0_n_n.contr.Idx) : (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs1_1 (i : S1024x1024.Idx) (k : dot_S1024x512_S1024x512_S1024x1024_1_1_0_0_n_n.contr.Idx) : (dot_S1024x512_S1024x512_S1024x1024_1_1_0_0_n_n.rhsIdx i k 1).val = (k ⟨0, by decide⟩).val :=
  dot_S1024x512_S1024x512_S1024x1024_1_1_0_0_n_n.rhsIdx_val_of_single rfl i k

/-- The product of a 1024×512 block with the transpose of a 1024×512 block, accumulated into zero, at row `p` and
    column `q`: the sum over the 512 shared coordinates. -/
theorem matmul1_apply (x0 x1 : Vec Ideal S1024x512 .bf16) (p q : Fin 1024) :
    matmul (φ₁ := .bf16) (φ₂ := .bf16) dot_S1024x512_S1024x512_S1024x1024_1_1_0_0_n_n none x0 x1 (constant (F := Ideal) S1024x1024 .f32 0x00000000#32) (ix2 p q)
      = ∑ k : Fin 512, x0 (ix2 p k) * x1 (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs1_0 _ _
    | ⟨1, _⟩ => exact (lhs1_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs1_0 _ _
    | ⟨1, _⟩ => exact (rhs1_1 _ _).trans hk)
  rw [el, er]

/-! ## The body's three payloads at an index -/

/-- The reset block is zero everywhere. -/
theorem pay1_1_apply (i : S1024x1024.Idx) : k1_pay1 (F := Ideal) i = 0 := by
  unfold k1_pay1
  simp only [shapeCast_self]
  exact Ideal.ofBits_zero_f32

/-- The accumulation step at row `p`, column `q`: the accumulator plus the 512-term product of row `p` of the input block
    with row `q` of the weight block. -/
theorem pay1_2_apply (acc : Vec Ideal S1024x1024 .f32) (x0 x1 : Vec Ideal S1024x512 .bf16) (p q : Fin 1024) :
    k1_pay2 acc x0 x1 (ix2 p q) = acc (ix2 p q) + ∑ k : Fin 512, x0 (ix2 p k) * x1 (ix2 q k) := by
  unfold k1_pay2
  simp only [shapeCast_self]
  simp only [addf_apply, matmul1_apply]

/-- The epilogue at row `p`, column `q`: the sign of the batch-normalised sum, the five rows read at column `q`.
    The arguments are in the order the body loads them. -/
theorem pay1_3_apply (acc : Vec Ideal S1024x1024 .f32) (xb xg xv xm xe : Vec Ideal S1x1024 .f32) (p q : Fin 1024) :
    k1_pay3 acc xb xg xv xm xe (ix2 p q)
      = Cert.Spec.sgn (Cert.Spec.bn (acc (ix2 p q)) (xb (ix2 0 q)) (xm (ix2 0 q)) (xg (ix2 0 q)) (xv (ix2 0 q)) (xe (ix2 0 q))) := by
  unfold k1_pay3
  simp only [shapeCast_self]
  simp only [truncf_apply, select_apply, cmpf_apply, broadcast_apply, addf_apply, mulf_apply, subf_apply,
    broadcastTo_1b_ab_apply]
  rfl

/-! ## The printed index maps -/

/-- The printed index maps, decided over the grid: with the point `t = 12·(6·i + j) + k`, the input block is (i, k), the
    weight block (j, k), the five rows' blocks (0, j), the output block (i, j). -/
theorem idx_facts1 : ∀ t : Fin cfg1.N,
    win1_0.index t (0 : Fin 2) = t.val / 72 ∧ win1_0.index t (1 : Fin 2) = t.val % 12
    ∧ win1_1.index t (0 : Fin 2) = t.val / 12 % 6 ∧ win1_1.index t (1 : Fin 2) = t.val % 12
    ∧ win1_2.index t (0 : Fin 2) = 0 ∧ win1_2.index t (1 : Fin 2) = t.val / 12 % 6
    ∧ win1_3.index t (0 : Fin 2) = 0 ∧ win1_3.index t (1 : Fin 2) = t.val / 12 % 6
    ∧ win1_4.index t (0 : Fin 2) = 0 ∧ win1_4.index t (1 : Fin 2) = t.val / 12 % 6
    ∧ win1_5.index t (0 : Fin 2) = 0 ∧ win1_5.index t (1 : Fin 2) = t.val / 12 % 6
    ∧ win1_6.index t (0 : Fin 2) = 0 ∧ win1_6.index t (1 : Fin 2) = t.val / 12 % 6
    ∧ win1_7.index t (0 : Fin 2) = t.val / 72 ∧ win1_7.index t (1 : Fin 2) = t.val / 12 % 6 :=
  (by decide +kernel : ∀ t : Fin grid1.N, _)

/-! ## The specification -/

/-- One hidden unit of the layer, from the arrays: row `r` of the input `x` against row `j` of the weights `w`, plus the
    bias, batch-normalised with column `j` of the four per-column rows (scale `g`, shift `be`, mean `mu`, variance `v`),
    then the sign. -/
def hidden1 (x : S8192x6144.Idx → EReal) (w : S6144x6144.Idx → EReal) (b g be mu v : S1x6144.Idx → EReal)
    (r : Fin 8192) (j : Fin 6144) : EReal :=
  Cert.Spec.sgn (Cert.Spec.bn (∑ k : Fin 6144, x (ix2 r k) * w (ix2 j k)) (b (ix2 0 j)) (mu (ix2 0 j)) (g (ix2 0 j)) (v (ix2 0 j)) (be (ix2 0 j)))

/-- The term of the contraction at shared coordinate `k`, over natural-number coordinates (zero off the arrays). -/
def term1 (x : S8192x6144.Idx → EReal) (w : S6144x6144.Idx → EReal) (r j k : ℕ) : EReal :=
  if h : r < 8192 ∧ j < 6144 ∧ k < 6144 then x (ix2 ⟨r, h.1⟩ ⟨k, h.2.2⟩) * w (ix2 ⟨j, h.2.1⟩ ⟨k, h.2.2⟩) else 0

/-- All 6144 terms are the unit's contraction. -/
theorem term1_sum (x : S8192x6144.Idx → EReal) (w : S6144x6144.Idx → EReal) (r : Fin 8192) (j : Fin 6144) :
    ∑ k ∈ Finset.range 6144, term1 x w r.val j.val k = ∑ k : Fin 6144, x (ix2 r k) * w (ix2 j k) := by
  rw [← Fin.sum_univ_eq_sum_range (fun k => term1 x w r.val j.val k) 6144]
  refine Finset.sum_congr rfl fun k _ => ?_
  unfold term1
  rw [dif_pos ⟨r.isLt, j.isLt, k.isLt⟩]

variable (V : (c : Dev nD) → (b : Ref sig .tc) → Buf (Elt Ideal) ((c : Thread nD τ).loc b))

/-- What the output array ends holding: the unit of its row and column, at every index, over the arrays as the region
    finds them. -/
def layer1 (c : Dev nD) : S8192x6144.Idx → EReal := fun i => hidden1 (V c main_v20) (V c main_v8) (V c main_v21) (V c main_v22) (V c main_v23) (V c main_v24) (V c main_v25) (i 0) (i 1)

/-! ## The blocks read off the arrays -/

/-- The row and the column of the array that element `(p, q)` of point `t`'s output block sits at. -/
abbrev rowAt1 (t : Fin cfg1.N) (p q : Fin 1024) : Fin 8192 := ((cfg1.win 7).blk t).view.emb (ix2 p q) 0
abbrev colAt1 (t : Fin cfg1.N) (p q : Fin 1024) : Fin 6144 := ((cfg1.win 7).blk t).view.emb (ix2 p q) 1
theorem rowAt1_val (t : Fin cfg1.N) (p q : Fin 1024) : (rowAt1 t p q).val = 1024 * (t.val / 72) + p.val := by
  show win1_7.index t (0 : Fin 2) * 1024 + 1 * p.val = _
  obtain ⟨-, -, -, -, -, -, -, -, -, -, -, -, -, -, e0, e1⟩ := idx_facts1 t
  omega
theorem colAt1_val (t : Fin cfg1.N) (p q : Fin 1024) : (colAt1 t p q).val = 1024 * (t.val / 12 % 6) + q.val := by
  show win1_7.index t (1 : Fin 2) * 1024 + 1 * q.val = _
  obtain ⟨-, -, -, -, -, -, -, -, -, -, -, -, -, -, e0, e1⟩ := idx_facts1 t
  omega

/-- The input block at point `t`, at `(p, k)`: the input array at the output block's row and the point's stretch of the
    shared coordinate. -/
theorem read1_0 (c : Dev nD) (t : Fin cfg1.N) (p : Fin 1024) (k : Fin 512) (r : Fin 8192) (n : Fin 6144)
    (hr : r.val = 1024 * (t.val / 72) + p.val) (hn : n.val = 512 * (t.val % 12) + k.val) :
    iblk1 V c 0 t (ix2 p k) = (V c main_v20 : S8192x6144.Idx → EReal) (ix2 r n) := by
  show (V c main_v20 : S8192x6144.Idx → EReal) (((cfg1.win 0).blk t).view.emb (ix2 p k)) = _
  refine congrArg _ ?_
  obtain ⟨e0, e1, -⟩ := idx_facts1 t
  funext a; apply Fin.ext
  match a with
  | ⟨0, _⟩ => show win1_0.index t (0 : Fin 2) * 1024 + 1 * p.val = r.val; omega
  | ⟨1, _⟩ => show win1_0.index t (1 : Fin 2) * 512 + 1 * k.val = n.val; omega

/-- The weight block at point `t`, at `(q, k)`: the weight array at the output block's column and the same stretch. -/
theorem read1_1 (c : Dev nD) (t : Fin cfg1.N) (q : Fin 1024) (k : Fin 512) (j : Fin 6144) (n : Fin 6144)
    (hj : j.val = 1024 * (t.val / 12 % 6) + q.val) (hn : n.val = 512 * (t.val % 12) + k.val) :
    iblk1 V c 1 t (ix2 q k) = (V c main_v8 : S6144x6144.Idx → EReal) (ix2 j n) := by
  show (V c main_v8 : S6144x6144.Idx → EReal) (((cfg1.win 1).blk t).view.emb (ix2 q k)) = _
  refine congrArg _ ?_
  obtain ⟨-, -, e0, e1, -⟩ := idx_facts1 t
  funext a; apply Fin.ext
  match a with
  | ⟨0, _⟩ => show win1_1.index t (0 : Fin 2) * 1024 + 1 * q.val = j.val; omega
  | ⟨1, _⟩ => show win1_1.index t (1 : Fin 2) * 512 + 1 * k.val = n.val; omega

/-- Window 2's block at point `t` holds the columns of its one-row array that the output block's columns are. -/
theorem read1_2 (c : Dev nD) (t : Fin cfg1.N) (p q : Fin 1024) :
    iblk1 V c 2 t (ix2 0 q) = (V c main_v21 : S1x6144.Idx → EReal) (ix2 0 (colAt1 t p q)) := by
  show (V c main_v21 : S1x6144.Idx → EReal) (((cfg1.win 2).blk t).view.emb (ix2 0 q)) = _
  refine congrArg _ ?_
  obtain ⟨-, -, -, -, e0, e1, -⟩ := idx_facts1 t
  have hc := colAt1_val t p q
  funext a; apply Fin.ext
  match a with
  | ⟨0, _⟩ => show win1_2.index t (0 : Fin 2) * 1 + 1 * 0 = 0; omega
  | ⟨1, _⟩ => show win1_2.index t (1 : Fin 2) * 1024 + 1 * q.val = (colAt1 t p q).val; omega

/-- Window 3's block at point `t` holds the columns of its one-row array that the output block's columns are. -/
theorem read1_3 (c : Dev nD) (t : Fin cfg1.N) (p q : Fin 1024) :
    iblk1 V c 3 t (ix2 0 q) = (V c main_v22 : S1x6144.Idx → EReal) (ix2 0 (colAt1 t p q)) := by
  show (V c main_v22 : S1x6144.Idx → EReal) (((cfg1.win 3).blk t).view.emb (ix2 0 q)) = _
  refine congrArg _ ?_
  obtain ⟨-, -, -, -, -, -, e0, e1, -⟩ := idx_facts1 t
  have hc := colAt1_val t p q
  funext a; apply Fin.ext
  match a with
  | ⟨0, _⟩ => show win1_3.index t (0 : Fin 2) * 1 + 1 * 0 = 0; omega
  | ⟨1, _⟩ => show win1_3.index t (1 : Fin 2) * 1024 + 1 * q.val = (colAt1 t p q).val; omega

/-- Window 4's block at point `t` holds the columns of its one-row array that the output block's columns are. -/
theorem read1_4 (c : Dev nD) (t : Fin cfg1.N) (p q : Fin 1024) :
    iblk1 V c 4 t (ix2 0 q) = (V c main_v23 : S1x6144.Idx → EReal) (ix2 0 (colAt1 t p q)) := by
  show (V c main_v23 : S1x6144.Idx → EReal) (((cfg1.win 4).blk t).view.emb (ix2 0 q)) = _
  refine congrArg _ ?_
  obtain ⟨-, -, -, -, -, -, -, -, e0, e1, -⟩ := idx_facts1 t
  have hc := colAt1_val t p q
  funext a; apply Fin.ext
  match a with
  | ⟨0, _⟩ => show win1_4.index t (0 : Fin 2) * 1 + 1 * 0 = 0; omega
  | ⟨1, _⟩ => show win1_4.index t (1 : Fin 2) * 1024 + 1 * q.val = (colAt1 t p q).val; omega

/-- Window 5's block at point `t` holds the columns of its one-row array that the output block's columns are. -/
theorem read1_5 (c : Dev nD) (t : Fin cfg1.N) (p q : Fin 1024) :
    iblk1 V c 5 t (ix2 0 q) = (V c main_v24 : S1x6144.Idx → EReal) (ix2 0 (colAt1 t p q)) := by
  show (V c main_v24 : S1x6144.Idx → EReal) (((cfg1.win 5).blk t).view.emb (ix2 0 q)) = _
  refine congrArg _ ?_
  obtain ⟨-, -, -, -, -, -, -, -, -, -, e0, e1, -⟩ := idx_facts1 t
  have hc := colAt1_val t p q
  funext a; apply Fin.ext
  match a with
  | ⟨0, _⟩ => show win1_5.index t (0 : Fin 2) * 1 + 1 * 0 = 0; omega
  | ⟨1, _⟩ => show win1_5.index t (1 : Fin 2) * 1024 + 1 * q.val = (colAt1 t p q).val; omega

/-- Window 6's block at point `t` holds the columns of its one-row array that the output block's columns are. -/
theorem read1_6 (c : Dev nD) (t : Fin cfg1.N) (p q : Fin 1024) :
    iblk1 V c 6 t (ix2 0 q) = (V c main_v25 : S1x6144.Idx → EReal) (ix2 0 (colAt1 t p q)) := by
  show (V c main_v25 : S1x6144.Idx → EReal) (((cfg1.win 6).blk t).view.emb (ix2 0 q)) = _
  refine congrArg _ ?_
  obtain ⟨-, -, -, -, -, -, -, -, -, -, -, -, e0, e1, -⟩ := idx_facts1 t
  have hc := colAt1_val t p q
  funext a; apply Fin.ext
  match a with
  | ⟨0, _⟩ => show win1_6.index t (0 : Fin 2) * 1 + 1 * 0 = 0; omega
  | ⟨1, _⟩ => show win1_6.index t (1 : Fin 2) * 1024 + 1 * q.val = (colAt1 t p q).val; omega

/-- The product the body adds at point `t`, entry `(p, q)`, term by term: the contraction's terms on the point's stretch. -/
theorem step1_eq (c : Dev nD) (t : Fin cfg1.N) (x0 x1 : S1024x512.Idx → EReal) (hx0 : x0 = iblk1 V c 0 t) (hx1 : x1 = iblk1 V c 1 t) (p q : Fin 1024) :
    ∑ k : Fin 512, x0 (ix2 p k) * x1 (ix2 q k)
      = ∑ k ∈ Finset.range 512, term1 (V c main_v20) (V c main_v8) (1024 * (t.val / 72) + p.val) (1024 * (t.val / 12 % 6) + q.val) (512 * (t.val % 12) + k) := by
  have hN : t.val < 576 := lt_of_lt_of_eq t.isLt N_1
  rw [← Fin.sum_univ_eq_sum_range (fun k => term1 (V c main_v20) (V c main_v8) (1024 * (t.val / 72) + p.val) (1024 * (t.val / 12 % 6) + q.val) (512 * (t.val % 12) + k)) 512]
  refine Finset.sum_congr rfl fun k _ => ?_
  have hk : k.val < 512 := k.isLt
  have hp : p.val < 1024 := p.isLt
  have hq : q.val < 1024 := q.isLt
  unfold term1
  rw [dif_pos ⟨by omega, by omega, by omega⟩]
  exact congrArg₂ (· * ·) ((congrFun hx0 (ix2 p k)).trans (read1_0 V c t p k ⟨1024 * (t.val / 72) + p.val, by omega⟩ ⟨512 * (t.val % 12) + k.val, by omega⟩ rfl rfl))
    ((congrFun hx1 (ix2 q k)).trans (read1_1 V c t q k ⟨1024 * (t.val / 12 % 6) + q.val, by omega⟩ ⟨512 * (t.val % 12) + k.val, by omega⟩ rfl rfl))

/-! ## The accumulator, point by point -/

/-- THE PARTIAL SUM. After the body at point `n = 12·(6·i + j) + k` the accumulator holds, at `(p, q)`, the contraction's
    terms below `512·(k + 1)` for row `1024·i + p` and column `1024·j + q`: by induction on the point — at a first step
    the zero block plus the step's product, at a later step the step before's sum plus it. -/
theorem acc1_eq (c : Dev nD) : ∀ (n : ℕ) (hn : n < cfg1.N) (p q : Fin 1024),
    acc1 V c n hn (ix2 p q)
      = ∑ k ∈ Finset.range (512 * (n % 12 + 1)), term1 (V c main_v20) (V c main_v8) (1024 * (n / 72) + p.val) (1024 * (n / 12 % 6) + q.val) k := by
  intro n
  induction n using Nat.strong_induction_on with
  | _ n ih =>
    intro hn p q
    have hN : n < 576 := lt_of_lt_of_eq hn N_1
    by_cases h0 : n % 12 = 0
    · refine (congrFun (acc1_reset V c ⟨n, hn⟩ h0) (ix2 p q)).trans ?_
      refine (pay1_2_apply (k1_pay1 (F := Ideal)) (iblk1 V c 0 ⟨n, hn⟩) (iblk1 V c 1 ⟨n, hn⟩) p q).trans ?_
      refine (congrArg₂ (· + ·) (pay1_1_apply (ix2 p q)) (step1_eq V c ⟨n, hn⟩ (iblk1 V c 0 ⟨n, hn⟩) (iblk1 V c 1 ⟨n, hn⟩) rfl rfl p q)).trans ?_
      rw [zero_add]
      show ∑ k ∈ Finset.range 512, term1 _ _ _ _ (512 * (n % 12) + k) = _
      rw [h0]
      simp only [Nat.mul_zero, Nat.zero_add, Nat.mul_one]
    · refine (congrFun (acc1_step V c ⟨n, hn⟩ h0) (ix2 p q)).trans ?_
      refine (pay1_2_apply (acc1 V c (n - 1) (Nat.lt_of_le_of_lt (Nat.sub_le _ _) hn)) (iblk1 V c 0 ⟨n, hn⟩) (iblk1 V c 1 ⟨n, hn⟩) p q).trans ?_
      refine (congrArg₂ (· + ·) (ih (n - 1) (by omega) (Nat.lt_of_le_of_lt (Nat.sub_le _ _) hn) p q) (step1_eq V c ⟨n, hn⟩ (iblk1 V c 0 ⟨n, hn⟩) (iblk1 V c 1 ⟨n, hn⟩) rfl rfl p q)).trans ?_
      show _ + ∑ k ∈ Finset.range 512, term1 _ _ (1024 * (n / 72) + p.val) (1024 * (n / 12 % 6) + q.val) (512 * (n % 12) + k) = _
      have e1 : (n - 1) / 72 = n / 72 := by omega
      have e2 : (n - 1) / 12 % 6 = n / 12 % 6 := by omega
      have e3 : (n - 1) % 12 + 1 = n % 12 := by omega
      rw [e1, e2, e3, show 512 * (n % 12 + 1) = 512 * (n % 12) + 512 from by omega, Finset.sum_range_add]

/-! ## From blocks to the array -/

/-- A block of stored values is a given block when it is so index by index. -/
theorem out1_eq_of_forall (c : Dev nD) (t : Fin cfg1.N) (B : S1024x1024.Idx → EReal)
    (h : ∀ (p q : Fin 1024), out1 V c t (ix2 p q) = B (ix2 p q)) : out1 V c t = B := by
  funext y
  obtain ⟨p, q, rfl⟩ : ∃ (p q : Fin 1024), y = ix2 p q := ⟨y 0, y 1, eq_ix2 y⟩
  exact h p q

/-- What a last step `t` stores at `(p, q)` of the output block: the unit of the row and column that entry sits at. -/
theorem out1_apply (c : Dev nD) (t : Fin cfg1.N) (h11 : t.val % 12 = 11) (p q : Fin 1024) :
    out1 V c t (ix2 p q) = hidden1 (V c main_v20) (V c main_v8) (V c main_v21) (V c main_v22) (V c main_v23) (V c main_v24) (V c main_v25) (rowAt1 t p q) (colAt1 t p q) := by
  refine (pay1_3_apply (acc1 V c t.val t.isLt) (iblk1 V c 2 t) (iblk1 V c 3 t) (iblk1 V c 6 t) (iblk1 V c 5 t) (iblk1 V c 4 t) p q).trans ?_
  rw [acc1_eq V c t.val t.isLt p q, h11, ← rowAt1_val t p q, ← colAt1_val t p q]
  rw [show 512 * (11 + 1) = 6144 from rfl, term1_sum]
  rw [read1_2 V c t p q, read1_3 V c t p q, read1_4 V c t p q, read1_5 V c t p q, read1_6 V c t p q]
  rfl

/-- What a last step `t` writes back is block `t` of `layer1` of the arrays as the region finds them. -/
theorem flushed1_eq (c : Dev nD) (t : Fin cfg1.N) (hf : (cfg1.win 7).flush t = true) :
    (dat1 V c).flushed 7 t = ((cfg1.win 7).blk t).view.read (Elt Ideal) (layer1 V c) := by
  have h11 : t.val % 12 = 11 := (flush1_7 t).mp hf
  show (cfg1.win 7).cut (grid1.coords t) ((dat1 V c).after 7 t) = _
  rw [after1_7]
  refine out1_eq_of_forall V c t _ fun p q => ?_
  rw [out1_apply V c t h11 p q]
  rfl

/-- An index of the array is in point `t`'s block iff each coordinate is in the block's range on its axis. -/
theorem mem_blk1 (t : Fin cfg1.N) (i : S8192x6144.Idx) :
    i ∈ ((cfg1.win 7).blk t).view.set ↔ ∀ a : Fin 2, win1_7.index t a * S1024x1024.size a ≤ (i a).val ∧ (i a).val < win1_7.index t a * S1024x1024.size a + S1024x1024.size a := by
  show i ∈ ((View.whole main_v26).slice (win1_7.rect t)).set ↔ _
  rw [View.set_slice_whole, Rect.mem_set_unit]
  exact Iff.rfl

/-- Every index of the array is in some last step's block: the step whose output block holds the row and the column. -/
theorem cover1 (i : S8192x6144.Idx) : ∃ t : Fin cfg1.N, (cfg1.win 7).flush t = true ∧ i ∈ ((cfg1.win 7).blk t).view.set := by
  have hi0 : (i 0).val < 8192 := (i 0).isLt
  have hi1 : (i 1).val < 6144 := (i 1).isLt
  have hlt : 12 * (6 * ((i 0).val / 1024) + (i 1).val / 1024) + 11 < cfg1.N := by
    rw [show cfg1.N = 576 from N_1]; omega
  refine ⟨⟨12 * (6 * ((i 0).val / 1024) + (i 1).val / 1024) + 11, hlt⟩, (flush1_7 _).mpr (by show (12 * (6 * ((i 0).val / 1024) + (i 1).val / 1024) + 11) % 12 = 11; omega), ?_⟩
  rw [mem_blk1]
  obtain ⟨-, -, -, -, -, -, -, -, -, -, -, -, -, -, e0, e1⟩ := idx_facts1 ⟨12 * (6 * ((i 0).val / 1024) + (i 1).val / 1024) + 11, hlt⟩
  intro a
  match a with
  | ⟨0, _⟩ =>
    show win1_7.index _ (0 : Fin 2) * 1024 ≤ (i 0).val ∧ (i 0).val < win1_7.index _ (0 : Fin 2) * 1024 + 1024
    rw [e0]; show (12 * (6 * ((i 0).val / 1024) + (i 1).val / 1024) + 11) / 72 * 1024 ≤ (i 0).val ∧ (i 0).val < (12 * (6 * ((i 0).val / 1024) + (i 1).val / 1024) + 11) / 72 * 1024 + 1024
    omega
  | ⟨1, _⟩ =>
    show win1_7.index _ (1 : Fin 2) * 1024 ≤ (i 1).val ∧ (i 1).val < win1_7.index _ (1 : Fin 2) * 1024 + 1024
    rw [e1]; show (12 * (6 * ((i 0).val / 1024) + (i 1).val / 1024) + 11) / 12 % 6 * 1024 ≤ (i 1).val ∧ (i 1).val < (12 * (6 * ((i 0).val / 1024) + (i 1).val / 1024) + 11) / 12 % 6 * 1024 + 1024
    omega

/-- The output array after the region: `layer1` of the arrays as the region finds them, everywhere. -/
theorem arr1 (c : Dev nD) : (dat1 V c).arrAt 7 cfg1.N = layer1 V c :=
  (dat1 V c).arrAt_eq_of_cover 7 (layer1 V c) (fun t hf => flushed1_eq V c t hf) cover1

/-- The output array after the region, at row `r` and column `j`. -/
theorem final1 (c : Dev nD) (r : Fin 8192) (j : Fin 6144) :
    (dat1 (F := Ideal) V c).arrAt 7 cfg1.N (ix2 r j) = hidden1 (V c main_v20) (V c main_v8) (V c main_v21) (V c main_v22) (V c main_v23) (V c main_v24) (V c main_v25) r j := by
  rw [arr1]; rfl

end Cert.KernelIdeal.FrameValue

end
-- ==== Proof.KernelIdealValue.Val0.lean ====
/- The VALUE of region 0 at the ideal reals: after the region, the first layer's output array holds, at row `r` and
   column `j`, the sign of the batch-normalised pre-activation of unit `j` on input row `r` (`final0`). First the body's
   stored value at an index of its block, over arbitrary loaded blocks (`pay0_apply`: the matrix product as a sum over
   the 784 shared coordinates, the per-column rows broadcast down the block); then what a grid point writes back as a
   block of ONE function of the whole arrays (`flushed0_eq`: a block's coordinate in its array is the block index
   times the block's extent plus the coordinate inside the block); then the blocks tile the array (`cover0`). -/
import proofs.«103984_j66743791780425_2_alg».proof.Proof.KernelIdealFrame.Reg0
import proofs.«103984_j66743791780425_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

/-! ## The body's matrix product at an index -/

theorem lhs0_0 (i : S1024x512.Idx) (k : dot_S1024x784_S512x784_S1024x512_1_1_0_0_n_n.contr.Idx) : (dot_S1024x784_S512x784_S1024x512_1_1_0_0_n_n.lhsIdx i k 0).val = (i 0).val := by
  unfold DotDims.lhsIdx
  rw [dif_neg (show ¬(0 : Fin S1024x784.rank) ∈ dot_S1024x784_S512x784_S1024x512_1_1_0_0_n_n.lhsBatch by decide), dif_pos (show (0 : Fin S1024x784.rank) ∈ dot_S1024x784_S512x784_S1024x512_1_1_0_0_n_n.lhsNonContracting by decide)]
  rfl
theorem lhs0_1 (i : S1024x512.Idx) (k : dot_S1024x784_S512x784_S1024x512_1_1_0_0_n_n.contr.Idx) : (dot_S1024x784_S512x784_S1024x512_1_1_0_0_n_n.lhsIdx i k 1).val = (k ⟨0, by decide⟩).val :=
  dot_S1024x784_S512x784_S1024x512_1_1_0_0_n_n.lhsIdx_val_of_single rfl i k
theorem rhs0_0 (i : S1024x512.Idx) (k : dot_S1024x784_S512x784_S1024x512_1_1_0_0_n_n.contr.Idx) : (dot_S1024x784_S512x784_S1024x512_1_1_0_0_n_n.rhsIdx i k 0).val = (i 1).val := by
  unfold DotDims.rhsIdx
  rw [dif_neg (show ¬(0 : Fin S512x784.rank) ∈ dot_S1024x784_S512x784_S1024x512_1_1_0_0_n_n.rhsBatch by decide), dif_pos (show (0 : Fin S512x784.rank) ∈ dot_S1024x784_S512x784_S1024x512_1_1_0_0_n_n.rhsNonContracting by decide)]
  rfl
theorem rhs0_1 (i : S1024x512.Idx) (k : dot_S1024x784_S512x784_S1024x512_1_1_0_0_n_n.contr.Idx) : (dot_S1024x784_S512x784_S1024x512_1_1_0_0_n_n.rhsIdx i k 1).val = (k ⟨0, by decide⟩).val :=
  dot_S1024x784_S512x784_S1024x512_1_1_0_0_n_n.rhsIdx_val_of_single rfl i k

/-- The product of a 1024×784 block with the transpose of a 512×784 block, accumulated into zero, at row `p` and
    column `q`: the sum over the 784 shared coordinates. -/
theorem matmul0_apply (x0 : Vec Ideal S1024x784 .f32) (x1 : Vec Ideal S512x784 .f32) (p : Fin 1024) (q : Fin 512) :
    matmul (φ₁ := .f32) (φ₂ := .f32) dot_S1024x784_S512x784_S1024x512_1_1_0_0_n_n (some .fp32) x0 x1 (constant (F := Ideal) S1024x512 .f32 0x00000000#32) (ix2 p q)
      = ∑ k : Fin 784, x0 (ix2 p k) * x1 (ix2 q k) := by
  simp only [matmul]
  rw [Ideal.matmul_constant_zero_apply, ← Equiv.sum_comp (contrEquiv1 dot_S1024x784_S512x784_S1024x512_1_1_0_0_n_n 784 rfl rfl).symm]
  refine Finset.sum_congr rfl fun k _ => ?_
  have hk := contrEquiv1_symm_val dot_S1024x784_S512x784_S1024x512_1_1_0_0_n_n 784 rfl rfl k
  have el : dot_S1024x784_S512x784_S1024x512_1_1_0_0_n_n.lhsIdx (ix2 p q) ((contrEquiv1 dot_S1024x784_S512x784_S1024x512_1_1_0_0_n_n 784 rfl rfl).symm k) = ix2 p k := funext fun a => Fin.ext (by
    match a with
    | ⟨0, _⟩ => exact lhs0_0 _ _
    | ⟨1, _⟩ => exact (lhs0_1 _ _).trans hk)
  have er : dot_S1024x784_S512x784_S1024x512_1_1_0_0_n_n.rhsIdx (ix2 p q) ((contrEquiv1 dot_S1024x784_S512x784_S1024x512_1_1_0_0_n_n 784 rfl rfl).symm k) = ix2 q k := funext fun a => Fin.ext (by
    match a with
    | ⟨0, _⟩ => exact rhs0_0 _ _
    | ⟨1, _⟩ => exact (rhs0_1 _ _).trans hk)
  rw [el, er]

/-! ## The body's payload at an index -/

/-- The value the body stores at row `p`, column `q` of its output block, from the blocks it loaded: the sign of
    the batch-normalised pre-activation. The arguments are in the order the body loads them. -/
theorem pay0_apply (x0 : Vec Ideal S1024x784 .f32) (x1 : Vec Ideal S512x784 .f32) (xb xg xv xm xe : Vec Ideal S1x512 .f32)
    (p : Fin 1024) (q : Fin 512) :
    k0_pay1 x0 x1 xb xg xv xm xe (ix2 p q)
      = Cert.Spec.sgn (Cert.Spec.bn (∑ k : Fin 784, x0 (ix2 p k) * x1 (ix2 q k)) (xb (ix2 0 q)) (xm (ix2 0 q)) (xg (ix2 0 q)) (xv (ix2 0 q)) (xe (ix2 0 q))) := by
  unfold k0_pay1
  simp only [shapeCast_self]
  simp only [truncf_apply, select_apply, cmpf_apply, broadcast_apply, addf_apply, mulf_apply, subf_apply,
    broadcastTo_1b_ab_apply, matmul0_apply]
  rfl

/-! ## From blocks to the array -/

theorem hz0 : (![0, 0] : Fin 2 → Nat) = fun _ => 0 := funext fun a => by fin_cases a <;> rfl

/-- The printed index maps, decided over the grid: the input rows move with the output's row block, the weight rows
    and the five per-column rows with its column block, and no input block moves on its other axis. -/
theorem idx_facts0 : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_7.index t (0 : Fin 2) ≤ 7 ∧ win0_7.index t (1 : Fin 2) ≤ 11 :=
  (by decide +kernel : ∀ t : Fin grid0.N, _)

/-- Every block of the output array is some point's. -/
theorem idx_onto0 : ∀ (q0 : Fin 8) (q1 : Fin 12), ∃ t : Fin cfg0.N, win0_7.index t = ![q0.val, q1.val] :=
  (by decide +kernel : ∀ (q0 : Fin 8) (q1 : Fin 12), ∃ t : Fin grid0.N, win0_7.index t = ![q0.val, q1.val])

/-- One hidden unit of the first layer, from the arrays: row `r` of the input `x` against row `j` of the weights `w`,
    plus the bias, batch-normalised with column `j` of the four per-column rows (scale `g`, shift `be`, mean `mu`,
    variance `v`), then the sign. -/
def hidden (x : S8192x784.Idx → EReal) (w : S6144x784.Idx → EReal) (b g be mu v : S1x6144.Idx → EReal)
    (r : Fin 8192) (j : Fin 6144) : EReal :=
  Cert.Spec.sgn (Cert.Spec.bn (∑ k : Fin 784, x (ix2 r k) * w (ix2 j k)) (b (ix2 0 j)) (mu (ix2 0 j)) (g (ix2 0 j)) (v (ix2 0 j)) (be (ix2 0 j)))

variable (V : (c : Dev nD) → (b : Ref sig .tc) → Buf (Elt Ideal) ((c : Thread nD τ).loc b))

/-- What the output array ends holding: the unit of its row and column, at every index, over the arrays as the region
    finds them. -/
def layer0 (c : Dev nD) : S8192x6144.Idx → EReal := fun i => hidden (V c main_arg0) (V c main_v3) (V c main_v15) (V c main_v16) (V c main_v17) (V c main_v18) (V c main_v19) (i 0) (i 1)

/-- The row and the column of the array that element `(p, q)` of point `t`'s output block sits at. -/
abbrev rowAt (t : Fin cfg0.N) (p : Fin 1024) (q : Fin 512) : Fin 8192 := ((cfg0.win 7).blk t).view.emb (ix2 p q) 0
abbrev colAt (t : Fin cfg0.N) (p : Fin 1024) (q : Fin 512) : Fin 6144 := ((cfg0.win 7).blk t).view.emb (ix2 p q) 1
theorem rowAt_val (t : Fin cfg0.N) (p : Fin 1024) (q : Fin 512) : (rowAt t p q).val = win0_7.index t (0 : Fin 2) * 1024 + 1 * p.val := rfl
theorem colAt_val (t : Fin cfg0.N) (p : Fin 1024) (q : Fin 512) : (colAt t p q).val = win0_7.index t (1 : Fin 2) * 512 + 1 * q.val := rfl

/-- The input block at point `t` holds the rows of the input array that the output block's rows are. -/
theorem read0_0 (c : Dev nD) (t : Fin cfg0.N) (p : Fin 1024) (q : Fin 512) (k : Fin 784) :
    iblk0 V c 0 t (ix2 p k) = (V c main_arg0 : S8192x784.Idx → EReal) (ix2 (rowAt t p q) k) := by
  show (V c main_arg0 : S8192x784.Idx → EReal) (((cfg0.win 0).blk t).view.emb (ix2 p k)) = _
  refine congrArg _ ?_
  obtain ⟨e0, e1, -⟩ := idx_facts0 t
  funext a; apply Fin.ext
  match a with
  | ⟨0, _⟩ => show win0_0.index t (0 : Fin 2) * 1024 + 1 * p.val = (rowAt t p q).val; rw [rowAt_val]; omega
  | ⟨1, _⟩ => show win0_0.index t (1 : Fin 2) * 784 + 1 * k.val = k.val; omega

/-- The weight block at point `t` holds the rows of the weight array that the output block's columns are. -/
theorem read0_1 (c : Dev nD) (t : Fin cfg0.N) (p : Fin 1024) (q : Fin 512) (k : Fin 784) :
    iblk0 V c 1 t (ix2 q k) = (V c main_v3 : S6144x784.Idx → EReal) (ix2 (colAt t p q) k) := by
  show (V c main_v3 : S6144x784.Idx → EReal) (((cfg0.win 1).blk t).view.emb (ix2 q k)) = _
  refine congrArg _ ?_
  obtain ⟨-, -, e0, e1, -⟩ := idx_facts0 t
  funext a; apply Fin.ext
  match a with
  | ⟨0, _⟩ => show win0_1.index t (0 : Fin 2) * 512 + 1 * q.val = (colAt t p q).val; rw [colAt_val]; omega
  | ⟨1, _⟩ => show win0_1.index t (1 : Fin 2) * 784 + 1 * k.val = k.val; omega

/-- Window 2's block at point `t` holds the columns of its one-row array that the output block's columns are. -/
theorem read0_2 (c : Dev nD) (t : Fin cfg0.N) (p : Fin 1024) (q : Fin 512) :
    iblk0 V c 2 t (ix2 0 q) = (V c main_v15 : S1x6144.Idx → EReal) (ix2 0 (colAt t p q)) := by
  show (V c main_v15 : S1x6144.Idx → EReal) (((cfg0.win 2).blk t).view.emb (ix2 0 q)) = _
  refine congrArg _ ?_
  obtain ⟨-, -, -, -, e0, e1, -⟩ := idx_facts0 t
  funext a; apply Fin.ext
  match a with
  | ⟨0, _⟩ => show win0_2.index t (0 : Fin 2) * 1 + 1 * 0 = 0; omega
  | ⟨1, _⟩ => show win0_2.index t (1 : Fin 2) * 512 + 1 * q.val = (colAt t p q).val; rw [colAt_val]; omega

/-- Window 3's block at point `t` holds the columns of its one-row array that the output block's columns are. -/
theorem read0_3 (c : Dev nD) (t : Fin cfg0.N) (p : Fin 1024) (q : Fin 512) :
    iblk0 V c 3 t (ix2 0 q) = (V c main_v16 : S1x6144.Idx → EReal) (ix2 0 (colAt t p q)) := by
  show (V c main_v16 : S1x6144.Idx → EReal) (((cfg0.win 3).blk t).view.emb (ix2 0 q)) = _
  refine congrArg _ ?_
  obtain ⟨-, -, -, -, -, -, e0, e1, -⟩ := idx_facts0 t
  funext a; apply Fin.ext
  match a with
  | ⟨0, _⟩ => show win0_3.index t (0 : Fin 2) * 1 + 1 * 0 = 0; omega
  | ⟨1, _⟩ => show win0_3.index t (1 : Fin 2) * 512 + 1 * q.val = (colAt t p q).val; rw [colAt_val]; omega

/-- Window 4's block at point `t` holds the columns of its one-row array that the output block's columns are. -/
theorem read0_4 (c : Dev nD) (t : Fin cfg0.N) (p : Fin 1024) (q : Fin 512) :
    iblk0 V c 4 t (ix2 0 q) = (V c main_v17 : S1x6144.Idx → EReal) (ix2 0 (colAt t p q)) := by
  show (V c main_v17 : S1x6144.Idx → EReal) (((cfg0.win 4).blk t).view.emb (ix2 0 q)) = _
  refine congrArg _ ?_
  obtain ⟨-, -, -, -, -, -, -, -, e0, e1, -⟩ := idx_facts0 t
  funext a; apply Fin.ext
  match a with
  | ⟨0, _⟩ => show win0_4.index t (0 : Fin 2) * 1 + 1 * 0 = 0; omega
  | ⟨1, _⟩ => show win0_4.index t (1 : Fin 2) * 512 + 1 * q.val = (colAt t p q).val; rw [colAt_val]; omega

/-- Window 5's block at point `t` holds the columns of its one-row array that the output block's columns are. -/
theorem read0_5 (c : Dev nD) (t : Fin cfg0.N) (p : Fin 1024) (q : Fin 512) :
    iblk0 V c 5 t (ix2 0 q) = (V c main_v18 : S1x6144.Idx → EReal) (ix2 0 (colAt t p q)) := by
  show (V c main_v18 : S1x6144.Idx → EReal) (((cfg0.win 5).blk t).view.emb (ix2 0 q)) = _
  refine congrArg _ ?_
  obtain ⟨-, -, -, -, -, -, -, -, -, -, e0, e1, -⟩ := idx_facts0 t
  funext a; apply Fin.ext
  match a with
  | ⟨0, _⟩ => show win0_5.index t (0 : Fin 2) * 1 + 1 * 0 = 0; omega
  | ⟨1, _⟩ => show win0_5.index t (1 : Fin 2) * 512 + 1 * q.val = (colAt t p q).val; rw [colAt_val]; omega

/-- Window 6's block at point `t` holds the columns of its one-row array that the output block's columns are. -/
theorem read0_6 (c : Dev nD) (t : Fin cfg0.N) (p : Fin 1024) (q : Fin 512) :
    iblk0 V c 6 t (ix2 0 q) = (V c main_v19 : S1x6144.Idx → EReal) (ix2 0 (colAt t p q)) := by
  show (V c main_v19 : S1x6144.Idx → EReal) (((cfg0.win 6).blk t).view.emb (ix2 0 q)) = _
  refine congrArg _ ?_
  obtain ⟨-, -, -, -, -, -, -, -, -, -, -, -, e0, e1, -⟩ := idx_facts0 t
  funext a; apply Fin.ext
  match a with
  | ⟨0, _⟩ => show win0_6.index t (0 : Fin 2) * 1 + 1 * 0 = 0; omega
  | ⟨1, _⟩ => show win0_6.index t (1 : Fin 2) * 512 + 1 * q.val = (colAt t p q).val; rw [colAt_val]; omega

/-- A block of stored values is a given block when it is so index by index. -/
theorem pay0_eq_of_forall (x0 : Vec Ideal S1024x784 .f32) (x1 : Vec Ideal S512x784 .f32) (xb xg xv xm xe : Vec Ideal S1x512 .f32)
    (B : S1024x512.Idx → EReal)
    (h : ∀ (p : Fin 1024) (q : Fin 512), Cert.Spec.sgn (Cert.Spec.bn (∑ k : Fin 784, x0 (ix2 p k) * x1 (ix2 q k)) (xb (ix2 0 q)) (xm (ix2 0 q)) (xg (ix2 0 q)) (xv (ix2 0 q)) (xe (ix2 0 q))) = B (ix2 p q)) :
    k0_pay1 x0 x1 xb xg xv xm xe = B := by
  funext y
  obtain ⟨p, q, rfl⟩ : ∃ (p : Fin 1024) (q : Fin 512), y = ix2 p q := ⟨y 0, y 1, eq_ix2 y⟩
  rw [pay0_apply]; exact h p q

/-- What point `t` writes back is block `t` of `layer0` of the arrays as the region finds them. -/
theorem flushed0_eq (c : Dev nD) (t : Fin cfg0.N) :
    (dat0 V c).flushed 7 t = ((cfg0.win 7).blk t).view.read (Elt Ideal) (layer0 V c) := by
  show (cfg0.win 7).cut (grid0.coords t) ((dat0 V c).after 7 t) = _
  rw [after0_7]
  unfold out0_7
  rw [View.canon_unit_zero hz0]
  simp only [View.ld_unit_zero (S := S1024x784) hz0, View.ld_unit_zero (S := S512x784) hz0, View.ld_unit_zero (S := S1x512) hz0]
  refine pay0_eq_of_forall _ _ _ _ _ _ _ _ fun p q => ?_
  simp only [read0_0 V c t p q, read0_1 V c t p q, read0_2 V c t p q, read0_3 V c t p q, read0_4 V c t p q, read0_5 V c t p q, read0_6 V c t p q]
  rfl

/-- An index of the array is in point `t`'s block iff each coordinate is in the block's range on its axis. -/
theorem mem_blk0 (t : Fin cfg0.N) (i : S8192x6144.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v20).slice (win0_7.rect t)).set ↔ _
  rw [View.set_slice_whole, Rect.mem_set_unit]
  exact Iff.rfl

/-- Every index of the array is in some point's block: the point whose block indices are the row over 1024 and the
    column over 512. -/
theorem cover0 (i : S8192x6144.Idx) : ∃ t : Fin cfg0.N, (cfg0.win 7).flush t = true ∧ i ∈ ((cfg0.win 7).blk t).view.set := by
  have hi0 : (i 0).val < 8192 := (i 0).isLt
  have hi1 : (i 1).val < 6144 := (i 1).isLt
  obtain ⟨t, ht⟩ := idx_onto0 ⟨(i 0).val / 1024, by omega⟩ ⟨(i 1).val / 512, by omega⟩
  have q0 : win0_7.index t (0 : Fin 2) = (i 0).val / 1024 := congrFun ht 0
  have q1 : win0_7.index t (1 : Fin 2) = (i 1).val / 512 := congrFun ht 1
  refine ⟨t, flush0_7 t, ?_⟩
  rw [mem_blk0]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- The output array after the region: `layer0` of the arrays as the region finds them, everywhere. -/
theorem arr0 (c : Dev nD) : (dat0 V c).arrAt 7 cfg0.N = layer0 V c :=
  (dat0 V c).arrAt_eq_of_cover 7 (layer0 V c) (fun t _ => flushed0_eq V c t) cover0

/-- The output array after the region, at row `r` and column `j`. -/
theorem final0 (c : Dev nD) (r : Fin 8192) (j : Fin 6144) :
    (dat0 (F := Ideal) V c).arrAt 7 cfg0.N (ix2 r j) = hidden (V c main_arg0) (V c main_v3) (V c main_v15) (V c main_v16) (V c main_v17) (V c main_v18) (V c main_v19) r j := by
  rw [arr0]; rfl

end Cert.KernelIdeal.FrameValue
-- ==== Proof.RefLayers.lean ====
/-
  The reference, layer by layer, read at an entry. Each hidden layer's activation at row r, unit j is
      sgn (bn (∑ₖ in[r,k] · sgn(W[j,k]))  bias[j]  mean[j]  γ[j]  var[j]  β[j]),
  the incoming activations being the arguments' x for the first layer and the previous layer's signs afterwards: the
  reference transposes the sign matrix and contracts, adds the bias row, normalises, clips to [-1, 1] and takes the
  sign; the clip does not change the sign (Cert.Spec.sgn_clip).
-/
import proofs.«103984_j66743791780425_2_alg».proof.Proof.RefReadP
import proofs.«103984_j66743791780425_2_alg».proof.Proof.Spec
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

/-- Layer 1 at (r, j): the input row against the sign of the first weight matrix's row j. -/
theorem ref_h1 (x0 : (⟨S8192x784, .f32⟩ : BufTy).Contents (Elt Ideal)) (x1 : (⟨S6144x784, .f32⟩ : BufTy).Contents (Elt Ideal))
    (x2 x9 x10 x11 x12 : (⟨S6144, .f32⟩ : BufTy).Contents (Elt Ideal)) (r : Fin 8192) (j : Fin 6144) :
    val_main_v26 (F := Ideal) x0 x1 x2 x9 x10 x11 x12 (ix2 r j) =
      Cert.Spec.sgn (Cert.Spec.bn (∑ k : Fin 784, x0 (ix2 r k) * Cert.Spec.sgn (x1 (ix2 j k))) (x2 (ix1 j)) (x11 (ix1 j)) (x9 (ix1 j)) (x12 (ix1 j)) (x10 (ix1 j))) := by
  simp only [val_main_v26_apply, val_main_v25_apply, val_main_v24_apply, val_main_v22_apply, val_main_call1_v2_apply, val_main_v21_apply, val_main_v18_apply, val_main_v11_apply, val_main_v8_apply, val_main_v5_apply, val_main_v7_apply, val_main_v6_apply, val_main_v10_apply, val_main_v9_apply, val_main_v17_apply, val_main_v16_apply, val_main_v15_apply, val_main_v14_apply, val_main_v13_apply, val_main_v12_apply, val_main_cst_2_apply, val_main_v20_apply, val_main_v19_apply, val_main_call1_v1_apply, val_main_call1_v0_apply, val_main_cst_3_apply, val_main_call1_v4_apply, val_main_call1_v3_apply, val_main_cst_4_apply, val_main_v23_apply, val_main_cst_5_apply, val_main_call2_v0_apply, val_main_call2_v1_apply, val_main_cst_6_apply, val_main_cst_7_apply, val_main_v4_apply, val_main_v3_apply, val_main_v2_apply, val_main_v1_apply, val_main_v0_apply, val_main_cst_apply, val_main_call0_v0_apply, val_main_call0_v1_apply, val_main_cst_0_apply, val_main_cst_1_apply]
  have e1 : ∀ k : Fin 784, lidx_main_v5 (ix2 r j) k = ix2 r k := fun k => funext fun a => by
    match a with | ⟨0, _⟩ => rfl | ⟨1, _⟩ => rfl
  have e2 : ∀ k : Fin 784, idx_main_v4 (ridx_main_v5 (ix2 r j) k) = ix2 j k := fun k => funext fun a => by
    match a with | ⟨0, _⟩ => rfl | ⟨1, _⟩ => rfl
  have e3 : idx_main_v6 (idx_main_v7 (ix2 r j)) = ix1 j := funext fun a => by match a with | ⟨0, _⟩ => rfl
  have e4 : idx_main_v9 (idx_main_v10 (ix2 r j)) = ix1 j := funext fun a => by match a with | ⟨0, _⟩ => rfl
  have e5 : idx_main_v16 (idx_main_v17 (ix2 r j)) = ix1 j := funext fun a => by match a with | ⟨0, _⟩ => rfl
  have e6 : idx_main_v19 (idx_main_v20 (ix2 r j)) = ix1 j := funext fun a => by match a with | ⟨0, _⟩ => rfl
  simp only [e1, e2, e3, e4, e5, e6]
  exact Cert.Spec.sgn_clip _

/-- Layer 2 at (r, j): layer 1's row r against the sign of the second weight matrix's row j. -/
theorem ref_h2 (x0 : (⟨S8192x784, .f32⟩ : BufTy).Contents (Elt Ideal)) (x1 : (⟨S6144x784, .f32⟩ : BufTy).Contents (Elt Ideal)) (x2 : (⟨S6144, .f32⟩ : BufTy).Contents (Elt Ideal))
    (x3 : (⟨S6144x6144, .f32⟩ : BufTy).Contents (Elt Ideal)) (x4 x9 x10 x11 x12 x13 x14 x15 x16 : (⟨S6144, .f32⟩ : BufTy).Contents (Elt Ideal)) (r : Fin 8192) (j : Fin 6144) :
    val_main_v53 (F := Ideal) x0 x1 x2 x3 x4 x9 x10 x11 x12 x13 x14 x15 x16 (ix2 r j) =
      Cert.Spec.sgn (Cert.Spec.bn (∑ k : Fin 6144, val_main_v26 (F := Ideal) x0 x1 x2 x9 x10 x11 x12 (ix2 r k) * Cert.Spec.sgn (x3 (ix2 j k))) (x4 (ix1 j)) (x15 (ix1 j)) (x13 (ix1 j)) (x16 (ix1 j)) (x14 (ix1 j))) := by
  simp only [val_main_v53_apply, val_main_v52_apply, val_main_v51_apply, val_main_v49_apply, val_main_call4_v2_apply, val_main_v48_apply, val_main_v45_apply, val_main_v38_apply, val_main_v35_apply, val_main_v32_apply, val_main_v34_apply, val_main_v33_apply, val_main_v37_apply, val_main_v36_apply, val_main_v44_apply, val_main_v43_apply, val_main_v42_apply, val_main_v41_apply, val_main_v40_apply, val_main_v39_apply, val_main_cst_11_apply, val_main_v47_apply, val_main_v46_apply, val_main_call4_v1_apply, val_main_call4_v0_apply, val_main_cst_12_apply, val_main_call4_v4_apply, val_main_call4_v3_apply, val_main_cst_13_apply, val_main_v50_apply, val_main_cst_14_apply, val_main_call5_v0_apply, val_main_call5_v1_apply, val_main_cst_15_apply, val_main_cst_16_apply, val_main_v31_apply, val_main_v30_apply, val_main_v29_apply, val_main_v28_apply, val_main_v27_apply, val_main_cst_8_apply, val_main_call3_v0_apply, val_main_call3_v1_apply, val_main_cst_9_apply, val_main_cst_10_apply]
  have e1 : ∀ k : Fin 6144, lidx_main_v32 (ix2 r j) k = ix2 r k := fun k => funext fun a => by
    match a with | ⟨0, _⟩ => rfl | ⟨1, _⟩ => rfl
  have e2 : ∀ k : Fin 6144, idx_main_v31 (ridx_main_v32 (ix2 r j) k) = ix2 j k := fun k => funext fun a => by
    match a with | ⟨0, _⟩ => rfl | ⟨1, _⟩ => rfl
  have e3 : idx_main_v33 (idx_main_v34 (ix2 r j)) = ix1 j := funext fun a => by match a with | ⟨0, _⟩ => rfl
  have e4 : idx_main_v36 (idx_main_v37 (ix2 r j)) = ix1 j := funext fun a => by match a with | ⟨0, _⟩ => rfl
  have e5 : idx_main_v43 (idx_main_v44 (ix2 r j)) = ix1 j := funext fun a => by match a with | ⟨0, _⟩ => rfl
  have e6 : idx_main_v46 (idx_main_v47 (ix2 r j)) = ix1 j := funext fun a => by match a with | ⟨0, _⟩ => rfl
  simp only [e1, e2, e3, e4, e5, e6]
  exact Cert.Spec.sgn_clip _

/-- Layer 3 at (r, j): layer 2's row r against the sign of the third weight matrix's row j. -/
theorem ref_h3 (x0 : (⟨S8192x784, .f32⟩ : BufTy).Contents (Elt Ideal)) (x1 : (⟨S6144x784, .f32⟩ : BufTy).Contents (Elt Ideal)) (x2 : (⟨S6144, .f32⟩ : BufTy).Contents (Elt Ideal))
    (x3 : (⟨S6144x6144, .f32⟩ : BufTy).Contents (Elt Ideal)) (x4 : (⟨S6144, .f32⟩ : BufTy).Contents (Elt Ideal)) (x5 : (⟨S6144x6144, .f32⟩ : BufTy).Contents (Elt Ideal))
    (x6 x9 x10 x11 x12 x13 x14 x15 x16 x17 x18 x19 x20 : (⟨S6144, .f32⟩ : BufTy).Contents (Elt Ideal)) (r : Fin 8192) (j : Fin 6144) :
    val_main_v80 (F := Ideal) x0 x1 x2 x3 x4 x5 x6 x9 x10 x11 x12 x13 x14 x15 x16 x17 x18 x19 x20 (ix2 r j) =
      Cert.Spec.sgn (Cert.Spec.bn (∑ k : Fin 6144, val_main_v53 (F := Ideal) x0 x1 x2 x3 x4 x9 x10 x11 x12 x13 x14 x15 x16 (ix2 r k) * Cert.Spec.sgn (x5 (ix2 j k))) (x6 (ix1 j)) (x19 (ix1 j)) (x17 (ix1 j)) (x20 (ix1 j)) (x18 (ix1 j))) := by
  simp only [val_main_v80_apply, val_main_v79_apply, val_main_v78_apply, val_main_v76_apply, val_main_call7_v2_apply, val_main_v75_apply, val_main_v72_apply, val_main_v65_apply, val_main_v62_apply, val_main_v59_apply, val_main_v61_apply, val_main_v60_apply, val_main_v64_apply, val_main_v63_apply, val_main_v71_apply, val_main_v70_apply, val_main_v69_apply, val_main_v68_apply, val_main_v67_apply, val_main_v66_apply, val_main_cst_20_apply, val_main_v74_apply, val_main_v73_apply, val_main_call7_v1_apply, val_main_call7_v0_apply, val_main_cst_21_apply, val_main_call7_v4_apply, val_main_call7_v3_apply, val_main_cst_22_apply, val_main_v77_apply, val_main_cst_23_apply, val_main_call8_v0_apply, val_main_call8_v1_apply, val_main_cst_24_apply, val_main_cst_25_apply, val_main_v58_apply, val_main_v57_apply, val_main_v56_apply, val_main_v55_apply, val_main_v54_apply, val_main_cst_17_apply, val_main_call6_v0_apply, val_main_call6_v1_apply, val_main_cst_18_apply, val_main_cst_19_apply]
  have e1 : ∀ k : Fin 6144, lidx_main_v59 (ix2 r j) k = ix2 r k := fun k => funext fun a => by
    match a with | ⟨0, _⟩ => rfl | ⟨1, _⟩ => rfl
  have e2 : ∀ k : Fin 6144, idx_main_v58 (ridx_main_v59 (ix2 r j) k) = ix2 j k := fun k => funext fun a => by
    match a with | ⟨0, _⟩ => rfl | ⟨1, _⟩ => rfl
  have e3 : idx_main_v60 (idx_main_v61 (ix2 r j)) = ix1 j := funext fun a => by match a with | ⟨0, _⟩ => rfl
  have e4 : idx_main_v63 (idx_main_v64 (ix2 r j)) = ix1 j := funext fun a => by match a with | ⟨0, _⟩ => rfl
  have e5 : idx_main_v70 (idx_main_v71 (ix2 r j)) = ix1 j := funext fun a => by match a with | ⟨0, _⟩ => rfl
  have e6 : idx_main_v73 (idx_main_v74 (ix2 r j)) = ix1 j := funext fun a => by match a with | ⟨0, _⟩ => rfl
  simp only [e1, e2, e3, e4, e5, e6]
  exact Cert.Spec.sgn_clip _

end Cert.ReferenceIdeal.RefValue

end
-- ==== Proof.KernelIdealValue.Layer1.lean ====
/- The first region's output array is the reference's first hidden layer: entry by entry both are the sign of the
   batch-normalised pre-activation of the input row against the sign of the weight row. -/
import proofs.«103984_j66743791780425_2_alg».proof.Proof.KernelIdealValue.Val0
import proofs.«103984_j66743791780425_2_alg».proof.Proof.KernelIdealValue.Host
import proofs.«103984_j66743791780425_2_alg».proof.Proof.RefLayers

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx

variable (m : (ℓ : Loc nD τ sig) → Buf (Elt Ideal) ℓ)

/-- After the first region, the array of first-layer activations is the reference's first hidden layer of the launch
    arguments. -/
theorem layer1_eq (c : Dev nD) :
    (W8 m c (Proc.devRef .tc main_v20) : S8192x6144.Idx → EReal)
      = Cert.ReferenceIdeal.ReadP.val_main_v26 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) := by
  funext i
  obtain ⟨r, j, rfl⟩ : ∃ (r : Fin 8192) (j : Fin 6144), i = ix2 r j := ⟨i 0, i 1, eq_ix2 i⟩
  have h8 : W8 m c (Proc.devRef .tc main_v20) = (dat0 (E0 m) c).arrAt 7 cfg0.N := W8_arr m c 7
  refine (congrFun h8 (ix2 r j)).trans ?_
  refine (final0 (E0 m) c r j).trans ?_
  unfold hidden
  simp only [in_x m c, sgn_w1 m c, row0_bias m c j, row0_gamma m c j, row0_beta m c j, row0_mean m c j, row0_var m c j]
  exact (Cert.ReferenceIdeal.RefValue.ref_h1 _ _ _ _ _ _ _ r j).symm

end Cert.KernelIdeal.FrameValue
-- ==== Proof.KernelIdealValue.Layer2.lean ====
/- The second region's output array is the reference's second hidden layer: the incoming activations are the first
   layer's, which the first region left and the reshapes between the regions do not touch. -/
import proofs.«103984_j66743791780425_2_alg».proof.Proof.KernelIdealValue.Val1
import proofs.«103984_j66743791780425_2_alg».proof.Proof.KernelIdealValue.Host
import proofs.«103984_j66743791780425_2_alg».proof.Proof.KernelIdealValue.Layer1
import proofs.«103984_j66743791780425_2_alg».proof.Proof.RefLayers

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx

variable (m : (ℓ : Loc nD τ sig) → Buf (Elt Ideal) ℓ)

/-- After region 1, its output array is the reference's hidden layer 2 of the launch arguments. -/
theorem layer2_eq (c : Dev nD) :
    (W10 m c (Proc.devRef .tc main_v26) : S8192x6144.Idx → EReal)
      = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  obtain ⟨r, j, rfl⟩ : ∃ (r : Fin 8192) (j : Fin 6144), i = ix2 r j := ⟨i 0, i 1, eq_ix2 i⟩
  have hw : W10 m c (Proc.devRef .tc main_v26) = (dat1 (E1 m) c).arrAt 7 cfg1.N := W10_arr m c 7
  refine (congrFun hw (ix2 r j)).trans ?_
  refine (final1 (E1 m) c r j).trans ?_
  unfold hidden1
  simp only [in1_h m c, layer1_eq m c, in1_w m c, row1_bias m c j, row1_gamma m c j, row1_beta m c j, row1_mean m c j, row1_var m c j]
  exact (Cert.ReferenceIdeal.RefValue.ref_h2 _ _ _ _ _ _ _ _ _ _ _ _ _ r j).symm

end Cert.KernelIdeal.FrameValue
-- ==== Proof.KernelIdealValue.Layer3.lean ====
/- The third region's output array is the reference's third hidden layer: the incoming activations are the second
   layer's, which the second region left and the reshapes between the regions do not touch. -/
import proofs.«103984_j66743791780425_2_alg».proof.Proof.KernelIdealValue.Val2
import proofs.«103984_j66743791780425_2_alg».proof.Proof.KernelIdealValue.Host
import proofs.«103984_j66743791780425_2_alg».proof.Proof.KernelIdealValue.Layer2
import proofs.«103984_j66743791780425_2_alg».proof.Proof.RefLayers

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx

variable (m : (ℓ : Loc nD τ sig) → Buf (Elt Ideal) ℓ)

/-- After region 2, its output array is the reference's hidden layer 3 of the launch arguments. -/
theorem layer3_eq (c : Dev nD) :
    (W12 m c (Proc.devRef .tc main_v32) : S8192x6144.Idx → EReal)
      = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  obtain ⟨r, j, rfl⟩ : ∃ (r : Fin 8192) (j : Fin 6144), i = ix2 r j := ⟨i 0, i 1, eq_ix2 i⟩
  have hw : W12 m c (Proc.devRef .tc main_v32) = (dat2 (E2 m) c).arrAt 7 cfg2.N := W12_arr m c 7
  refine (congrFun hw (ix2 r j)).trans ?_
  refine (final2 (E2 m) c r j).trans ?_
  unfold hidden2
  simp only [in2_h m c, layer2_eq m c, in2_w m c, row2_bias m c j, row2_gamma m c j, row2_beta m c j, row2_mean m c j, row2_var m c j]
  exact (Cert.ReferenceIdeal.RefValue.ref_h3 _ _ _ _ _ _ _ _ _ _ _ _ _ _ _ _ _ _ _ r j).symm

end Cert.KernelIdeal.FrameValue
-- ==== Proof.RefOut.lean ====
/-
  The reference's last layer read at an entry: the logits at (r, q) are the third layer's row r against row q of the
  head's weight matrix plus the bias; the result is the log-softmax of row r of the logits. The reference takes the
  row's maximum by a fold from -∞ and then the maximum with -∞ once more, which changes nothing.
-/
import proofs.«103984_j66743791780425_2_alg».proof.Proof.RefReadP
import proofs.«103984_j66743791780425_2_alg».proof.Proof.SpecSoftmax
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

/-- The logits at (r, q). -/
theorem ref_logits (x0 : (⟨S8192x784, .f32⟩ : BufTy).Contents (Elt Ideal)) (x1 : (⟨S6144x784, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S10x6144, .f32⟩ : BufTy).Contents (Elt Ideal)) (x8 : (⟨S10, .f32⟩ : BufTy).Contents (Elt Ideal)) (x9 x10 x11 x12 x13 x14 x15 x16 x17 x18 x19 x20 : (⟨S6144, .f32⟩ : BufTy).Contents (Elt Ideal)) (r : Fin 8192) (q : Fin 10) :
    val_main_v85 (F := Ideal) x0 x1 x2 x3 x4 x5 x6 x7 x8 x9 x10 x11 x12 x13 x14 x15 x16 x17 x18 x19 x20 (ix2 r q) =
      (∑ k : Fin 6144, val_main_v80 (F := Ideal) x0 x1 x2 x3 x4 x5 x6 x9 x10 x11 x12 x13 x14 x15 x16 x17 x18 x19 x20 (ix2 r k) * x7 (ix2 q k)) + x8 (ix1 q) := by
  simp only [val_main_v85_apply, val_main_v82_apply, val_main_v84_apply, val_main_v83_apply, val_main_v81_apply]
  have e1 : ∀ k : Fin 6144, lidx_main_v82 (ix2 r q) k = ix2 r k := fun k => funext fun a => by
    match a with | ⟨0, _⟩ => rfl | ⟨1, _⟩ => rfl
  have e2 : ∀ k : Fin 6144, idx_main_v81 (ridx_main_v82 (ix2 r q) k) = ix2 q k := fun k => funext fun a => by
    match a with | ⟨0, _⟩ => rfl | ⟨1, _⟩ => rfl
  have e3 : idx_main_v83 (idx_main_v84 (ix2 r q)) = ix1 q := funext fun a => by match a with | ⟨0, _⟩ => rfl
  simp only [e1, e2, e3]
  rfl

set_option maxRecDepth 200000 in
/-- The row maximum the reference folds from -∞. -/
theorem ref_rowmax (x0 : (⟨S8192x784, .f32⟩ : BufTy).Contents (Elt Ideal)) (x1 : (⟨S6144x784, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S10x6144, .f32⟩ : BufTy).Contents (Elt Ideal)) (x8 : (⟨S10, .f32⟩ : BufTy).Contents (Elt Ideal)) (x9 x10 x11 x12 x13 x14 x15 x16 x17 x18 x19 x20 : (⟨S6144, .f32⟩ : BufTy).Contents (Elt Ideal)) (r : Fin 8192) :
    val_main_call9_v0 (F := Ideal) x0 x1 x2 x3 x4 x5 x6 x7 x8 x9 x10 x11 x12 x13 x14 x15 x16 x17 x18 x19 x20 (ix1 r) = Cert.Spec.rowMax (fun q' => val_main_v85 (F := Ideal) x0 x1 x2 x3 x4 x5 x6 x7 x8 x9 x10 x11 x12 x13 x14 x15 x16 x17 x18 x19 x20 (ix2 r q')) := by
  unfold val_main_call9_v0
  generalize (val_main_v85 (F := Ideal) x0 x1 x2 x3 x4 x5 x6 x7 x8 x9 x10 x11 x12 x13 x14 x15 x16 x17 x18 x19 x20 : S8192x10.Idx → Ideal .f32) = y
  have hR : S8192x10.Reduces [1] S8192 := by decide
  refine (Host.reduce_eq_fold_single (α := Ideal .f32) (FloatOps.maximumf (F := Ideal) (φ := .f32)) y _ reducesTo_S8192x10_S8192_d1 hR h_S_ (ix1 r)).trans ?_
  have el : (y ∘ hR.lift (ix1 r)) = fun q' : Fin 10 => y (ix2 r q') := funext fun k => congrArg y (funext fun a => Fin.ext (by
    match a with | ⟨0, _⟩ => rfl | ⟨1, _⟩ => rfl))
  rw [el]
  show (Finset.univ : Finset (Fin 10)).fold max (Ideal.ofBits .f32 0xFF800000#32) (fun q' : Fin 10 => y (ix2 r q')) = _
  rw [Cert.Spec.ofBits_neg_inf_f32]
  rfl

/-- The result at (r, q): the log-softmax of the logits' row r. -/
theorem ref_out (x0 : (⟨S8192x784, .f32⟩ : BufTy).Contents (Elt Ideal)) (x1 : (⟨S6144x784, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S10x6144, .f32⟩ : BufTy).Contents (Elt Ideal)) (x8 : (⟨S10, .f32⟩ : BufTy).Contents (Elt Ideal)) (x9 x10 x11 x12 x13 x14 x15 x16 x17 x18 x19 x20 : (⟨S6144, .f32⟩ : BufTy).Contents (Elt Ideal)) (r : Fin 8192) (q : Fin 10) :
    val_main_v86 (F := Ideal) x0 x1 x2 x3 x4 x5 x6 x7 x8 x9 x10 x11 x12 x13 x14 x15 x16 x17 x18 x19 x20 (ix2 r q) = Cert.Spec.lsm (fun q' => val_main_v85 (F := Ideal) x0 x1 x2 x3 x4 x5 x6 x7 x8 x9 x10 x11 x12 x13 x14 x15 x16 x17 x18 x19 x20 (ix2 r q')) q := by
  simp only [val_main_v86_apply, val_main_call9_v5_apply, val_main_call9_v10_apply, val_main_call9_v9_apply, val_main_call9_v8_apply, val_main_call9_v7_apply, val_main_call9_v6_apply, val_main_call9_v4_apply, val_main_call9_v3_apply, val_main_call9_v2_apply, val_main_call9_v1_apply, val_main_call9_cst_0_apply, val_main_call9_cst_1_apply]
  have e1 : idx_main_call9_v3 (idx_main_call9_v4 (ix2 r q)) = ix1 r := funext fun a => by match a with | ⟨0, _⟩ => rfl
  have e2 : ∀ k : Fin 10, idx_main_call9_v3 (idx_main_call9_v4 (idx_main_call9_v7 (idx_main_call9_v8 (idx_main_call9_v10 (ix2 r q))) k)) = ix1 r := fun k =>
    funext fun a => by match a with | ⟨0, _⟩ => rfl
  have e3 : ∀ k : Fin 10, idx_main_call9_v7 (idx_main_call9_v8 (idx_main_call9_v10 (ix2 r q))) k = ix2 r k := fun k =>
    funext fun a => by match a with | ⟨0, _⟩ => rfl | ⟨1, _⟩ => rfl
  simp only [e1, e2, e3, ref_rowmax]
  simp only [Ideal.ofBits_def, Ideal.maximumf_def, Cert.Spec.ofBits_neg_inf_f32, Cert.Spec.max_bot_rowMax, Ideal.ofBits_zero_f32, zero_add]
  rfl

end Cert.ReferenceIdeal.RefValue

end
-- ==== Proof.KernelIdealValue.Out.lean ====
/- The last region's output array is the reference's result: row by row both are the log-softmax of the same ten
   logits, the third hidden layer's row against each of the ten weight rows, plus the bias. -/
import proofs.«103984_j66743791780425_2_alg».proof.Proof.KernelIdealValue.Val3
import proofs.«103984_j66743791780425_2_alg».proof.Proof.KernelIdealValue.Host
import proofs.«103984_j66743791780425_2_alg».proof.Proof.KernelIdealValue.Layer3
import proofs.«103984_j66743791780425_2_alg».proof.Proof.RefOut

set_option maxRecDepth 16384

noncomputable section

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx

variable (m : (ℓ : Loc nD τ sig) → Buf (Elt Ideal) ℓ)

/-- After the last region, the output array is the reference's result on the launch arguments: row by row the
    log-softmax of the same ten logits. -/
theorem out_eq (c : Dev nD) :
    (W14 m c (Proc.devRef .tc main_v34) : S8192x10.Idx → EReal)
      = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  obtain ⟨r, q, rfl⟩ : ∃ (r : Fin 8192) (q : Fin 10), i = ix2 r q := ⟨i 0, i 1, eq_ix2 i⟩
  have hw : W14 m c (Proc.devRef .tc main_v34) = (dat3 (E3 m) c).arrAt 3 cfg3.N := W14_arr m c 3
  refine (congrFun hw (ix2 r q)).trans ?_
  refine (final3 (E3 m) c r q).trans ?_
  have hrow : logits3 (E3 m) c r = fun q' : Fin 10 => Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (ix2 r q') := by
    funext q'
    unfold logits3
    simp only [in3_h m c, layer3_eq m c, in3_w m c, row3_bias m c q']
    exact (Cert.ReferenceIdeal.RefValue.ref_logits _ _ _ _ _ _ _ _ _ _ _ _ _ _ _ _ _ _ _ _ _ r q').symm
  rw [hrow]
  exact (Cert.ReferenceIdeal.RefValue.ref_out _ _ _ _ _ _ _ _ _ _ _ _ _ _ _ _ _ _ _ _ _ r q).symm

end Cert.KernelIdeal.FrameValue
-- ==== Proof.KernelIdealValue.Result.lean ====
/-
  The idealized kernel program's run read at the result array and at the arguments together: the result array ends at
  the last boundary's contents, every argument array as launched.
-/
import proofs.«103984_j66743791780425_2_alg».proof.Proof.KernelIdealFrame.Run

set_option maxRecDepth 16384

noncomputable section

namespace Cert.KernelIdeal.Frame

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem result_frame : θ_run defs (onTc (τ := τ) (main (F := F))) ⟨m, fun _ => 0, ρ⟩ (fun r => ∀ c : Dev nD,
      r.2.mem ((c.tc : Thread nD τ).loc main_v34) = W14 m c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ (mem_uc main_v34 (by decide)),
    (h c _ (mem_uc main_arg0 (by decide))).trans (W14_kept m c main_arg0 (by decide)),
    (h c _ (mem_uc main_arg1 (by decide))).trans (W14_kept m c main_arg1 (by decide)),
    (h c _ (mem_uc main_arg2 (by decide))).trans (W14_kept m c main_arg2 (by decide)),
    (h c _ (mem_uc main_arg3 (by decide))).trans (W14_kept m c main_arg3 (by decide)),
    (h c _ (mem_uc main_arg4 (by decide))).trans (W14_kept m c main_arg4 (by decide)),
    (h c _ (mem_uc main_arg5 (by decide))).trans (W14_kept m c main_arg5 (by decide)),
    (h c _ (mem_uc main_arg6 (by decide))).trans (W14_kept m c main_arg6 (by decide)),
    (h c _ (mem_uc main_arg7 (by decide))).trans (W14_kept m c main_arg7 (by decide)),
    (h c _ (mem_uc main_arg8 (by decide))).trans (W14_kept m c main_arg8 (by decide)),
    (h c _ (mem_uc main_arg9 (by decide))).trans (W14_kept m c main_arg9 (by decide)),
    (h c _ (mem_uc main_arg10 (by decide))).trans (W14_kept m c main_arg10 (by decide)),
    (h c _ (mem_uc main_arg11 (by decide))).trans (W14_kept m c main_arg11 (by decide)),
    (h c _ (mem_uc main_arg12 (by decide))).trans (W14_kept m c main_arg12 (by decide)),
    (h c _ (mem_uc main_arg13 (by decide))).trans (W14_kept m c main_arg13 (by decide)),
    (h c _ (mem_uc main_arg14 (by decide))).trans (W14_kept m c main_arg14 (by decide)),
    (h c _ (mem_uc main_arg15 (by decide))).trans (W14_kept m c main_arg15 (by decide)),
    (h c _ (mem_uc main_arg16 (by decide))).trans (W14_kept m c main_arg16 (by decide)),
    (h c _ (mem_uc main_arg17 (by decide))).trans (W14_kept m c main_arg17 (by decide)),
    (h c _ (mem_uc main_arg18 (by decide))).trans (W14_kept m c main_arg18 (by decide)),
    (h c _ (mem_uc main_arg19 (by decide))).trans (W14_kept m c main_arg19 (by decide)),
    (h c _ (mem_uc main_arg20 (by decide))).trans (W14_kept m c main_arg20 (by decide))⟩) (run_all m ρ)

end Cert.KernelIdeal.Frame

end
-- ==== Proof.lean ====
/-
  The certificate of a three-hidden-layer binarized network against its jnp reference.

  The kernel program is four kernel regions among host stretches: the host replaces the three hidden weight matrices
  by their signs; region 0 computes, tile by tile, sgn(bn(x · sgn(W₁)ᵀ + b₁)); regions 1 and 2 the same for the next
  two layers, the contraction accumulated over twelve blocks of 512 in a scratch tile that is reset at the first
  block and read out (bias, batch norm, sign) at the last; region 3 accumulates the head's product over six blocks of
  1024 and, at the last, adds the bias and takes the row-wise log-softmax.
  Frames: each region's body is run symbolically once per control case; the four regions and the host stretches are
  composed into one run of @main whose final buffer contents are named by a fold from the launch memory, in which no
  argument array is ever written. The word-level program and its idealization are the same text, so the same proof,
  generic in the float instance, serves both. The reference is a straight-line host program: its frame is its run.
  No operation of the kernel is rewritten by the ideal pass, so there is nothing to preserve.
  Values (at the ideal instance): the fold's last contents of the result array are read back layer by layer — a sum
  accumulated block by block onto zero is the whole sum, because addition on the extended reals is associative and
  commutative — and meet the reference's stages entry by entry; the reference clips to [-1, 1] before each sign, which
  does not change a sign.
-/
import proofs.«103984_j66743791780425_2_alg».proof.Defs
import proofs.«103984_j66743791780425_2_alg».proof.Proof.Gen.Kernel
import proofs.«103984_j66743791780425_2_alg».proof.Proof.Gen.KernelIdeal
import proofs.«103984_j66743791780425_2_alg».proof.Proof.Gen.ReferenceIdeal
import proofs.«103984_j66743791780425_2_alg».proof.Proof.Gen.Pre_finite_inputs
import proofs.«103984_j66743791780425_2_alg».proof.Proof.KernelFrame.Run
import proofs.«103984_j66743791780425_2_alg».proof.Proof.KernelIdealFrame.Run
import proofs.«103984_j66743791780425_2_alg».proof.Proof.RefRunP
import proofs.«103984_j66743791780425_2_alg».proof.Proof.KernelIdealValue.Out
import proofs.«103984_j66743791780425_2_alg».proof.Proof.KernelIdealValue.Result
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ => Cert.Kernel.Frame.frame (F := Bits) m ρ

/-- So does its idealization: the same run at the ideal instance. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.Frame.W14 (F := Ideal) m c (Proc.devRef .tc Cert.KernelIdeal.main_v34), Cert.KernelIdeal.Frame.result_frame (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨e0, e1, e2, e3, e4, e5, e6, e7, e8, e9, e10, e11, e12, e13, e14, e15, e16, e17, e18, e19, e20⟩ := hagree c
  rw [Cert.ReferenceIdeal.ReadP.val_main_v86_eq, e0, e1, e2, e3, e4, e5, e6, e7, e8, e9, e10, e11, e12, e13, e14, e15, e16, e17, e18, e19, e20]
  exact (Cert.KernelIdeal.FrameValue.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
